-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x128 : Shape := ⟨2, ![1024, 128]⟩
abbrev S128 : Shape := ⟨1, ![128]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S1024x128 .f32) (main_arg6 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x2048x1024 .f32) (main_arg1 : FVec F S1024x128 .f32) (main_arg2 : FVec F S128 .f32) (main_arg3 : FVec F S1024x128 .f32) (main_arg4 : FVec F S128 .f32) (main_arg5 : FVec F S1024x128 .f32) (main_arg6 : FVec F S128 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_v13 main_v16
-- ==== Kernel.lean ====
abbrev S4x2048x1024 : Shape := ⟨3, ![4, 2048, 1024]⟩
abbrev S1024x128 : Shape := ⟨2, ![1024, 128]⟩
abbrev S128 : Shape := ⟨1, ![128]⟩
abbrev S4x2048x128 : Shape := ⟨3, ![4, 2048, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1x128 : Shape := ⟨2, ![1, 128]⟩
abbrev S1024x1 : Shape := ⟨2, ![1024, 1]⟩
abbrev S1024 : Shape := ⟨1, ![1024]⟩

abbrev nBuf : Space → Nat
  | .hbm => 11
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x128, .f32⟩
  | .hbm, ⟨6, _⟩ => ⟨S128, .f32⟩
  | .hbm, ⟨7, _⟩ => ⟨S4x2048x128, .bf16⟩
  | .hbm, ⟨8, _⟩ => ⟨S4x2048x128, .bf16⟩
  | .hbm, ⟨9, _⟩ => ⟨S4x2048x128, .bf16⟩
  | .hbm, ⟨10, _⟩ => ⟨S4x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .f32⟩
  | .local _ .vmem, ⟨3, _⟩ => ⟨S128, .f32⟩
  | .local _ .vmem, ⟨4, _⟩ => ⟨S1024x128, .f32⟩
  | .local _ .vmem, ⟨5, _⟩ => ⟨S128, .f32⟩
  | .local _ .vmem, ⟨6, _⟩ => ⟨S1024x128, .f32⟩
  | .local _ .vmem, ⟨7, _⟩ => ⟨S128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x1024x128, .f32⟩
  | .local _ .vmem, ⟨21, _⟩ => ⟨S1x1024x128, .f32⟩
  | .local _ .vmem, ⟨22, _⟩ => ⟨S1024x1, .f32⟩
  | .local _ .vmem, ⟨23, _⟩ => ⟨S1024x1, .f32⟩
  | .local _ .vmem, ⟨24, _⟩ => ⟨S1024x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 2, 2], ![false, false, false]⟩

def k1_cond2 (i : grid1.Coords) : BitVec 1 :=
  let arg2 : BitVec 32 := BitVec.ofNat 32 (i 2).val
  let c1_i32 : BitVec 32 := 1#32
  let v42 : BitVec 1 := Scalar.cmpi .eq arg2 c1_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x128_S1024x128 : S1024x128.ShapeCasts S1024x128
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  dot_S1024x1024_S1024x128_S1024x128_1_0_0_1_n_n_wf : DotDims.WF S1024x1024 S1024x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .f32 = 32 ∨ (Rect.block (s := S4x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x128.size a ≤ S4x2048x128.size a
  hwx0_7 : ∀ i : grid0.Coords, EltTy.bits .bf16 = 32 ∨ (Rect.block (s := S4x2048x128) S1x1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x128.size a ≤ S4x2048x128.size a
  hwx0_8 : ∀ i : grid0.Coords, EltTy.bits .bf16 = 32 ∨ (Rect.block (s := S4x2048x128) S1x1024x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x128.size a ≤ S4x2048x128.size a
  hwx0_9 : ∀ i : grid0.Coords, EltTy.bits .bf16 = 32 ∨ (Rect.block (s := S4x2048x128) S1x1024x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x2048x128.size a
  hwx1_0 : ∀ i : grid1.Coords, EltTy.bits .bf16 = 32 ∨ (Rect.block (s := S4x2048x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x2048x128.size a
  hwx1_1 : ∀ i : grid1.Coords, EltTy.bits .bf16 = 32 ∨ (Rect.block (s := S4x2048x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S4x2048x128.size a
  hwx1_2 : ∀ i : grid1.Coords, EltTy.bits .bf16 = 32 ∨ (Rect.block (s := S4x2048x128) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x2048x128.size a
  hwx1_3 : ∀ i : grid1.Coords, EltTy.bits .f32 = 32 ∨ (Rect.block (s := S4x2048x128) S1x1024x128.size (cc1_transform_3 i) (hinb1_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x128 : Shape := ⟨2, ![1024, 128]⟩
abbrev S128 : Shape := ⟨1, ![128]⟩
abbrev S4x2048x128 : Shape := ⟨3, ![4, 2048, 128]⟩
abbrev S1x1x128 : Shape := ⟨3, ![1, 1, 128]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x128, .f32⟩
  | .hbm, ⟨6, _⟩ => ⟨S128, .f32⟩
  | .hbm, ⟨7, _⟩ => ⟨S4x2048x128, .f32⟩
  | .hbm, ⟨8, _⟩ => ⟨S1x1x128, .f32⟩
  | .hbm, ⟨9, _⟩ => ⟨S4x2048x128, .f32⟩
  | .hbm, ⟨10, _⟩ => ⟨S4x2048x128, .f32⟩
  | .hbm, ⟨11, _⟩ => ⟨S4x2048x128, .f32⟩
  | .hbm, ⟨12, _⟩ => ⟨S1x1x128, .f32⟩
  | .hbm, ⟨13, _⟩ => ⟨S4x2048x128, .f32⟩
  | .hbm, ⟨14, _⟩ => ⟨S4x2048x128, .f32⟩
  | .hbm, ⟨15, _⟩ => ⟨S4x2048x128, .f32⟩
  | .hbm, ⟨16, _⟩ => ⟨S1x1x128, .f32⟩
  | .hbm, ⟨17, _⟩ => ⟨S4x2048x128, .f32⟩
  | .hbm, ⟨18, _⟩ => ⟨S4x2048x128, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x2048x128_0_1_2 : S1x1x128.BroadcastsInDim S4x2048x128 (![0, 1, 2] : Fin 3 → Fin S4x2048x128.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x128_S4x2048x128_2_0_01_1_n_n_wf : DotDims.WF S4x2048x1024 S1024x128 S4x2048x128 [2] [0] [0, 1] [1] [] []
  dot_S4x2048x128_S4x2048x128_S4x2048x2048_2_2_1_1_0_0_wf : DotDims.WF S4x2048x128 S4x2048x128 S4x2048x2048 [2] [2] [1] [1] [0] [0]
  dot_S4x2048x2048_S4x2048x128_S4x2048x128_2_1_1_2_0_0_wf : DotDims.WF S4x2048x2048 S4x2048x128 S4x2048x128 [2] [1] [1] [2] [0] [0]

variable [Facts₀]

def dot_S4x2048x1024_S1024x128_S4x2048x128_2_0_01_1_n_n : DotDims S4x2048x1024 S1024x128 S4x2048x128 where
  lhsContracting := [2]
  rhsContracting := [0]
  lhsNonContracting := [0, 1]
  rhsNonContracting := [1]
  lhsBatch := []
  rhsBatch := []
  wf := dot_S4x2048x1024_S1024x128_S4x2048x128_2_0_01_1_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def dot_S4x2048x2048_S4x2048x128_S4x2048x128_2_1_1_2_0_0 : DotDims S4x2048x2048 S4x2048x128 S4x2048x128 where
  lhsContracting := [2]
  rhsContracting := [1]
  lhsNonContracting := [1]
  rhsNonContracting := [2]
  lhsBatch := [0]
  rhsBatch := [0]
  wf := dot_S4x2048x2048_S4x2048x128_S4x2048x128_2_1_1_2_0_0_wf

class Facts : Prop extends Facts₀ where

variable [Facts]
-- ==== Proof.Run.lean ====
/-
  The whole run of @main, from the two regions' halves.

  @main is two kernel regions and nothing else. The buffers' contents are followed through it as a fold: the launch
  memory, then region 0's arrays at what its write-backs leave (every other buffer as entered), then the same for
  region 1. Given, per region, what the body leaves in each window's staging buffer at each point and the invariant it
  keeps — entered from and left at the scoped rest beside the generator register — with the body obligation of the
  proof data so made (arrays at the region-entry contents, full shares, nothing owed), every weakly fair execution of
  @main terminates and the final memory holds every unscoped buffer at the end of that fold. The argument arrays are
  read back through the fold to the launch memory: no region writes one.
-/
import proofs.«112745_j14748917694967_2_alg».proof.Proof.Gen.KernelIdeal.Launch
import proofs.«112745_j14748917694967_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: region 0's entry contents. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

section Data

-- what region 0's body leaves in each window's staging buffer at each point, and the invariant it keeps
variable (aft0 : (c : Dev nD) → (w : Fin cfg0.W) → Fin cfg0.N → (cfg0.win w).block.Idx → Elt F (cfg0.win w).elt)
  (Φ0 : (c : Dev nD) → Fin (cfg0.N + 1) → sProp (MT nD τ sig Unit (Elt F) ℕ (UR sig nD τ) ℕ))

/-- Region 0's proof data: its arrays as launched, full shares, nothing owed. -/
def d0 (c : Dev nD) : Dat τ (Elt F) Unit ℕ (UR sig nD τ) ℕ cfg0 c where
  A w := V0 m ρ c (Pipeline.arrRef spec0 w)
  after := aft0 c
  Φ := Φ0 c
  q _ := fullShare
  owed _ := 0

/-- At region 0's exit: its arrays at what the pipeline leaves, every other buffer as entered. -/
def W1 (c : Dev nD) : Valuation τ sig (Elt F) :=
  Pipeline.withArrays spec0 c (W0 m ρ c) fun w => (d0 m ρ aft0 Φ0 c).arrAt w cfg0.N
theorem W1_arr (c : Dev nD) (w : Fin cfg0.W) :
    W1 m ρ aft0 Φ0 c (Proc.devRef .tc (Pipeline.arrRef spec0 w)) = (d0 m ρ aft0 Φ0 c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ aft0 Φ0 c (Proc.devRef .tc b) = W0 m ρ c (Proc.devRef .tc b) := by
  unfold W1; exact Pipeline.withArrays_of_ne spec0 c _ _ b hb
/-- The same read at the TensorCore's references: region 1's entry contents. -/
abbrev V1 : (c : Dev nD) → (b : Ref sig .tc) → Buf (Elt F) ((c : Thread nD τ).loc b) := fun c b => W1 m ρ aft0 Φ0 c b
theorem hF0 (c : Dev nD) (w : Fin cfg0.W) : (d0 m ρ aft0 Φ0 c).arrAt w cfg0.N = V1 m ρ aft0 Φ0 c (Pipeline.arrRef spec0 w) :=
  (W1_arr m ρ aft0 Φ0 c w).symm
theorem hrest0 (c : Dev nD) : ∀ b, b ∉ Finset.univ.image (Pipeline.arrRef spec0) → V1 m ρ aft0 Φ0 c b = V0 m ρ c b :=
  fun b hb => W1_of_ne m ρ aft0 Φ0 c b fun w e => hb (Finset.mem_image.mpr ⟨w, Finset.mem_univ _, e⟩)

-- the same of region 1
variable (aft1 : (c : Dev nD) → (w : Fin cfg1.W) → Fin cfg1.N → (cfg1.win w).block.Idx → Elt F (cfg1.win w).elt)
  (Φ1 : (c : Dev nD) → Fin (cfg1.N + 1) → sProp (MT nD τ sig Unit (Elt F) ℕ (UR sig nD τ) ℕ))

/-- Region 1's proof data: its arrays as region 0 left them, full shares, nothing owed. -/
def d1 (c : Dev nD) : Dat τ (Elt F) Unit ℕ (UR sig nD τ) ℕ cfg1 c where
  A w := V1 m ρ aft0 Φ0 c (Pipeline.arrRef spec1 w)
  after := aft1 c
  Φ := Φ1 c
  q _ := fullShare
  owed _ := 0

/-- At region 1's exit, the end of @main. -/
def W2 (c : Dev nD) : Valuation τ sig (Elt F) :=
  Pipeline.withArrays spec1 c (W1 m ρ aft0 Φ0 c) fun w => (d1 m ρ aft0 Φ0 aft1 Φ1 c).arrAt w cfg1.N
theorem W2_arr (c : Dev nD) (w : Fin cfg1.W) :
    W2 m ρ aft0 Φ0 aft1 Φ1 c (Proc.devRef .tc (Pipeline.arrRef spec1 w)) = (d1 m ρ aft0 Φ0 aft1 Φ1 c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ aft0 Φ0 aft1 Φ1 c (Proc.devRef .tc b) = W1 m ρ aft0 Φ0 c (Proc.devRef .tc b) := by
  unfold W2; exact Pipeline.withArrays_of_ne spec1 c _ _ b hb
abbrev V2 : (c : Dev nD) → (b : Ref sig .tc) → Buf (Elt F) ((c : Thread nD τ).loc b) := fun c b => W2 m ρ aft0 Φ0 aft1 Φ1 c b
theorem hF1 (c : Dev nD) (w : Fin cfg1.W) : (d1 m ρ aft0 Φ0 aft1 Φ1 c).arrAt w cfg1.N = V2 m ρ aft0 Φ0 aft1 Φ1 c (Pipeline.arrRef spec1 w) :=
  (W2_arr m ρ aft0 Φ0 aft1 Φ1 c w).symm
theorem hrest1 (c : Dev nD) : ∀ b, b ∉ Finset.univ.image (Pipeline.arrRef spec1) → V2 m ρ aft0 Φ0 aft1 Φ1 c b = V1 m ρ aft0 Φ0 c b :=
  fun b hb => W2_of_ne m ρ aft0 Φ0 aft1 Φ1 c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, a literal match on the pipeline. -/
def pdats : (p : Fin 2) → (c : Dev nD) → Dat τ (Elt F) Unit ℕ (UR sig nD τ) ℕ (Pipeline.pin (pcfgs (F := F)) adm p) c
  | ⟨0, _⟩ => fun c => d0 m ρ aft0 Φ0 c
  | ⟨1, _⟩ => fun c => d1 m ρ aft0 Φ0 aft1 Φ1 c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ aft0 Φ0 aft1 Φ1 c) ∗ ∃ r, prngReg c r)

/-! ## The regions as segments -/

set_option backward.isDefEq.respectTransparency.types false in
/-- Region 0 over the thread state: entered from every unscoped buffer at the launch contents, left at `W1`. Its arrays
    are split out of the unscoped buffers and put back at the exit contents; the generator register goes into the
    invariant and comes out; nothing is owed; the kernel has no semaphore of its own. -/
def reg0 (hin0 : ∀ c, (Pipeline.ΦA spec0 c : sProp 𝕄) ⊢ Φ0 c 0)
    (hout0 : ∀ c, Φ0 c (Fin.last cfg0.N) ⊢ (Pipeline.ΦA spec0 c : sProp 𝕄))
    (hb0 : ∀ c, BodyObligation (d0 m ρ aft0 Φ0 c) (defs₀ (F := F)) Variants.none () Set.univ)
    (hin1 : ∀ c, (Pipeline.ΦA spec1 c : sProp 𝕄) ⊢ Φ1 c 0)
    (hout1 : ∀ c, Φ1 c (Fin.last cfg1.N) ⊢ (Pipeline.ΦA spec1 c : sProp 𝕄))
    (hb1 : ∀ c, BodyObligation (d1 m ρ aft0 Φ0 aft1 Φ1 c) (defs₀ (F := F)) Variants.none () Set.univ) :
    Pipeline.RegionSeg (pcfgs (F := F)) adm (pdats m ρ aft0 Φ0 aft1 Φ1) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ aft0 Φ0 c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ aft0 Φ0 aft1 Φ1) launch0.win launch0.arr_whole c
      ((pdats m ρ aft0 Φ0 aft1 Φ1 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest (Pipeline.pin (pcfgs (F := F)) adm 0).spec c) : sProp 𝕄)
        ⊢ Pipeline.ΦA spec0 c := by
      unfold Pipeline.ΦA
      iintro ⟨Hp, -, Hr⟩
      isplitl [Hr]; · iexact Hr
      iexact Hp
    exact h.trans (hin0 c)
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ aft0 Φ0 aft1 Φ1) ((pdats m ρ aft0 Φ0 aft1 Φ1 0 c).share_full fun _ => rfl)
      (V0 m ρ c) (V1 m ρ aft0 Φ0 c) ((pdats m ρ aft0 Φ0 aft1 Φ1 0 c).arrAt · cfg0.N) (hF0 m ρ aft0 Φ0 c) (hrest0 m ρ aft0 Φ0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`, the end of @main. -/
def reg1 (hin0 : ∀ c, (Pipeline.ΦA spec0 c : sProp 𝕄) ⊢ Φ0 c 0)
    (hout0 : ∀ c, Φ0 c (Fin.last cfg0.N) ⊢ (Pipeline.ΦA spec0 c : sProp 𝕄))
    (hb0 : ∀ c, BodyObligation (d0 m ρ aft0 Φ0 c) (defs₀ (F := F)) Variants.none () Set.univ)
    (hin1 : ∀ c, (Pipeline.ΦA spec1 c : sProp 𝕄) ⊢ Φ1 c 0)
    (hout1 : ∀ c, Φ1 c (Fin.last cfg1.N) ⊢ (Pipeline.ΦA spec1 c : sProp 𝕄))
    (hb1 : ∀ c, BodyObligation (d1 m ρ aft0 Φ0 aft1 Φ1 c) (defs₀ (F := F)) Variants.none () Set.univ) :
    Pipeline.RegionSeg (pcfgs (F := F)) adm (pdats m ρ aft0 Φ0 aft1 Φ1) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W1 m ρ aft0 Φ0 c) ∗ R c)
  post c := iprop(Tₙ m ρ aft0 Φ0 aft1 Φ1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ aft0 Φ0 c)
  hentry c := by
    rw [Pipeline.ownSems0_none]
    have hsplit := Pipeline.arrays_of_unscopedBufs (p := 1) (pcfgs (F := F)) adm (pdats m ρ aft0 Φ0 aft1 Φ1) launch1.win launch1.arr_whole c
      ((pdats m ρ aft0 Φ0 aft1 Φ1 1 c).share_full fun _ => rfl) (V1 m ρ aft0 Φ0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest (Pipeline.pin (pcfgs (F := F)) adm 1).spec c) : sProp 𝕄)
        ⊢ Pipeline.ΦA spec1 c := by
      unfold Pipeline.ΦA
      iintro ⟨Hp, -, Hr⟩
      isplitl [Hr]; · iexact Hr
      iexact Hp
    exact h.trans (hin1 c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ aft0 Φ0 aft1 Φ1) ((pdats m ρ aft0 Φ0 aft1 Φ1 1 c).share_full fun _ => rfl)
      (V1 m ρ aft0 Φ0 c) (V2 m ρ aft0 Φ0 aft1 Φ1 c) ((pdats m ρ aft0 Φ0 aft1 Φ1 1 c).arrAt · cfg1.N) (hF1 m ρ aft0 Φ0 aft1 Φ1 c) (hrest1 m ρ aft0 Φ0 aft1 Φ1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

set_option backward.isDefEq.respectTransparency.types false in
/-- The run. Every weakly fair execution of @main from memory `m` with zero counters terminates, nothing faulting, and
    the final memory holds every unscoped buffer of every core at the end of the fold, `W2`: whatever `Q` follows from
    that holds of the final state. -/
theorem run_all (hin0 : ∀ c, (Pipeline.ΦA spec0 c : sProp 𝕄) ⊢ Φ0 c 0)
    (hout0 : ∀ c, Φ0 c (Fin.last cfg0.N) ⊢ (Pipeline.ΦA spec0 c : sProp 𝕄))
    (hb0 : ∀ c, BodyObligation (d0 m ρ aft0 Φ0 c) (defs₀ (F := F)) Variants.none () Set.univ)
    (hin1 : ∀ c, (Pipeline.ΦA spec1 c : sProp 𝕄) ⊢ Φ1 c 0)
    (hout1 : ∀ c, Φ1 c (Fin.last cfg1.N) ⊢ (Pipeline.ΦA spec1 c : sProp 𝕄))
    (hb1 : ∀ c, BodyObligation (d1 m ρ aft0 Φ0 aft1 Φ1 c) (defs₀ (F := F)) Variants.none () Set.univ)
    {Q : PUnit × MemSt nD τ sig (Elt F) → Prop}
    (hQ : ∀ s : MemSt nD τ sig (Elt F), (∀ c : Dev nD, ∀ b ∈ Pipeline.ucRefs τ sig, s.mem (((c : Thread nD τ)).1, b) = W2 m ρ aft0 Φ0 aft1 Φ1 c b) → Q (⟨⟩, s)) :
    θ_run defs (onTc (τ := τ) (main (F := F))) ⟨m, fun _ => 0, ρ⟩ Q :=
  Pipeline.θ_run_regions_kit (pcfgs (F := F)) adm (pdats m ρ aft0 Φ0 aft1 Φ1) () cellOf_inj emb₁ defs₀ 𝒱₀ L lv m ρ main
    [.region (reg0 m ρ aft0 Φ0 aft1 Φ1 hin0 hout0 hb0 hin1 hout1 hb1), .region (reg1 m ρ aft0 Φ0 aft1 Φ1 hin0 hout0 hb0 hin1 hout1 hb1)]
    (fun c Q => by rw [main_segs adm (pdats m ρ aft0 Φ0 aft1 Φ1) () 𝒱₀ L lv (reg0 m ρ aft0 Φ0 aft1 Φ1 hin0 hout0 hb0 hin1 hout1 hb1) (reg1 m ρ aft0 Φ0 aft1 Φ1 hin0 hout0 hb0 hin1 hout1 hb1) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ aft0 Φ0 aft1 Φ1)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ aft0 Φ0 aft1 Φ1 c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ aft0 Φ0 aft1 Φ1 c) s')
      isplitl [Hh] <;> iassumption)
    (hQ := hQ)

end Data

end Cert.KernelIdeal.Whole

end
-- ==== Proof.RunArgs.lean ====
/-
  Reading the fold of @main's buffer contents at the buffers the claims speak of.

  An argument array is never written: region 1 does not stage it and region 0 stages it as an input, so the fold at its
  buffer walks back to the launch memory. The result array is region 1's output window's array, at what that region's
  write-backs leave. Region 1's three input arrays are region 0's three output arrays, at what its write-backs leave.
-/
import proofs.«112745_j14748917694967_2_alg».proof.Proof.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)
variable (aft0 : (c : Dev nD) → (w : Fin cfg0.W) → Fin cfg0.N → (cfg0.win w).block.Idx → Elt F (cfg0.win w).elt)
  (Φ0 : (c : Dev nD) → Fin (cfg0.N + 1) → sProp (MT nD τ sig Unit (Elt F) ℕ (UR sig nD τ) ℕ))
  (aft1 : (c : Dev nD) → (w : Fin cfg1.W) → Fin cfg1.N → (cfg1.win w).block.Idx → Elt F (cfg1.win w).elt)
  (Φ1 : (c : Dev nD) → Fin (cfg1.N + 1) → sProp (MT nD τ sig Unit (Elt F) ℕ (UR sig nD τ) ℕ))

/-- `main_arg0` reaches the end as launched: region 1 does not stage it, region 0 stages it as an input. -/
theorem W2_main_arg0 (c : Dev nD) : W2 m ρ aft0 Φ0 aft1 Φ1 c (Proc.devRef .tc main_arg0) = m ((c : Thread nD τ).loc main_arg0) :=
  calc W2 m ρ aft0 Φ0 aft1 Φ1 c (Proc.devRef .tc main_arg0)
    _ = W1 m ρ aft0 Φ0 c (Proc.devRef .tc main_arg0) := W2_of_ne m ρ aft0 Φ0 aft1 Φ1 c main_arg0 (by decide)
    _ = W0 m ρ c (Proc.devRef .tc main_arg0) := (W1_arr m ρ aft0 Φ0 c 0).trans (((d0 m ρ aft0 Φ0 c).arrAt_in 0 rfl _).trans rfl)
    _ = m ((c : Thread nD τ).loc main_arg0) := rfl

/-- `main_arg1` reaches the end as launched: region 1 does not stage it, region 0 stages it as an input. -/
theorem W2_main_arg1 (c : Dev nD) : W2 m ρ aft0 Φ0 aft1 Φ1 c (Proc.devRef .tc main_arg1) = m ((c : Thread nD τ).loc main_arg1) :=
  calc W2 m ρ aft0 Φ0 aft1 Φ1 c (Proc.devRef .tc main_arg1)
    _ = W1 m ρ aft0 Φ0 c (Proc.devRef .tc main_arg1) := W2_of_ne m ρ aft0 Φ0 aft1 Φ1 c main_arg1 (by decide)
    _ = W0 m ρ c (Proc.devRef .tc main_arg1) := (W1_arr m ρ aft0 Φ0 c 1).trans (((d0 m ρ aft0 Φ0 c).arrAt_in 1 rfl _).trans rfl)
    _ = m ((c : Thread nD τ).loc main_arg1) := rfl

/-- `main_arg2` reaches the end as launched: region 1 does not stage it, region 0 stages it as an input. -/
theorem W2_main_arg2 (c : Dev nD) : W2 m ρ aft0 Φ0 aft1 Φ1 c (Proc.devRef .tc main_arg2) = m ((c : Thread nD τ).loc main_arg2) :=
  calc W2 m ρ aft0 Φ0 aft1 Φ1 c (Proc.devRef .tc main_arg2)
    _ = W1 m ρ aft0 Φ0 c (Proc.devRef .tc main_arg2) := W2_of_ne m ρ aft0 Φ0 aft1 Φ1 c main_arg2 (by decide)
    _ = W0 m ρ c (Proc.devRef .tc main_arg2) := (W1_arr m ρ aft0 Φ0 c 2).trans (((d0 m ρ aft0 Φ0 c).arrAt_in 2 rfl _).trans rfl)
    _ = m ((c : Thread nD τ).loc main_arg2) := rfl

/-- `main_arg3` reaches the end as launched: region 1 does not stage it, region 0 stages it as an input. -/
theorem W2_main_arg3 (c : Dev nD) : W2 m ρ aft0 Φ0 aft1 Φ1 c (Proc.devRef .tc main_arg3) = m ((c : Thread nD τ).loc main_arg3) :=
  calc W2 m ρ aft0 Φ0 aft1 Φ1 c (Proc.devRef .tc main_arg3)
    _ = W1 m ρ aft0 Φ0 c (Proc.devRef .tc main_arg3) := W2_of_ne m ρ aft0 Φ0 aft1 Φ1 c main_arg3 (by decide)
    _ = W0 m ρ c (Proc.devRef .tc main_arg3) := (W1_arr m ρ aft0 Φ0 c 3).trans (((d0 m ρ aft0 Φ0 c).arrAt_in 3 rfl _).trans rfl)
    _ = m ((c : Thread nD τ).loc main_arg3) := rfl

/-- `main_arg4` reaches the end as launched: region 1 does not stage it, region 0 stages it as an input. -/
theorem W2_main_arg4 (c : Dev nD) : W2 m ρ aft0 Φ0 aft1 Φ1 c (Proc.devRef .tc main_arg4) = m ((c : Thread nD τ).loc main_arg4) :=
  calc W2 m ρ aft0 Φ0 aft1 Φ1 c (Proc.devRef .tc main_arg4)
    _ = W1 m ρ aft0 Φ0 c (Proc.devRef .tc main_arg4) := W2_of_ne m ρ aft0 Φ0 aft1 Φ1 c main_arg4 (by decide)
    _ = W0 m ρ c (Proc.devRef .tc main_arg4) := (W1_arr m ρ aft0 Φ0 c 4).trans (((d0 m ρ aft0 Φ0 c).arrAt_in 4 rfl _).trans rfl)
    _ = m ((c : Thread nD τ).loc main_arg4) := rfl

/-- `main_arg5` reaches the end as launched: region 1 does not stage it, region 0 stages it as an input. -/
theorem W2_main_arg5 (c : Dev nD) : W2 m ρ aft0 Φ0 aft1 Φ1 c (Proc.devRef .tc main_arg5) = m ((c : Thread nD τ).loc main_arg5) :=
  calc W2 m ρ aft0 Φ0 aft1 Φ1 c (Proc.devRef .tc main_arg5)
    _ = W1 m ρ aft0 Φ0 c (Proc.devRef .tc main_arg5) := W2_of_ne m ρ aft0 Φ0 aft1 Φ1 c main_arg5 (by decide)
    _ = W0 m ρ c (Proc.devRef .tc main_arg5) := (W1_arr m ρ aft0 Φ0 c 5).trans (((d0 m ρ aft0 Φ0 c).arrAt_in 5 rfl _).trans rfl)
    _ = m ((c : Thread nD τ).loc main_arg5) := rfl

/-- `main_arg6` reaches the end as launched: region 1 does not stage it, region 0 stages it as an input. -/
theorem W2_main_arg6 (c : Dev nD) : W2 m ρ aft0 Φ0 aft1 Φ1 c (Proc.devRef .tc main_arg6) = m ((c : Thread nD τ).loc main_arg6) :=
  calc W2 m ρ aft0 Φ0 aft1 Φ1 c (Proc.devRef .tc main_arg6)
    _ = W1 m ρ aft0 Φ0 c (Proc.devRef .tc main_arg6) := W2_of_ne m ρ aft0 Φ0 aft1 Φ1 c main_arg6 (by decide)
    _ = W0 m ρ c (Proc.devRef .tc main_arg6) := (W1_arr m ρ aft0 Φ0 c 6).trans (((d0 m ρ aft0 Φ0 c).arrAt_in 6 rfl _).trans rfl)
    _ = m ((c : Thread nD τ).loc main_arg6) := rfl

/-- The result array at the end: what region 1's write-backs leave in its output window's array. -/
theorem W2_main_v1 (c : Dev nD) : W2 m ρ aft0 Φ0 aft1 Φ1 c (Proc.devRef .tc main_v1) = (d1 m ρ aft0 Φ0 aft1 Φ1 c).arrAt 3 cfg1.N :=
  W2_arr m ρ aft0 Φ0 aft1 Φ1 c 3

/-- Region 1's query array as it finds it: what region 0's write-backs leave in its first output array. -/
theorem V1_q (c : Dev nD) : V1 m ρ aft0 Φ0 c (Pipeline.arrRef spec1 0) = (d0 m ρ aft0 Φ0 c).arrAt 7 cfg0.N := W1_arr m ρ aft0 Φ0 c 7
/-- Its key array: region 0's second output array. -/
theorem V1_k (c : Dev nD) : V1 m ρ aft0 Φ0 c (Pipeline.arrRef spec1 1) = (d0 m ρ aft0 Φ0 c).arrAt 8 cfg0.N := W1_arr m ρ aft0 Φ0 c 8
/-- Its value array: region 0's third output array. -/
theorem V1_v (c : Dev nD) : V1 m ρ aft0 Φ0 c (Pipeline.arrRef spec1 2) = (d0 m ρ aft0 Φ0 c).arrAt 9 cfg0.N := W1_arr m ρ aft0 Φ0 c 9

/-- An argument array as region 0 finds it: the launch memory. -/
theorem V0_arg (c : Dev nD) (b : Ref sig .tc) : V0 m ρ c b = m ((c : Thread nD τ).loc b) := rfl

end Cert.KernelIdeal.Whole

end
-- ==== Proof.ProjBody.lean ====
/-
  The projection region (region 0) at a parameter

  The first region computes, for each of its eight grid points, three blocks `x·W + b` from one block of `x` and the
  three weight matrices and bias vectors. Here is its half of the frame argument at a parameter `V` — the buffer
  contents the region is entered with —, for any float model: each window's block at a point, what the body leaves in
  each output window's buffer as a function of the input blocks, the body's triple, the proof data and the body
  obligation. The three weight and the three bias windows are fetched at the first point only; at the later points their
  block index has not moved, so their buffers still hold their (whole-array) block.
-/
import proofs.«112745_j14748917694967_2_alg».proof.Proof.Gen.KernelIdeal.Launch
import proofs.«112745_j14748917694967_2_alg».proof.Proof.Gen.KernelIdeal.Skeleton
import proofs.«112745_j14748917694967_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof
data whose array is `V`'s and whose body leaves the block in place: where the window is not fetched its block
index has not moved since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev rX : Rect S1x1024x1024 := Rect.unit (s := S1x1024x1024) ![0, 0, 0] S1x1024x1024.size inb_S1x1024x1024_S1x1024x1024_0_0_0
abbrev rW : Rect S1024x128 := Rect.unit (s := S1024x128) ![0, 0] S1024x128.size inb_S1024x128_S1024x128_0_0
abbrev rB : Rect S128 := Rect.unit (s := S128) ![0] S128.size inb_S128_S128_0
abbrev rO : Rect S1x1024x128 := Rect.unit (s := S1x1024x128) ![0, 0, 0] S1x1024x128.size inb_S1x1024x128_S1x1024x128_0_0_0

/-! ## What the body leaves in each output window's buffer -/

/-- The first output's buffer after the body: its one store, of `x·W₁ + b₁` rounded. -/
def out0_7 (x0 : Vec F S1x1024x1024 .f32) (x1 : Vec F S1024x128 .f32) (x2 : Vec F S128 .f32) : Vec F S1x1024x128 .bf16 :=
  View.canon [⟨rO, k0_pay3 (View.ld x0 rX) (View.ld x1 rW) (View.ld x2 rB)⟩]

/-- The second output's buffer after the body. -/
def out0_8 (x0 : Vec F S1x1024x1024 .f32) (x3 : Vec F S1024x128 .f32) (x4 : Vec F S128 .f32) : Vec F S1x1024x128 .bf16 :=
  View.canon [⟨rO, k0_pay4 (View.ld x0 rX) (View.ld x3 rW) (View.ld x4 rB)⟩]

/-- The third output's buffer after the body. -/
def out0_9 (x0 : Vec F S1x1024x1024 .f32) (x5 : Vec F S1024x128 .f32) (x6 : Vec F S128 .f32) : Vec F S1x1024x128 .bf16 :=
  View.canon [⟨rO, k0_pay1 (k0_pay5 (View.ld x0 rX) (View.ld x5 rW) (View.ld x6 rB))⟩]

/-- One whole-buffer store covers the buffer. -/
theorem cover0 (p0 : Vec F S1x1024x128 .bf16) (y : S1x1024x128.Idx) :
    ∃ pc ∈ ([⟨rO, p0⟩] : List (View.Piece (Elt F) S1x1024x128 .bf16)), y ∈ pc.1.set :=
  View.cover_of_tiled [⟨rO, p0⟩] S1x1024x128.size (by rfl) y

/-! ## The body's triple -/

set_option maxHeartbeats 1000000 in
/-- The kernel body on whole staging memrefs, the inputs' at contents `xW` and the outputs' at anything, runs to the
    continuation holding the inputs' as they were and each output's at `out0_W` of the inputs'. The body loads each
    output buffer before it stores it; what that load reads is not used. -/
theorem sound_kernel0 (c : Dev nD) (E : Set ℕ) (i : grid0.Coords) (arg2 : Memref sig .tc .vmem S1x1024x1024 .f32) (harg2 : arg2.IsWhole) (arg3 : Memref sig .tc .vmem S1024x128 .f32) (harg3 : arg3.IsWhole) (arg4 : Memref sig .tc .vmem S128 .f32) (harg4 : arg4.IsWhole) (arg5 : Memref sig .tc .vmem S1024x128 .f32) (harg5 : arg5.IsWhole) (arg6 : Memref sig .tc .vmem S128 .f32) (harg6 : arg6.IsWhole) (arg7 : Memref sig .tc .vmem S1024x128 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x1024x128 .bf16) (harg10 : arg10.IsWhole) (arg11 : Memref sig .tc .vmem S1x1024x128 .bf16) (harg11 : arg11.IsWhole)
    (x0 : Vec F S1x1024x1024 .f32) (x1 : Vec F S1024x128 .f32) (x2 : Vec F S128 .f32) (x3 : Vec F S1024x128 .f32) (x4 : Vec F S128 .f32) (x5 : Vec F S1024x128 .f32) (x6 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The region's proof data -/

/-- The proof data of the region on core `c`: the arrays as the region finds them; after the body at point `t` each
    input's buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Proj

end
-- ==== Proof.AttnBody.lean ====
/-
  The attention region's half of the certificate, at the buffer contents `V` the region is entered with and at any
  float type: flash attention over two key/value blocks per query block. The body keeps a running row maximum, a
  running row sum and an accumulator in three scratch buffers carried from grid point to grid point; at the even
  points (first key/value block) it resets them and updates them, storing nothing into the output's buffer; at the
  odd points (second block) it updates them from what the point before left and stores accumulator / sum into the
  output's buffer, which is then written back. Every store covers its whole buffer, so what each buffer holds after
  a point is the payload of the last store into it, a closed term of the point's three input blocks and of what the
  scratch buffers held before (`outsAt1`). Stated here: the two triples of the body (`kernel1_A`, `kernel1_B`),
  the contents point by point (`outsAt1`, `outsAt1_A`, `outsAt1_B`), the invariant (`PhiS`), the proof data
  (`dat1`) and the body obligation (`body_obligation1`) with the invariant's two ends (`hin1`, `hout1`).
-/
import proofs.«112745_j14748917694967_2_alg».proof.Proof.Gen.KernelIdeal.Launch
import proofs.«112745_j14748917694967_2_alg».proof.Proof.Gen.KernelIdeal.Skeleton
import proofs.«112745_j14748917694967_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the first conditional (the reset of the running maximum, sum and accumulator): the third grid
    coordinate is zero. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the last conditional (the normalised block is stored): the third grid coordinate is one. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle: nothing is stored into it, -/
theorem idleAt1_3_A : ∀ t : Fin cfg1.N, t.val % 2 = 0 → cfg1.idle 3 (grid1.coords t) = true := by decide +kernel
/-- and its block is not written back. -/
theorem noFlush1_3_A : ∀ t : Fin cfg1.N, t.val % 2 = 0 → (cfg1.win 3).flush t = false := by decide +kernel
/-- At the odd points it is live. -/
theorem liveAt1_3_B : ∀ t : Fin cfg1.N, t.val % 2 = 1 → cfg1.idle 3 (grid1.coords t) = false := by decide +kernel

/-! ## The staging and scratch memrefs -/

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The three scratch buffers carried from point to point: the running maximum, the running sum, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2

/-! ## Whole-buffer stores and loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- After a store through the whole-shape rectangle, made last, the buffer reads that store's payload, whatever the
    earlier stores and the prior contents were. -/
theorem read_writes_cons_unit_zero {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-! ## The body's triple at the even points -/

set_option maxHeartbeats 1000000 in
/-- At a point whose third coordinate is zero the body resets the three scratch buffers (whatever they held), updates
    them from the point's blocks and leaves the output's buffer untouched. -/
theorem kernel1_A (c : Dev nD) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : cond1_0 i) (hc1 : ¬cond1_1 i)
    (x0 x1 x2 : Vec F S1x1024x128 .bf16) (xi3 : Vec F S1x1024x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (k1_pay2 (k1_pay9 x0 x1 (k1_pay4 (F := F))))
            ∗ owns (c : Thread nD τ) arg8 fullShare (k1_pay12 x0 x1 (k1_pay4 (F := F)) (k1_pay4 (F := F)) (k1_pay5 (F := F)))
            ∗ owns (c : Thread nD τ) arg9 fullShare (k1_pay1 (k1_pay7 x2) (k1_pay10 x0 x1 (k1_pay4 (F := F)) (k1_pay4 (F := F))) (k1_pay11 x0 x1 (k1_pay4 (F := F))) (k1_pay6 (F := F)))) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    refine (read_writes_cons_unit_zero _ _ hz2 _ _ _).trans ?_
    sl_unfold_run_names
    simp only [View.readAt_eq_ld, harg3.read_unread, harg4.read_unread, harg5.read_unread, View.ld_unit_zero (S := S1x1024x128) hz3, View.readCov_unit_zero (S := S1024x1) _ hz2, View.readCov_unit_zero (S := S1024x128) _ hz2]
  isplitl [H8]
  · iexists _; isplitr
    swap; · iexact H8
    ipureintro
    refine (read_writes_cons_unit_zero _ _ hz2 _ _ _).trans ?_
    sl_unfold_run_names
    simp only [View.readAt_eq_ld, harg3.read_unread, harg4.read_unread, harg5.read_unread, View.ld_unit_zero (S := S1x1024x128) hz3, View.readCov_unit_zero (S := S1024x1) _ hz2, View.readCov_unit_zero (S := S1024x128) _ hz2]
  iexists _; isplitr
  swap; · iexact H9
  ipureintro
  refine (read_writes_cons_unit_zero _ _ hz2 _ _ _).trans ?_
  sl_unfold_run_names
  simp only [View.readAt_eq_ld, harg3.read_unread, harg4.read_unread, harg5.read_unread, View.ld_unit_zero (S := S1x1024x128) hz3, View.readCov_unit_zero (S := S1024x1) _ hz2, View.readCov_unit_zero (S := S1024x128) _ hz2]

/-! ## The body's triple at the odd points -/

set_option maxHeartbeats 1000000 in
/-- At a point whose third coordinate is one the body updates the three scratch buffers from what the point before
    left in them and stores the accumulator divided by the running sum into the output's buffer (whatever it held). -/
theorem kernel1_B (c : Dev nD) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : ¬cond1_0 i) (hc1 : cond1_1 i)
    (x0 x1 x2 : Vec F S1x1024x128 .bf16) (xm xl : Vec F S1024x1 .f32) (xacc : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xm ∗ owns (c : Thread nD τ) arg8 fullShare xl ∗ owns (c : Thread nD τ) arg9 fullShare xacc
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay1 (k1_pay7 x2) (k1_pay10 x0 x1 xm xm) (k1_pay11 x0 x1 xm) xacc) (k1_pay12 x0 x1 xm xm xl))
            ∗ owns (c : Thread nD τ) arg7 fullShare (k1_pay2 (k1_pay9 x0 x1 xm))
            ∗ owns (c : Thread nD τ) arg8 fullShare (k1_pay12 x0 x1 xm xm xl)
            ∗ owns (c : Thread nD τ) arg9 fullShare (k1_pay1 (k1_pay7 x2) (k1_pay10 x0 x1 xm xm) (k1_pay11 x0 x1 xm) xacc)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (read_writes_cons_unit_zero _ _ hz3 _ _ _).trans ?_
    sl_unfold_run_names
    simp only [View.readAt_eq_ld, harg3.read_unread, harg4.read_unread, harg5.read_unread, harg7.read_unread, harg8.read_unread, harg9.read_unread, View.ld_unit_zero (S := S1x1024x128) hz3, View.ld_unit_zero (S := S1024x1) hz2, View.ld_unit_zero (S := S1024x128) hz2, View.readCov_unit_zero (S := S1024x1) _ hz2, View.readCov_unit_zero (S := S1024x128) _ hz2]
  isplitl [H7]
  · iexists _; isplitr
    swap; · iexact H7
    ipureintro
    refine (read_writes_cons_unit_zero _ _ hz2 _ _ _).trans ?_
    sl_unfold_run_names
    simp only [View.readAt_eq_ld, harg3.read_unread, harg4.read_unread, harg5.read_unread, harg7.read_unread, harg8.read_unread, harg9.read_unread, View.ld_unit_zero (S := S1x1024x128) hz3, View.ld_unit_zero (S := S1024x1) hz2, View.ld_unit_zero (S := S1024x128) hz2, View.readCov_unit_zero (S := S1024x1) _ hz2, View.readCov_unit_zero (S := S1024x128) _ hz2]
  isplitl [H8]
  · iexists _; isplitr
    swap; · iexact H8
    ipureintro
    refine (read_writes_cons_unit_zero _ _ hz2 _ _ _).trans ?_
    sl_unfold_run_names
    simp only [View.readAt_eq_ld, harg3.read_unread, harg4.read_unread, harg5.read_unread, harg7.read_unread, harg8.read_unread, harg9.read_unread, View.ld_unit_zero (S := S1x1024x128) hz3, View.ld_unit_zero (S := S1024x1) hz2, View.ld_unit_zero (S := S1024x128) hz2, View.readCov_unit_zero (S := S1024x1) _ hz2, View.readCov_unit_zero (S := S1024x128) _ hz2]
  iexists _; isplitr
  swap; · iexact H9
  ipureintro
  refine (read_writes_cons_unit_zero _ _ hz2 _ _ _).trans ?_
  sl_unfold_run_names
  simp only [View.readAt_eq_ld, harg3.read_unread, harg4.read_unread, harg5.read_unread, harg7.read_unread, harg8.read_unread, harg9.read_unread, View.ld_unit_zero (S := S1x1024x128) hz3, View.ld_unit_zero (S := S1024x1) hz2, View.ld_unit_zero (S := S1024x128) hz2, View.readCov_unit_zero (S := S1024x1) _ hz2, View.readCov_unit_zero (S := S1024x128) _ hz2]

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output's buffer and the three scratch buffers hold after each point -/

/-- After the body at position `n`: the normalised block (stored at the odd points only; at an even point the term is
    what WOULD be stored, and nothing reads it), the running maximum, the running sum and the accumulator. At an even
    point the update starts from the reset values, at an odd one from what the point before left. -/
def outsAt1 (c : Dev nD) : (n : ℕ) → n < cfg1.N → Vec F S1x1024x128 .f32 × Vec F S1024x1 .f32 × Vec F S1024x1 .f32 × Vec F S1024x128 .f32
  | 0, hn => ((k1_pay3 (k1_pay1 (k1_pay7 (iblk1 V c 2 ⟨0, hn⟩)) (k1_pay10 (iblk1 V c 0 ⟨0, hn⟩) (iblk1 V c 1 ⟨0, hn⟩) (k1_pay4 (F := F)) (k1_pay4 (F := F))) (k1_pay11 (iblk1 V c 0 ⟨0, hn⟩) (iblk1 V c 1 ⟨0, hn⟩) (k1_pay4 (F := F))) (k1_pay6 (F := F))) (k1_pay12 (iblk1 V c 0 ⟨0, hn⟩) (iblk1 V c 1 ⟨0, hn⟩) (k1_pay4 (F := F)) (k1_pay4 (F := F)) (k1_pay5 (F := F)))), (k1_pay2 (k1_pay9 (iblk1 V c 0 ⟨0, hn⟩) (iblk1 V c 1 ⟨0, hn⟩) (k1_pay4 (F := F)))), (k1_pay12 (iblk1 V c 0 ⟨0, hn⟩) (iblk1 V c 1 ⟨0, hn⟩) (k1_pay4 (F := F)) (k1_pay4 (F := F)) (k1_pay5 (F := F))), (k1_pay1 (k1_pay7 (iblk1 V c 2 ⟨0, hn⟩)) (k1_pay10 (iblk1 V c 0 ⟨0, hn⟩) (iblk1 V c 1 ⟨0, hn⟩) (k1_pay4 (F := F)) (k1_pay4 (F := F))) (k1_pay11 (iblk1 V c 0 ⟨0, hn⟩) (iblk1 V c 1 ⟨0, hn⟩) (k1_pay4 (F := F))) (k1_pay6 (F := F))))
  | n + 1, hn =>
    if (n + 1) % 2 = 0 then
      ((k1_pay3 (k1_pay1 (k1_pay7 (iblk1 V c 2 ⟨n + 1, hn⟩)) (k1_pay10 (iblk1 V c 0 ⟨n + 1, hn⟩) (iblk1 V c 1 ⟨n + 1, hn⟩) (k1_pay4 (F := F)) (k1_pay4 (F := F))) (k1_pay11 (iblk1 V c 0 ⟨n + 1, hn⟩) (iblk1 V c 1 ⟨n + 1, hn⟩) (k1_pay4 (F := F))) (k1_pay6 (F := F))) (k1_pay12 (iblk1 V c 0 ⟨n + 1, hn⟩) (iblk1 V c 1 ⟨n + 1, hn⟩) (k1_pay4 (F := F)) (k1_pay4 (F := F)) (k1_pay5 (F := F)))), (k1_pay2 (k1_pay9 (iblk1 V c 0 ⟨n + 1, hn⟩) (iblk1 V c 1 ⟨n + 1, hn⟩) (k1_pay4 (F := F)))), (k1_pay12 (iblk1 V c 0 ⟨n + 1, hn⟩) (iblk1 V c 1 ⟨n + 1, hn⟩) (k1_pay4 (F := F)) (k1_pay4 (F := F)) (k1_pay5 (F := F))), (k1_pay1 (k1_pay7 (iblk1 V c 2 ⟨n + 1, hn⟩)) (k1_pay10 (iblk1 V c 0 ⟨n + 1, hn⟩) (iblk1 V c 1 ⟨n + 1, hn⟩) (k1_pay4 (F := F)) (k1_pay4 (F := F))) (k1_pay11 (iblk1 V c 0 ⟨n + 1, hn⟩) (iblk1 V c 1 ⟨n + 1, hn⟩) (k1_pay4 (F := F))) (k1_pay6 (F := F))))
    else
      ((k1_pay3 (k1_pay1 (k1_pay7 (iblk1 V c 2 ⟨n + 1, hn⟩)) (k1_pay10 (iblk1 V c 0 ⟨n + 1, hn⟩) (iblk1 V c 1 ⟨n + 1, hn⟩) (outsAt1 c n (Nat.lt_of_succ_lt hn)).2.1 (outsAt1 c n (Nat.lt_of_succ_lt hn)).2.1) (k1_pay11 (iblk1 V c 0 ⟨n + 1, hn⟩) (iblk1 V c 1 ⟨n + 1, hn⟩) (outsAt1 c n (Nat.lt_of_succ_lt hn)).2.1) (outsAt1 c n (Nat.lt_of_succ_lt hn)).2.2.2) (k1_pay12 (iblk1 V c 0 ⟨n + 1, hn⟩) (iblk1 V c 1 ⟨n + 1, hn⟩) (outsAt1 c n (Nat.lt_of_succ_lt hn)).2.1 (outsAt1 c n (Nat.lt_of_succ_lt hn)).2.1 (outsAt1 c n (Nat.lt_of_succ_lt hn)).2.2.1)), (k1_pay2 (k1_pay9 (iblk1 V c 0 ⟨n + 1, hn⟩) (iblk1 V c 1 ⟨n + 1, hn⟩) (outsAt1 c n (Nat.lt_of_succ_lt hn)).2.1)), (k1_pay12 (iblk1 V c 0 ⟨n + 1, hn⟩) (iblk1 V c 1 ⟨n + 1, hn⟩) (outsAt1 c n (Nat.lt_of_succ_lt hn)).2.1 (outsAt1 c n (Nat.lt_of_succ_lt hn)).2.1 (outsAt1 c n (Nat.lt_of_succ_lt hn)).2.2.1), (k1_pay1 (k1_pay7 (iblk1 V c 2 ⟨n + 1, hn⟩)) (k1_pay10 (iblk1 V c 0 ⟨n + 1, hn⟩) (iblk1 V c 1 ⟨n + 1, hn⟩) (outsAt1 c n (Nat.lt_of_succ_lt hn)).2.1 (outsAt1 c n (Nat.lt_of_succ_lt hn)).2.1) (k1_pay11 (iblk1 V c 0 ⟨n + 1, hn⟩) (iblk1 V c 1 ⟨n + 1, hn⟩) (outsAt1 c n (Nat.lt_of_succ_lt hn)).2.1) (outsAt1 c n (Nat.lt_of_succ_lt hn)).2.2.2))

/-- At an even point: one update from the reset values. -/
theorem outsAt1_A (c : Dev nD) (t : Fin cfg1.N) (h : t.val % 2 = 0) :
    outsAt1 V c t.val t.isLt = ((k1_pay3 (k1_pay1 (k1_pay7 (iblk1 V c 2 t)) (k1_pay10 (iblk1 V c 0 t) (iblk1 V c 1 t) (k1_pay4 (F := F)) (k1_pay4 (F := F))) (k1_pay11 (iblk1 V c 0 t) (iblk1 V c 1 t) (k1_pay4 (F := F))) (k1_pay6 (F := F))) (k1_pay12 (iblk1 V c 0 t) (iblk1 V c 1 t) (k1_pay4 (F := F)) (k1_pay4 (F := F)) (k1_pay5 (F := F)))), (k1_pay2 (k1_pay9 (iblk1 V c 0 t) (iblk1 V c 1 t) (k1_pay4 (F := F)))), (k1_pay12 (iblk1 V c 0 t) (iblk1 V c 1 t) (k1_pay4 (F := F)) (k1_pay4 (F := F)) (k1_pay5 (F := F))), (k1_pay1 (k1_pay7 (iblk1 V c 2 t)) (k1_pay10 (iblk1 V c 0 t) (iblk1 V c 1 t) (k1_pay4 (F := F)) (k1_pay4 (F := F))) (k1_pay11 (iblk1 V c 0 t) (iblk1 V c 1 t) (k1_pay4 (F := F))) (k1_pay6 (F := F)))) := by
  obtain ⟨n, hn⟩ := t
  cases n with
  | zero => rfl
  | succ n => exact (if_pos h).trans rfl

/-- At an odd point: one update from what the point before left. -/
theorem outsAt1_B (c : Dev nD) (t : Fin cfg1.N) (h : t.val % 2 = 1) :
    outsAt1 V c t.val t.isLt = ((k1_pay3 (k1_pay1 (k1_pay7 (iblk1 V c 2 t)) (k1_pay10 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1) (k1_pay11 (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2) (k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1)), (k1_pay2 (k1_pay9 (iblk1 V c 0 t) (iblk1 V c 1 t) (outsAt1 V c (t.val - 1) (Nat.lt_of_le_of_lt (Nat.sub_le _ _) t.isLt)).2.1)), (k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1), (k1_pay1 (k1_pay7 (iblk1 V c 2 t)) (k1_pay10 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1) (k1_pay11 (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2)) := by
  obtain ⟨n, hn⟩ := t
  cases n with
  | zero => exact absurd (show (0 : ℕ) % 2 = 1 from h) (by decide)
  | succ n => exact (if_neg (by dsimp only at h; omega)).trans rfl

/-! ## The region invariant -/

/-- The core's scoped buffers that are neither a staging buffer of this call nor one of its three scratch buffers, at
    some contents each: carried unopened. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- What the launch hands the region, with the three scratch buffers as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ rest1 (F := F) c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

/-- The invariant before position `n`: before the first point what the launch hands over; afterwards the three scratch
    buffers at what the point before left in them, the other scoped buffers and the generator register at anything. -/
def PhiS (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ rest1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ rest1 (F := F) c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ rest1 (F := F) c) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks. At an even point the scratch buffers are handed over
    at anything (the first point) or at what the point before left — either way the body overwrites them before it reads
    them —, the output's buffer is handed back as found; at an odd point they are handed over at what the point before
    left and the output's buffer comes back holding the normalised block. The invariant takes the scratch buffers back
    at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_A t h0) (noFlush1_3_A t h0)]
    rw [outsAt1_A V c t h0]
    dsimp only
    by_cases hz : t.val = 0
    · rw [PhiS_castSucc V c t, PhiS_zero V c _ _ hz, PhiA1_eq]
      iintro ⟨⟨⟨⟨HS0, HS1, HS2⟩, Hr⟩, Hg⟩, Ho, ⟨%d0, H0⟩, ⟨%d1, H1⟩, ⟨%d2, H2⟩, ⟨%d3, H3⟩⟩
      iapply (kernel1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply (kernel1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 3 t = owns (c : Thread nD τ) (ms1_3 t) fullShare ((dat1 V c).after 3 t) from by
      unfold Dat.leavesExact; rw [liveAt1_3_B t h1], after1_3]
    rw [outsAt1_B V c t h1]
    dsimp only
    rw [PhiS_castSucc V c t, PhiS_pos V c _ _ hz]
    iintro ⟨⟨⟨⟨HS0, HS1, HS2⟩, Hr⟩, Hg⟩, Ho, ⟨%d0, H0⟩, ⟨%d1, H1⟩, ⟨%d2, H2⟩, ⟨%d3, H3⟩⟩
    iapply (kernel1_B c (grid1.coords t) _ _ _ _ _ _ _ _ _ _ _ _ _ _ hc0 hc1 (iblk1 V c 0 t) (iblk1 V c 1 t) (iblk1 V c 2 t) _ _ _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hr Hg]
    · isplitl [HS0 HS1 HS2 Hr]
      · isplitl [HS0 HS1 HS2]
        · isplitl [HS0]; · iexact HS0
          isplitl [HS1]; · iexact HS1
          iexact HS2
        iexact Hr
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives it back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Attn

end
-- ==== Proof.Main.lean ====
/-
  @main's run with the two regions' proof data in place.

  Region 0 (the three projections) is entered from the launch memory; region 1 (the attention) from what region 0
  leaves. With their body obligations and invariants, the run of the whole program gives: every weakly fair execution
  terminates, nothing faults, every argument array ends as launched (the frame), and the result array ends holding
  what region 1's write-backs leave in its output window's array (the value run).
-/
import proofs.«112745_j14748917694967_2_alg».proof.Proof.RunArgs
import proofs.«112745_j14748917694967_2_alg».proof.Proof.ProjBody
import proofs.«112745_j14748917694967_2_alg».proof.Proof.AttnBody

set_option maxRecDepth 16384

noncomputable section

namespace Cert.KernelIdeal.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Whole

variable {F : FTy → Type} [FloatOps F]
variable (m : (ℓ : Loc nD τ sig) → Buf (Elt F) ℓ) (ρ : Dev nD → PrngReg)

/-! ## The two regions' proof data, each at its entry contents -/

/-- What region 0's body leaves in each staging buffer, entered from the launch memory. -/
abbrev aft0 : (c : Dev nD) → (w : Fin cfg0.W) → Fin cfg0.N → (cfg0.win w).block.Idx → Elt F (cfg0.win w).elt :=
  fun c => (Proj.dat0 (V0 m ρ) c).after
/-- Region 0's invariant. -/
abbrev Φ0 : (c : Dev nD) → Fin (cfg0.N + 1) → sProp (MT nD τ sig Unit (Elt F) ℕ (UR sig nD τ) ℕ) :=
  fun c => (Proj.dat0 (V0 m ρ) c).Φ
theorem d0_eq (c : Dev nD) : d0 m ρ (aft0 m ρ) (Φ0 m ρ) c = Proj.dat0 (V0 m ρ) c := rfl

/-- The buffers as region 1 finds them. -/
abbrev Vq : (c : Dev nD) → (b : Ref sig .tc) → Buf (Elt F) ((c : Thread nD τ).loc b) := V1 m ρ (aft0 m ρ) (Φ0 m ρ)
/-- What region 1's body leaves in each staging buffer. -/
abbrev aft1 : (c : Dev nD) → (w : Fin cfg1.W) → Fin cfg1.N → (cfg1.win w).block.Idx → Elt F (cfg1.win w).elt :=
  fun c => (Attn.dat1 (Vq m ρ) c).after
/-- Region 1's invariant: the three scratch buffers at what the point before left. -/
abbrev Φ1 : (c : Dev nD) → Fin (cfg1.N + 1) → sProp (MT nD τ sig Unit (Elt F) ℕ (UR sig nD τ) ℕ) :=
  fun c => (Attn.dat1 (Vq m ρ) c).Φ
theorem d1_eq (c : Dev nD) : d1 m ρ (aft0 m ρ) (Φ0 m ρ) (aft1 m ρ) (Φ1 m ρ) c = Attn.dat1 (Vq m ρ) c := rfl

theorem hb0 (c : Dev nD) : BodyObligation (d0 m ρ (aft0 m ρ) (Φ0 m ρ) c) (defs₀ (F := F)) Variants.none () Set.univ := by
  rw [d0_eq]; exact Proj.body_obligation0 (V0 m ρ) c
theorem hb1 (c : Dev nD) : BodyObligation (d1 m ρ (aft0 m ρ) (Φ0 m ρ) (aft1 m ρ) (Φ1 m ρ) c) (defs₀ (F := F)) Variants.none () Set.univ := by
  rw [d1_eq]; exact Attn.body_obligation1 (Vq m ρ) c

/-! ## The run -/

/-- Every weakly fair execution of @main terminates, and the final memory holds every unscoped buffer at the end of
    the fold of the two regions' write-backs. -/
theorem run {Q : PUnit × MemSt nD τ sig (Elt F) → Prop}
    (hQ : ∀ s : MemSt nD τ sig (Elt F), (∀ c : Dev nD, ∀ b ∈ Pipeline.ucRefs τ sig, s.mem (((c : Thread nD τ)).1, b) = W2 m ρ (aft0 m ρ) (Φ0 m ρ) (aft1 m ρ) (Φ1 m ρ) c b) → Q (⟨⟩, s)) :
    θ_run defs (onTc (τ := τ) (main (F := F))) ⟨m, fun _ => 0, ρ⟩ Q :=
  run_all m ρ (aft0 m ρ) (Φ0 m ρ) (aft1 m ρ) (Φ1 m ρ) (fun _ => .rfl) (fun _ => .rfl) (hb0 m ρ)
    (fun c => Attn.hin1 (Vq m ρ) c) (fun c => Attn.hout1 (Vq m ρ) c) (hb1 m ρ) hQ

/-- The frame, at any `F`: @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run m ρ (fun s h c =>
    ⟨(h c _ (mem_uc main_arg0 (by decide))).trans (W2_main_arg0 m ρ (aft0 m ρ) (Φ0 m ρ) (aft1 m ρ) (Φ1 m ρ) c),
      (h c _ (mem_uc main_arg1 (by decide))).trans (W2_main_arg1 m ρ (aft0 m ρ) (Φ0 m ρ) (aft1 m ρ) (Φ1 m ρ) c),
      (h c _ (mem_uc main_arg2 (by decide))).trans (W2_main_arg2 m ρ (aft0 m ρ) (Φ0 m ρ) (aft1 m ρ) (Φ1 m ρ) c),
      (h c _ (mem_uc main_arg3 (by decide))).trans (W2_main_arg3 m ρ (aft0 m ρ) (Φ0 m ρ) (aft1 m ρ) (Φ1 m ρ) c),
      (h c _ (mem_uc main_arg4 (by decide))).trans (W2_main_arg4 m ρ (aft0 m ρ) (Φ0 m ρ) (aft1 m ρ) (Φ1 m ρ) c),
      (h c _ (mem_uc main_arg5 (by decide))).trans (W2_main_arg5 m ρ (aft0 m ρ) (Φ0 m ρ) (aft1 m ρ) (Φ1 m ρ) c),
      (h c _ (mem_uc main_arg6 (by decide))).trans (W2_main_arg6 m ρ (aft0 m ρ) (Φ0 m ρ) (aft1 m ρ) (Φ1 m ρ) c)⟩)

/-- The value run: the same, with the result array named — what region 1's write-backs leave in its output array. -/
theorem run_value : θ_run defs (onTc (τ := τ) (main (F := F))) ⟨m, fun _ => 0, ρ⟩ (fun r => ∀ c : Dev nD,
      r.2.mem ((c.tc : Thread nD τ).loc main_v1) = (Attn.dat1 (Vq m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run m ρ (fun s h c =>
    ⟨(h c _ (mem_uc main_v1 (by decide))).trans (W2_main_v1 m ρ (aft0 m ρ) (Φ0 m ρ) (aft1 m ρ) (Φ1 m ρ) c),
      (h c _ (mem_uc main_arg0 (by decide))).trans (W2_main_arg0 m ρ (aft0 m ρ) (Φ0 m ρ) (aft1 m ρ) (Φ1 m ρ) c),
      (h c _ (mem_uc main_arg1 (by decide))).trans (W2_main_arg1 m ρ (aft0 m ρ) (Φ0 m ρ) (aft1 m ρ) (Φ1 m ρ) c),
      (h c _ (mem_uc main_arg2 (by decide))).trans (W2_main_arg2 m ρ (aft0 m ρ) (Φ0 m ρ) (aft1 m ρ) (Φ1 m ρ) c),
      (h c _ (mem_uc main_arg3 (by decide))).trans (W2_main_arg3 m ρ (aft0 m ρ) (Φ0 m ρ) (aft1 m ρ) (Φ1 m ρ) c),
      (h c _ (mem_uc main_arg4 (by decide))).trans (W2_main_arg4 m ρ (aft0 m ρ) (Φ0 m ρ) (aft1 m ρ) (Φ1 m ρ) c),
      (h c _ (mem_uc main_arg5 (by decide))).trans (W2_main_arg5 m ρ (aft0 m ρ) (Φ0 m ρ) (aft1 m ρ) (Φ1 m ρ) c),
      (h c _ (mem_uc main_arg6 (by decide))).trans (W2_main_arg6 m ρ (aft0 m ρ) (Φ0 m ρ) (aft1 m ρ) (Φ1 m ρ) c)⟩)

/-- Region 1's three input arrays, as it finds them, are region 0's three output arrays at the end of region 0. -/
theorem Vq_q (c : Dev nD) : Vq m ρ c (Pipeline.arrRef spec1 0) = (Proj.dat0 (V0 m ρ) c).arrAt 7 cfg0.N := V1_q m ρ (aft0 m ρ) (Φ0 m ρ) c
theorem Vq_k (c : Dev nD) : Vq m ρ c (Pipeline.arrRef spec1 1) = (Proj.dat0 (V0 m ρ) c).arrAt 8 cfg0.N := V1_k m ρ (aft0 m ρ) (Φ0 m ρ) c
theorem Vq_v (c : Dev nD) : Vq m ρ c (Pipeline.arrRef spec1 2) = (Proj.dat0 (V0 m ρ) c).arrAt 9 cfg0.N := V1_v m ρ (aft0 m ρ) (Φ0 m ρ) c

end Cert.KernelIdeal.Main

end
-- ==== Proof.KRun.lean ====
/-
  The whole run of @main, from the two regions' halves.

  @main is two kernel regions and nothing else. The buffers' contents are followed through it as a fold: the launch
  memory, then region 0's arrays at what its write-backs leave (every other buffer as entered), then the same for
  region 1. Given, per region, what the body leaves in each window's staging buffer at each point and the invariant it
  keeps — entered from and left at the scoped rest beside the generator register — with the body obligation of the
  proof data so made (arrays at the region-entry contents, full shares, nothing owed), every weakly fair execution of
  @main terminates and the final memory holds every unscoped buffer at the end of that fold. The argument arrays are
  read back through the fold to the launch memory: no region writes one.
-/
import proofs.«112745_j14748917694967_2_alg».proof.Proof.Gen.Kernel.Launch
import proofs.«112745_j14748917694967_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: region 0's entry contents. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

section Data

-- what region 0's body leaves in each window's staging buffer at each point, and the invariant it keeps
variable (aft0 : (c : Dev nD) → (w : Fin cfg0.W) → Fin cfg0.N → (cfg0.win w).block.Idx → Elt F (cfg0.win w).elt)
  (Φ0 : (c : Dev nD) → Fin (cfg0.N + 1) → sProp (MT nD τ sig Unit (Elt F) ℕ (UR sig nD τ) ℕ))

/-- Region 0's proof data: its arrays as launched, full shares, nothing owed. -/
def d0 (c : Dev nD) : Dat τ (Elt F) Unit ℕ (UR sig nD τ) ℕ cfg0 c where
  A w := V0 m ρ c (Pipeline.arrRef spec0 w)
  after := aft0 c
  Φ := Φ0 c
  q _ := fullShare
  owed _ := 0

/-- At region 0's exit: its arrays at what the pipeline leaves, every other buffer as entered. -/
def W1 (c : Dev nD) : Valuation τ sig (Elt F) :=
  Pipeline.withArrays spec0 c (W0 m ρ c) fun w => (d0 m ρ aft0 Φ0 c).arrAt w cfg0.N
theorem W1_arr (c : Dev nD) (w : Fin cfg0.W) :
    W1 m ρ aft0 Φ0 c (Proc.devRef .tc (Pipeline.arrRef spec0 w)) = (d0 m ρ aft0 Φ0 c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ aft0 Φ0 c (Proc.devRef .tc b) = W0 m ρ c (Proc.devRef .tc b) := by
  unfold W1; exact Pipeline.withArrays_of_ne spec0 c _ _ b hb
/-- The same read at the TensorCore's references: region 1's entry contents. -/
abbrev V1 : (c : Dev nD) → (b : Ref sig .tc) → Buf (Elt F) ((c : Thread nD τ).loc b) := fun c b => W1 m ρ aft0 Φ0 c b
theorem hF0 (c : Dev nD) (w : Fin cfg0.W) : (d0 m ρ aft0 Φ0 c).arrAt w cfg0.N = V1 m ρ aft0 Φ0 c (Pipeline.arrRef spec0 w) :=
  (W1_arr m ρ aft0 Φ0 c w).symm
theorem hrest0 (c : Dev nD) : ∀ b, b ∉ Finset.univ.image (Pipeline.arrRef spec0) → V1 m ρ aft0 Φ0 c b = V0 m ρ c b :=
  fun b hb => W1_of_ne m ρ aft0 Φ0 c b fun w e => hb (Finset.mem_image.mpr ⟨w, Finset.mem_univ _, e⟩)

-- the same of region 1
variable (aft1 : (c : Dev nD) → (w : Fin cfg1.W) → Fin cfg1.N → (cfg1.win w).block.Idx → Elt F (cfg1.win w).elt)
  (Φ1 : (c : Dev nD) → Fin (cfg1.N + 1) → sProp (MT nD τ sig Unit (Elt F) ℕ (UR sig nD τ) ℕ))

/-- Region 1's proof data: its arrays as region 0 left them, full shares, nothing owed. -/
def d1 (c : Dev nD) : Dat τ (Elt F) Unit ℕ (UR sig nD τ) ℕ cfg1 c where
  A w := V1 m ρ aft0 Φ0 c (Pipeline.arrRef spec1 w)
  after := aft1 c
  Φ := Φ1 c
  q _ := fullShare
  owed _ := 0

/-- At region 1's exit, the end of @main. -/
def W2 (c : Dev nD) : Valuation τ sig (Elt F) :=
  Pipeline.withArrays spec1 c (W1 m ρ aft0 Φ0 c) fun w => (d1 m ρ aft0 Φ0 aft1 Φ1 c).arrAt w cfg1.N
theorem W2_arr (c : Dev nD) (w : Fin cfg1.W) :
    W2 m ρ aft0 Φ0 aft1 Φ1 c (Proc.devRef .tc (Pipeline.arrRef spec1 w)) = (d1 m ρ aft0 Φ0 aft1 Φ1 c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ aft0 Φ0 aft1 Φ1 c (Proc.devRef .tc b) = W1 m ρ aft0 Φ0 c (Proc.devRef .tc b) := by
  unfold W2; exact Pipeline.withArrays_of_ne spec1 c _ _ b hb
abbrev V2 : (c : Dev nD) → (b : Ref sig .tc) → Buf (Elt F) ((c : Thread nD τ).loc b) := fun c b => W2 m ρ aft0 Φ0 aft1 Φ1 c b
theorem hF1 (c : Dev nD) (w : Fin cfg1.W) : (d1 m ρ aft0 Φ0 aft1 Φ1 c).arrAt w cfg1.N = V2 m ρ aft0 Φ0 aft1 Φ1 c (Pipeline.arrRef spec1 w) :=
  (W2_arr m ρ aft0 Φ0 aft1 Φ1 c w).symm
theorem hrest1 (c : Dev nD) : ∀ b, b ∉ Finset.univ.image (Pipeline.arrRef spec1) → V2 m ρ aft0 Φ0 aft1 Φ1 c b = V1 m ρ aft0 Φ0 c b :=
  fun b hb => W2_of_ne m ρ aft0 Φ0 aft1 Φ1 c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, a literal match on the pipeline. -/
def pdats : (p : Fin 2) → (c : Dev nD) → Dat τ (Elt F) Unit ℕ (UR sig nD τ) ℕ (Pipeline.pin (pcfgs (F := F)) adm p) c
  | ⟨0, _⟩ => fun c => d0 m ρ aft0 Φ0 c
  | ⟨1, _⟩ => fun c => d1 m ρ aft0 Φ0 aft1 Φ1 c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ aft0 Φ0 aft1 Φ1 c) ∗ ∃ r, prngReg c r)

/-! ## The regions as segments -/

set_option backward.isDefEq.respectTransparency.types false in
/-- Region 0 over the thread state: entered from every unscoped buffer at the launch contents, left at `W1`. Its arrays
    are split out of the unscoped buffers and put back at the exit contents; the generator register goes into the
    invariant and comes out; nothing is owed; the kernel has no semaphore of its own. -/
def reg0 (hin0 : ∀ c, (Pipeline.ΦA spec0 c : sProp 𝕄) ⊢ Φ0 c 0)
    (hout0 : ∀ c, Φ0 c (Fin.last cfg0.N) ⊢ (Pipeline.ΦA spec0 c : sProp 𝕄))
    (hb0 : ∀ c, BodyObligation (d0 m ρ aft0 Φ0 c) (defs₀ (F := F)) Variants.none () Set.univ)
    (hin1 : ∀ c, (Pipeline.ΦA spec1 c : sProp 𝕄) ⊢ Φ1 c 0)
    (hout1 : ∀ c, Φ1 c (Fin.last cfg1.N) ⊢ (Pipeline.ΦA spec1 c : sProp 𝕄))
    (hb1 : ∀ c, BodyObligation (d1 m ρ aft0 Φ0 aft1 Φ1 c) (defs₀ (F := F)) Variants.none () Set.univ) :
    Pipeline.RegionSeg (pcfgs (F := F)) adm (pdats m ρ aft0 Φ0 aft1 Φ1) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ aft0 Φ0 c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ aft0 Φ0 aft1 Φ1) launch0.win launch0.arr_whole c
      ((pdats m ρ aft0 Φ0 aft1 Φ1 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest (Pipeline.pin (pcfgs (F := F)) adm 0).spec c) : sProp 𝕄)
        ⊢ Pipeline.ΦA spec0 c := by
      unfold Pipeline.ΦA
      iintro ⟨Hp, -, Hr⟩
      isplitl [Hr]; · iexact Hr
      iexact Hp
    exact h.trans (hin0 c)
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ aft0 Φ0 aft1 Φ1) ((pdats m ρ aft0 Φ0 aft1 Φ1 0 c).share_full fun _ => rfl)
      (V0 m ρ c) (V1 m ρ aft0 Φ0 c) ((pdats m ρ aft0 Φ0 aft1 Φ1 0 c).arrAt · cfg0.N) (hF0 m ρ aft0 Φ0 c) (hrest0 m ρ aft0 Φ0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`, the end of @main. -/
def reg1 (hin0 : ∀ c, (Pipeline.ΦA spec0 c : sProp 𝕄) ⊢ Φ0 c 0)
    (hout0 : ∀ c, Φ0 c (Fin.last cfg0.N) ⊢ (Pipeline.ΦA spec0 c : sProp 𝕄))
    (hb0 : ∀ c, BodyObligation (d0 m ρ aft0 Φ0 c) (defs₀ (F := F)) Variants.none () Set.univ)
    (hin1 : ∀ c, (Pipeline.ΦA spec1 c : sProp 𝕄) ⊢ Φ1 c 0)
    (hout1 : ∀ c, Φ1 c (Fin.last cfg1.N) ⊢ (Pipeline.ΦA spec1 c : sProp 𝕄))
    (hb1 : ∀ c, BodyObligation (d1 m ρ aft0 Φ0 aft1 Φ1 c) (defs₀ (F := F)) Variants.none () Set.univ) :
    Pipeline.RegionSeg (pcfgs (F := F)) adm (pdats m ρ aft0 Φ0 aft1 Φ1) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W1 m ρ aft0 Φ0 c) ∗ R c)
  post c := iprop(Tₙ m ρ aft0 Φ0 aft1 Φ1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ aft0 Φ0 c)
  hentry c := by
    rw [Pipeline.ownSems0_none]
    have hsplit := Pipeline.arrays_of_unscopedBufs (p := 1) (pcfgs (F := F)) adm (pdats m ρ aft0 Φ0 aft1 Φ1) launch1.win launch1.arr_whole c
      ((pdats m ρ aft0 Φ0 aft1 Φ1 1 c).share_full fun _ => rfl) (V1 m ρ aft0 Φ0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest (Pipeline.pin (pcfgs (F := F)) adm 1).spec c) : sProp 𝕄)
        ⊢ Pipeline.ΦA spec1 c := by
      unfold Pipeline.ΦA
      iintro ⟨Hp, -, Hr⟩
      isplitl [Hr]; · iexact Hr
      iexact Hp
    exact h.trans (hin1 c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ aft0 Φ0 aft1 Φ1) ((pdats m ρ aft0 Φ0 aft1 Φ1 1 c).share_full fun _ => rfl)
      (V1 m ρ aft0 Φ0 c) (V2 m ρ aft0 Φ0 aft1 Φ1 c) ((pdats m ρ aft0 Φ0 aft1 Φ1 1 c).arrAt · cfg1.N) (hF1 m ρ aft0 Φ0 aft1 Φ1 c) (hrest1 m ρ aft0 Φ0 aft1 Φ1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

set_option backward.isDefEq.respectTransparency.types false in
/-- The run. Every weakly fair execution of @main from memory `m` with zero counters terminates, nothing faulting, and
    the final memory holds every unscoped buffer of every core at the end of the fold, `W2`: whatever `Q` follows from
    that holds of the final state. -/
theorem run_all (hin0 : ∀ c, (Pipeline.ΦA spec0 c : sProp 𝕄) ⊢ Φ0 c 0)
    (hout0 : ∀ c, Φ0 c (Fin.last cfg0.N) ⊢ (Pipeline.ΦA spec0 c : sProp 𝕄))
    (hb0 : ∀ c, BodyObligation (d0 m ρ aft0 Φ0 c) (defs₀ (F := F)) Variants.none () Set.univ)
    (hin1 : ∀ c, (Pipeline.ΦA spec1 c : sProp 𝕄) ⊢ Φ1 c 0)
    (hout1 : ∀ c, Φ1 c (Fin.last cfg1.N) ⊢ (Pipeline.ΦA spec1 c : sProp 𝕄))
    (hb1 : ∀ c, BodyObligation (d1 m ρ aft0 Φ0 aft1 Φ1 c) (defs₀ (F := F)) Variants.none () Set.univ)
    {Q : PUnit × MemSt nD τ sig (Elt F) → Prop}
    (hQ : ∀ s : MemSt nD τ sig (Elt F), (∀ c : Dev nD, ∀ b ∈ Pipeline.ucRefs τ sig, s.mem (((c : Thread nD τ)).1, b) = W2 m ρ aft0 Φ0 aft1 Φ1 c b) → Q (⟨⟩, s)) :
    θ_run defs (onTc (τ := τ) (main (F := F))) ⟨m, fun _ => 0, ρ⟩ Q :=
  Pipeline.θ_run_regions_kit (pcfgs (F := F)) adm (pdats m ρ aft0 Φ0 aft1 Φ1) () cellOf_inj emb₁ defs₀ 𝒱₀ L lv m ρ main
    [.region (reg0 m ρ aft0 Φ0 aft1 Φ1 hin0 hout0 hb0 hin1 hout1 hb1), .region (reg1 m ρ aft0 Φ0 aft1 Φ1 hin0 hout0 hb0 hin1 hout1 hb1)]
    (fun c Q => by rw [main_segs adm (pdats m ρ aft0 Φ0 aft1 Φ1) () 𝒱₀ L lv (reg0 m ρ aft0 Φ0 aft1 Φ1 hin0 hout0 hb0 hin1 hout1 hb1) (reg1 m ρ aft0 Φ0 aft1 Φ1 hin0 hout0 hb0 hin1 hout1 hb1) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ aft0 Φ0 aft1 Φ1)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ aft0 Φ0 aft1 Φ1 c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ aft0 Φ0 aft1 Φ1 c) s')
      isplitl [Hh] <;> iassumption)
    (hQ := hQ)

end Data

end Cert.Kernel.Whole

end
-- ==== Proof.KRunArgs.lean ====
/-
  Reading the fold of @main's buffer contents at the buffers the claims speak of.

  An argument array is never written: region 1 does not stage it and region 0 stages it as an input, so the fold at its
  buffer walks back to the launch memory. The result array is region 1's output window's array, at what that region's
  write-backs leave. Region 1's three input arrays are region 0's three output arrays, at what its write-backs leave.
-/
import proofs.«112745_j14748917694967_2_alg».proof.Proof.KRun

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)
variable (aft0 : (c : Dev nD) → (w : Fin cfg0.W) → Fin cfg0.N → (cfg0.win w).block.Idx → Elt F (cfg0.win w).elt)
  (Φ0 : (c : Dev nD) → Fin (cfg0.N + 1) → sProp (MT nD τ sig Unit (Elt F) ℕ (UR sig nD τ) ℕ))
  (aft1 : (c : Dev nD) → (w : Fin cfg1.W) → Fin cfg1.N → (cfg1.win w).block.Idx → Elt F (cfg1.win w).elt)
  (Φ1 : (c : Dev nD) → Fin (cfg1.N + 1) → sProp (MT nD τ sig Unit (Elt F) ℕ (UR sig nD τ) ℕ))

/-- `main_arg0` reaches the end as launched: region 1 does not stage it, region 0 stages it as an input. -/
theorem W2_main_arg0 (c : Dev nD) : W2 m ρ aft0 Φ0 aft1 Φ1 c (Proc.devRef .tc main_arg0) = m ((c : Thread nD τ).loc main_arg0) :=
  calc W2 m ρ aft0 Φ0 aft1 Φ1 c (Proc.devRef .tc main_arg0)
    _ = W1 m ρ aft0 Φ0 c (Proc.devRef .tc main_arg0) := W2_of_ne m ρ aft0 Φ0 aft1 Φ1 c main_arg0 (by decide)
    _ = W0 m ρ c (Proc.devRef .tc main_arg0) := (W1_arr m ρ aft0 Φ0 c 0).trans (((d0 m ρ aft0 Φ0 c).arrAt_in 0 rfl _).trans rfl)
    _ = m ((c : Thread nD τ).loc main_arg0) := rfl

/-- `main_arg1` reaches the end as launched: region 1 does not stage it, region 0 stages it as an input. -/
theorem W2_main_arg1 (c : Dev nD) : W2 m ρ aft0 Φ0 aft1 Φ1 c (Proc.devRef .tc main_arg1) = m ((c : Thread nD τ).loc main_arg1) :=
  calc W2 m ρ aft0 Φ0 aft1 Φ1 c (Proc.devRef .tc main_arg1)
    _ = W1 m ρ aft0 Φ0 c (Proc.devRef .tc main_arg1) := W2_of_ne m ρ aft0 Φ0 aft1 Φ1 c main_arg1 (by decide)
    _ = W0 m ρ c (Proc.devRef .tc main_arg1) := (W1_arr m ρ aft0 Φ0 c 1).trans (((d0 m ρ aft0 Φ0 c).arrAt_in 1 rfl _).trans rfl)
    _ = m ((c : Thread nD τ).loc main_arg1) := rfl

/-- `main_arg2` reaches the end as launched: region 1 does not stage it, region 0 stages it as an input. -/
theorem W2_main_arg2 (c : Dev nD) : W2 m ρ aft0 Φ0 aft1 Φ1 c (Proc.devRef .tc main_arg2) = m ((c : Thread nD τ).loc main_arg2) :=
  calc W2 m ρ aft0 Φ0 aft1 Φ1 c (Proc.devRef .tc main_arg2)
    _ = W1 m ρ aft0 Φ0 c (Proc.devRef .tc main_arg2) := W2_of_ne m ρ aft0 Φ0 aft1 Φ1 c main_arg2 (by decide)
    _ = W0 m ρ c (Proc.devRef .tc main_arg2) := (W1_arr m ρ aft0 Φ0 c 2).trans (((d0 m ρ aft0 Φ0 c).arrAt_in 2 rfl _).trans rfl)
    _ = m ((c : Thread nD τ).loc main_arg2) := rfl

/-- `main_arg3` reaches the end as launched: region 1 does not stage it, region 0 stages it as an input. -/
theorem W2_main_arg3 (c : Dev nD) : W2 m ρ aft0 Φ0 aft1 Φ1 c (Proc.devRef .tc main_arg3) = m ((c : Thread nD τ).loc main_arg3) :=
  calc W2 m ρ aft0 Φ0 aft1 Φ1 c (Proc.devRef .tc main_arg3)
    _ = W1 m ρ aft0 Φ0 c (Proc.devRef .tc main_arg3) := W2_of_ne m ρ aft0 Φ0 aft1 Φ1 c main_arg3 (by decide)
    _ = W0 m ρ c (Proc.devRef .tc main_arg3) := (W1_arr m ρ aft0 Φ0 c 3).trans (((d0 m ρ aft0 Φ0 c).arrAt_in 3 rfl _).trans rfl)
    _ = m ((c : Thread nD τ).loc main_arg3) := rfl

/-- `main_arg4` reaches the end as launched: region 1 does not stage it, region 0 stages it as an input. -/
theorem W2_main_arg4 (c : Dev nD) : W2 m ρ aft0 Φ0 aft1 Φ1 c (Proc.devRef .tc main_arg4) = m ((c : Thread nD τ).loc main_arg4) :=
  calc W2 m ρ aft0 Φ0 aft1 Φ1 c (Proc.devRef .tc main_arg4)
    _ = W1 m ρ aft0 Φ0 c (Proc.devRef .tc main_arg4) := W2_of_ne m ρ aft0 Φ0 aft1 Φ1 c main_arg4 (by decide)
    _ = W0 m ρ c (Proc.devRef .tc main_arg4) := (W1_arr m ρ aft0 Φ0 c 4).trans (((d0 m ρ aft0 Φ0 c).arrAt_in 4 rfl _).trans rfl)
    _ = m ((c : Thread nD τ).loc main_arg4) := rfl

/-- `main_arg5` reaches the end as launched: region 1 does not stage it, region 0 stages it as an input. -/
theorem W2_main_arg5 (c : Dev nD) : W2 m ρ aft0 Φ0 aft1 Φ1 c (Proc.devRef .tc main_arg5) = m ((c : Thread nD τ).loc main_arg5) :=
  calc W2 m ρ aft0 Φ0 aft1 Φ1 c (Proc.devRef .tc main_arg5)
    _ = W1 m ρ aft0 Φ0 c (Proc.devRef .tc main_arg5) := W2_of_ne m ρ aft0 Φ0 aft1 Φ1 c main_arg5 (by decide)
    _ = W0 m ρ c (Proc.devRef .tc main_arg5) := (W1_arr m ρ aft0 Φ0 c 5).trans (((d0 m ρ aft0 Φ0 c).arrAt_in 5 rfl _).trans rfl)
    _ = m ((c : Thread nD τ).loc main_arg5) := rfl

/-- `main_arg6` reaches the end as launched: region 1 does not stage it, region 0 stages it as an input. -/
theorem W2_main_arg6 (c : Dev nD) : W2 m ρ aft0 Φ0 aft1 Φ1 c (Proc.devRef .tc main_arg6) = m ((c : Thread nD τ).loc main_arg6) :=
  calc W2 m ρ aft0 Φ0 aft1 Φ1 c (Proc.devRef .tc main_arg6)
    _ = W1 m ρ aft0 Φ0 c (Proc.devRef .tc main_arg6) := W2_of_ne m ρ aft0 Φ0 aft1 Φ1 c main_arg6 (by decide)
    _ = W0 m ρ c (Proc.devRef .tc main_arg6) := (W1_arr m ρ aft0 Φ0 c 6).trans (((d0 m ρ aft0 Φ0 c).arrAt_in 6 rfl _).trans rfl)
    _ = m ((c : Thread nD τ).loc main_arg6) := rfl

/-- The result array at the end: what region 1's write-backs leave in its output window's array. -/
theorem W2_main_v1 (c : Dev nD) : W2 m ρ aft0 Φ0 aft1 Φ1 c (Proc.devRef .tc main_v1) = (d1 m ρ aft0 Φ0 aft1 Φ1 c).arrAt 3 cfg1.N :=
  W2_arr m ρ aft0 Φ0 aft1 Φ1 c 3

/-- Region 1's query array as it finds it: what region 0's write-backs leave in its first output array. -/
theorem V1_q (c : Dev nD) : V1 m ρ aft0 Φ0 c (Pipeline.arrRef spec1 0) = (d0 m ρ aft0 Φ0 c).arrAt 7 cfg0.N := W1_arr m ρ aft0 Φ0 c 7
/-- Its key array: region 0's second output array. -/
theorem V1_k (c : Dev nD) : V1 m ρ aft0 Φ0 c (Pipeline.arrRef spec1 1) = (d0 m ρ aft0 Φ0 c).arrAt 8 cfg0.N := W1_arr m ρ aft0 Φ0 c 8
/-- Its value array: region 0's third output array. -/
theorem V1_v (c : Dev nD) : V1 m ρ aft0 Φ0 c (Pipeline.arrRef spec1 2) = (d0 m ρ aft0 Φ0 c).arrAt 9 cfg0.N := W1_arr m ρ aft0 Φ0 c 9

/-- An argument array as region 0 finds it: the launch memory. -/
theorem V0_arg (c : Dev nD) (b : Ref sig .tc) : V0 m ρ c b = m ((c : Thread nD τ).loc b) := rfl

end Cert.Kernel.Whole

end
-- ==== Proof.KProjBody.lean ====
/-
  The projection region (region 0) at a parameter

  The first region computes, for each of its eight grid points, three blocks `x·W + b` from one block of `x` and the
  three weight matrices and bias vectors. Here is its half of the frame argument at a parameter `V` — the buffer
  contents the region is entered with —, for any float model: each window's block at a point, what the body leaves in
  each output window's buffer as a function of the input blocks, the body's triple, the proof data and the body
  obligation. The three weight and the three bias windows are fetched at the first point only; at the later points their
  block index has not moved, so their buffers still hold their (whole-array) block.
-/
import proofs.«112745_j14748917694967_2_alg».proof.Proof.Gen.Kernel.Launch
import proofs.«112745_j14748917694967_2_alg».proof.Proof.Gen.Kernel.Skeleton
import proofs.«112745_j14748917694967_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof
data whose array is `V`'s and whose body leaves the block in place: where the window is not fetched its block
index has not moved since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev rX : Rect S1x1024x1024 := Rect.unit (s := S1x1024x1024) ![0, 0, 0] S1x1024x1024.size inb_S1x1024x1024_S1x1024x1024_0_0_0
abbrev rW : Rect S1024x128 := Rect.unit (s := S1024x128) ![0, 0] S1024x128.size inb_S1024x128_S1024x128_0_0
abbrev rB : Rect S128 := Rect.unit (s := S128) ![0] S128.size inb_S128_S128_0
abbrev rO : Rect S1x1024x128 := Rect.unit (s := S1x1024x128) ![0, 0, 0] S1x1024x128.size inb_S1x1024x128_S1x1024x128_0_0_0

/-! ## What the body leaves in each output window's buffer -/

/-- The first output's buffer after the body: its one store, of `x·W₁ + b₁` rounded. -/
def out0_7 (x0 : Vec F S1x1024x1024 .f32) (x1 : Vec F S1024x128 .f32) (x2 : Vec F S128 .f32) : Vec F S1x1024x128 .bf16 :=
  View.canon [⟨rO, k0_pay3 (View.ld x0 rX) (View.ld x1 rW) (View.ld x2 rB)⟩]

/-- The second output's buffer after the body. -/
def out0_8 (x0 : Vec F S1x1024x1024 .f32) (x3 : Vec F S1024x128 .f32) (x4 : Vec F S128 .f32) : Vec F S1x1024x128 .bf16 :=
  View.canon [⟨rO, k0_pay4 (View.ld x0 rX) (View.ld x3 rW) (View.ld x4 rB)⟩]

/-- The third output's buffer after the body. -/
def out0_9 (x0 : Vec F S1x1024x1024 .f32) (x5 : Vec F S1024x128 .f32) (x6 : Vec F S128 .f32) : Vec F S1x1024x128 .bf16 :=
  View.canon [⟨rO, k0_pay1 (k0_pay5 (View.ld x0 rX) (View.ld x5 rW) (View.ld x6 rB))⟩]

/-- One whole-buffer store covers the buffer. -/
theorem cover0 (p0 : Vec F S1x1024x128 .bf16) (y : S1x1024x128.Idx) :
    ∃ pc ∈ ([⟨rO, p0⟩] : List (View.Piece (Elt F) S1x1024x128 .bf16)), y ∈ pc.1.set :=
  View.cover_of_tiled [⟨rO, p0⟩] S1x1024x128.size (by rfl) y

/-! ## The body's triple -/

set_option maxHeartbeats 1000000 in
/-- The kernel body on whole staging memrefs, the inputs' at contents `xW` and the outputs' at anything, runs to the
    continuation holding the inputs' as they were and each output's at `out0_W` of the inputs'. The body loads each
    output buffer before it stores it; what that load reads is not used. -/
theorem sound_kernel0 (c : Dev nD) (E : Set ℕ) (i : grid0.Coords) (arg2 : Memref sig .tc .vmem S1x1024x1024 .f32) (harg2 : arg2.IsWhole) (arg3 : Memref sig .tc .vmem S1024x128 .f32) (harg3 : arg3.IsWhole) (arg4 : Memref sig .tc .vmem S128 .f32) (harg4 : arg4.IsWhole) (arg5 : Memref sig .tc .vmem S1024x128 .f32) (harg5 : arg5.IsWhole) (arg6 : Memref sig .tc .vmem S128 .f32) (harg6 : arg6.IsWhole) (arg7 : Memref sig .tc .vmem S1024x128 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x1024x128 .bf16) (harg10 : arg10.IsWhole) (arg11 : Memref sig .tc .vmem S1x1024x128 .bf16) (harg11 : arg11.IsWhole)
    (x0 : Vec F S1x1024x1024 .f32) (x1 : Vec F S1024x128 .f32) (x2 : Vec F S128 .f32) (x3 : Vec F S1024x128 .f32) (x4 : Vec F S128 .f32) (x5 : Vec F S1024x128 .f32) (x6 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The region's proof data -/

/-- The proof data of the region on core `c`: the arrays as the region finds them; after the body at point `t` each
    input's buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Proj

end
-- ==== Proof.KAttnBody.lean ====
/-
  The attention region's half of the certificate, at the buffer contents `V` the region is entered with and at any
  float type: flash attention over two key/value blocks per query block. The body keeps a running row maximum, a
  running row sum and an accumulator in three scratch buffers carried from grid point to grid point; at the even
  points (first key/value block) it resets them and updates them, storing nothing into the output's buffer; at the
  odd points (second block) it updates them from what the point before left and stores accumulator / sum into the
  output's buffer, which is then written back. Every store covers its whole buffer, so what each buffer holds after
  a point is the payload of the last store into it, a closed term of the point's three input blocks and of what the
  scratch buffers held before (`outsAt1`). Stated here: the two triples of the body (`kernel1_A`, `kernel1_B`),
  the contents point by point (`outsAt1`, `outsAt1_A`, `outsAt1_B`), the invariant (`PhiS`), the proof data
  (`dat1`) and the body obligation (`body_obligation1`) with the invariant's two ends (`hin1`, `hout1`).
-/
import proofs.«112745_j14748917694967_2_alg».proof.Proof.Gen.Kernel.Launch
import proofs.«112745_j14748917694967_2_alg».proof.Proof.Gen.Kernel.Skeleton
import proofs.«112745_j14748917694967_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the first conditional (the reset of the running maximum, sum and accumulator): the third grid
    coordinate is zero. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the last conditional (the normalised block is stored): the third grid coordinate is one. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle: nothing is stored into it, -/
theorem idleAt1_3_A : ∀ t : Fin cfg1.N, t.val % 2 = 0 → cfg1.idle 3 (grid1.coords t) = true := by decide +kernel
/-- and its block is not written back. -/
theorem noFlush1_3_A : ∀ t : Fin cfg1.N, t.val % 2 = 0 → (cfg1.win 3).flush t = false := by decide +kernel
/-- At the odd points it is live. -/
theorem liveAt1_3_B : ∀ t : Fin cfg1.N, t.val % 2 = 1 → cfg1.idle 3 (grid1.coords t) = false := by decide +kernel

/-! ## The staging and scratch memrefs -/

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The three scratch buffers carried from point to point: the running maximum, the running sum, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2

/-! ## Whole-buffer stores and loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- After a store through the whole-shape rectangle, made last, the buffer reads that store's payload, whatever the
    earlier stores and the prior contents were. -/
theorem read_writes_cons_unit_zero {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

/-! ## The body's triple at the even points -/

set_option maxHeartbeats 1000000 in
/-- At a point whose third coordinate is zero the body resets the three scratch buffers (whatever they held), updates
    them from the point's blocks and leaves the output's buffer untouched. -/
theorem kernel1_A (c : Dev nD) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : cond1_0 i) (hc1 : ¬cond1_1 i)
    (x0 x1 x2 : Vec F S1x1024x128 .bf16) (xi3 : Vec F S1x1024x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (k1_pay2 (k1_pay9 x0 x1 (k1_pay4 (F := F))))
            ∗ owns (c : Thread nD τ) arg8 fullShare (k1_pay12 x0 x1 (k1_pay4 (F := F)) (k1_pay4 (F := F)) (k1_pay5 (F := F)))
            ∗ owns (c : Thread nD τ) arg9 fullShare (k1_pay1 (k1_pay7 x2) (k1_pay10 x0 x1 (k1_pay4 (F := F)) (k1_pay4 (F := F))) (k1_pay11 x0 x1 (k1_pay4 (F := F))) (k1_pay6 (F := F)))) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    refine (read_writes_cons_unit_zero _ _ hz2 _ _ _).trans ?_
    sl_unfold_run_names
    simp only [View.readAt_eq_ld, harg3.read_unread, harg4.read_unread, harg5.read_unread, View.ld_unit_zero (S := S1x1024x128) hz3, View.readCov_unit_zero (S := S1024x1) _ hz2, View.readCov_unit_zero (S := S1024x128) _ hz2]
  isplitl [H8]
  · iexists _; isplitr
    swap; · iexact H8
    ipureintro
    refine (read_writes_cons_unit_zero _ _ hz2 _ _ _).trans ?_
    sl_unfold_run_names
    simp only [View.readAt_eq_ld, harg3.read_unread, harg4.read_unread, harg5.read_unread, View.ld_unit_zero (S := S1x1024x128) hz3, View.readCov_unit_zero (S := S1024x1) _ hz2, View.readCov_unit_zero (S := S1024x128) _ hz2]
  iexists _; isplitr
  swap; · iexact H9
  ipureintro
  refine (read_writes_cons_unit_zero _ _ hz2 _ _ _).trans ?_
  sl_unfold_run_names
  simp only [View.readAt_eq_ld, harg3.read_unread, harg4.read_unread, harg5.read_unread, View.ld_unit_zero (S := S1x1024x128) hz3, View.readCov_unit_zero (S := S1024x1) _ hz2, View.readCov_unit_zero (S := S1024x128) _ hz2]

/-! ## The body's triple at the odd points -/

set_option maxHeartbeats 1000000 in
/-- At a point whose third coordinate is one the body updates the three scratch buffers from what the point before
    left in them and stores the accumulator divided by the running sum into the output's buffer (whatever it held). -/
theorem kernel1_B (c : Dev nD) (i : grid1.Coords)
    (arg3 : Memref sig .tc .vmem S1x1024x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole) (hc0 : ¬cond1_0 i) (hc1 : cond1_1 i)
    (x0 x1 x2 : Vec F S1x1024x128 .bf16) (xm xl : Vec F S1024x1 .f32) (xacc : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xm ∗ owns (c : Thread nD τ) arg8 fullShare xl ∗ owns (c : Thread nD τ) arg9 fullShare xacc
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay1 (k1_pay7 x2) (k1_pay10 x0 x1 xm xm) (k1_pay11 x0 x1 xm) xacc) (k1_pay12 x0 x1 xm xm xl))
            ∗ owns (c : Thread nD τ) arg7 fullShare (k1_pay2 (k1_pay9 x0 x1 xm))
            ∗ owns (c : Thread nD τ) arg8 fullShare (k1_pay12 x0 x1 xm xm xl)
            ∗ owns (c : Thread nD τ) arg9 fullShare (k1_pay1 (k1_pay7 x2) (k1_pay10 x0 x1 xm xm) (k1_pay11 x0 x1 xm) xacc)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2
  obtain rfl := harg7.eq_unread hf7; obtain rfl := harg8.eq_unread hf8; obtain rfl := harg9.eq_unread hf9
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (read_writes_cons_unit_zero _ _ hz3 _ _ _).trans ?_
    sl_unfold_run_names
    simp only [View.readAt_eq_ld, harg3.read_unread, harg4.read_unread, harg5.read_unread, harg7.read_unread, harg8.read_unread, harg9.read_unread, View.ld_unit_zero (S := S1x1024x128) hz3, View.ld_unit_zero (S := S1024x1) hz2, View.ld_unit_zero (S := S1024x128) hz2, View.readCov_unit_zero (S := S1024x1) _ hz2, View.readCov_unit_zero (S := S1024x128) _ hz2]
  isplitl [H7]
  · iexists _; isplitr
    swap; · iexact H7
    ipureintro
    refine (read_writes_cons_unit_zero _ _ hz2 _ _ _).trans ?_
    sl_unfold_run_names
    simp only [View.readAt_eq_ld, harg3.read_unread, harg4.read_unread, harg5.read_unread, harg7.read_unread, harg8.read_unread, harg9.read_unread, View.ld_unit_zero (S := S1x1024x128) hz3, View.ld_unit_zero (S := S1024x1) hz2, View.ld_unit_zero (S := S1024x128) hz2, View.readCov_unit_zero (S := S1024x1) _ hz2, View.readCov_unit_zero (S := S1024x128) _ hz2]
  isplitl [H8]
  · iexists _; isplitr
    swap; · iexact H8
    ipureintro
    refine (read_writes_cons_unit_zero _ _ hz2 _ _ _).trans ?_
    sl_unfold_run_names
    simp only [View.readAt_eq_ld, harg3.read_unread, harg4.read_unread, harg5.read_unread, harg7.read_unread, harg8.read_unread, harg9.read_unread, View.ld_unit_zero (S := S1x1024x128) hz3, View.ld_unit_zero (S := S1024x1) hz2, View.ld_unit_zero (S := S1024x128) hz2, View.readCov_unit_zero (S := S1024x1) _ hz2, View.readCov_unit_zero (S := S1024x128) _ hz2]
  iexists _; isplitr
  swap; · iexact H9
  ipureintro
  refine (read_writes_cons_unit_zero _ _ hz2 _ _ _).trans ?_
  sl_unfold_run_names
  simp only [View.readAt_eq_ld, harg3.read_unread, harg4.read_unread, harg5.read_unread, harg7.read_unread, harg8.read_unread, harg9.read_unread, View.ld_unit_zero (S := S1x1024x128) hz3, View.ld_unit_zero (S := S1024x1) hz2, View.ld_unit_zero (S := S1024x128) hz2, View.readCov_unit_zero (S := S1024x1) _ hz2, View.readCov_unit_zero (S := S1024x128) _ hz2]

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output's buffer and the three scratch buffers hold after each point -/

/-- After the body at position `n`: the normalised block (stored at the odd points only; at an even point the term is
    what WOULD be stored, and nothing reads it), the running maximum, the running sum and the accumulator. At an even
    point the update starts from the reset values, at an odd one from what the point before left. -/
def outsAt1 (c : Dev nD) : (n : ℕ) → n < cfg1.N → Vec F S1x1024x128 .f32 × Vec F S1024x1 .f32 × Vec F S1024x1 .f32 × Vec F S1024x128 .f32
  | 0, hn => ((k1_pay3 (k1_pay1 (k1_pay7 (iblk1 V c 2 ⟨0, hn⟩)) (k1_pay10 (iblk1 V c 0 ⟨0, hn⟩) (iblk1 V c 1 ⟨0, hn⟩) (k1_pay4 (F := F)) (k1_pay4 (F := F))) (k1_pay11 (iblk1 V c 0 ⟨0, hn⟩) (iblk1 V c 1 ⟨0, hn⟩) (k1_pay4 (F := F))) (k1_pay6 (F := F))) (k1_pay12 (iblk1 V c 0 ⟨0, hn⟩) (iblk1 V c 1 ⟨0, hn⟩) (k1_pay4 (F := F)) (k1_pay4 (F := F)) (k1_pay5 (F := F)))), (k1_pay2 (k1_pay9 (iblk1 V c 0 ⟨0, hn⟩) (iblk1 V c 1 ⟨0, hn⟩) (k1_pay4 (F := F)))), (k1_pay12 (iblk1 V c 0 ⟨0, hn⟩) (iblk1 V c 1 ⟨0, hn⟩) (k1_pay4 (F := F)) (k1_pay4 (F := F)) (k1_pay5 (F := F))), (k1_pay1 (k1_pay7 (iblk1 V c 2 ⟨0, hn⟩)) (k1_pay10 (iblk1 V c 0 ⟨0, hn⟩) (iblk1 V c 1 ⟨0, hn⟩) (k1_pay4 (F := F)) (k1_pay4 (F := F))) (k1_pay11 (iblk1 V c 0 ⟨0, hn⟩) (iblk1 V c 1 ⟨0, hn⟩) (k1_pay4 (F := F))) (k1_pay6 (F := F))))
  | n + 1, hn =>
    if (n + 1) % 2 = 0 then
      ((k1_pay3 (k1_pay1 (k1_pay7 (iblk1 V c 2 ⟨n + 1, hn⟩)) (k1_pay10 (iblk1 V c 0 ⟨n + 1, hn⟩) (iblk1 V c 1 ⟨n + 1, hn⟩) (k1_pay4 (F := F)) (k1_pay4 (F := F))) (k1_pay11 (iblk1 V c 0 ⟨n + 1, hn⟩) (iblk1 V c 1 ⟨n + 1, hn⟩) (k1_pay4 (F := F))) (k1_pay6 (F := F))) (k1_pay12 (iblk1 V c 0 ⟨n + 1, hn⟩) (iblk1 V c 1 ⟨n + 1, hn⟩) (k1_pay4 (F := F)) (k1_pay4 (F := F)) (k1_pay5 (F := F)))), (k1_pay2 (k1_pay9 (iblk1 V c 0 ⟨n + 1, hn⟩) (iblk1 V c 1 ⟨n + 1, hn⟩) (k1_pay4 (F := F)))), (k1_pay12 (iblk1 V c 0 ⟨n + 1, hn⟩) (iblk1 V c 1 ⟨n + 1, hn⟩) (k1_pay4 (F := F)) (k1_pay4 (F := F)) (k1_pay5 (F := F))), (k1_pay1 (k1_pay7 (iblk1 V c 2 ⟨n + 1, hn⟩)) (k1_pay10 (iblk1 V c 0 ⟨n + 1, hn⟩) (iblk1 V c 1 ⟨n + 1, hn⟩) (k1_pay4 (F := F)) (k1_pay4 (F := F))) (k1_pay11 (iblk1 V c 0 ⟨n + 1, hn⟩) (iblk1 V c 1 ⟨n + 1, hn⟩) (k1_pay4 (F := F))) (k1_pay6 (F := F))))
    else
      ((k1_pay3 (k1_pay1 (k1_pay7 (iblk1 V c 2 ⟨n + 1, hn⟩)) (k1_pay10 (iblk1 V c 0 ⟨n + 1, hn⟩) (iblk1 V c 1 ⟨n + 1, hn⟩) (outsAt1 c n (Nat.lt_of_succ_lt hn)).2.1 (outsAt1 c n (Nat.lt_of_succ_lt hn)).2.1) (k1_pay11 (iblk1 V c 0 ⟨n + 1, hn⟩) (iblk1 V c 1 ⟨n + 1, hn⟩) (outsAt1 c n (Nat.lt_of_succ_lt hn)).2.1) (outsAt1 c n (Nat.lt_of_succ_lt hn)).2.2.2) (k1_pay12 (iblk1 V c 0 ⟨n + 1, hn⟩) (iblk1 V c 1 ⟨n + 1, hn⟩) (outsAt1 c n (Nat.lt_of_succ_lt hn)).2.1 (outsAt1 c n (Nat.lt_of_succ_lt hn)).2.1 (outsAt1 c n (Nat.lt_of_succ_lt hn)).2.2.1)), (k1_pay2 (k1_pay9 (iblk1 V c 0 ⟨n + 1, hn⟩) (iblk1 V c 1 ⟨n + 1, hn⟩) (outsAt1 c n (Nat.lt_of_succ_lt hn)).2.1)), (k1_pay12 (iblk1 V c 0 ⟨n + 1, hn⟩) (iblk1 V c 1 ⟨n + 1, hn⟩) (outsAt1 c n (Nat.lt_of_succ_lt hn)).2.1 (outsAt1 c n (Nat.lt_of_succ_lt hn)).2.1 (outsAt1 c n (Nat.lt_of_succ_lt hn)).2.2.1), (k1_pay1 (k1_pay7 (iblk1 V c 2 ⟨n + 1, hn⟩)) (k1_pay10 (iblk1 V c 0 ⟨n + 1, hn⟩) (iblk1 V c 1 ⟨n + 1, hn⟩) (outsAt1 c n (Nat.lt_of_succ_lt hn)).2.1 (outsAt1 c n (Nat.lt_of_succ_lt hn)).2.1) (k1_pay11 (iblk1 V c 0 ⟨n + 1, hn⟩) (iblk1 V c 1 ⟨n + 1, hn⟩) (outsAt1 c n (Nat.lt_of_succ_lt hn)).2.1) (outsAt1 c n (Nat.lt_of_succ_lt hn)).2.2.2))

/-- At an even point: one update from the reset values. -/
theorem outsAt1_A (c : Dev nD) (t : Fin cfg1.N) (h : t.val % 2 = 0) :
    outsAt1 V c t.val t.isLt = ((k1_pay3 (k1_pay1 (k1_pay7 (iblk1 V c 2 t)) (k1_pay10 (iblk1 V c 0 t) (iblk1 V c 1 t) (k1_pay4 (F := F)) (k1_pay4 (F := F))) (k1_pay11 (iblk1 V c 0 t) (iblk1 V c 1 t) (k1_pay4 (F := F))) (k1_pay6 (F := F))) (k1_pay12 (iblk1 V c 0 t) (iblk1 V c 1 t) (k1_pay4 (F := F)) (k1_pay4 (F := F)) (k1_pay5 (F := F)))), (k1_pay2 (k1_pay9 (iblk1 V c 0 t) (iblk1 V c 1 t) (k1_pay4 (F := F)))), (k1_pay12 (iblk1 V c 0 t) (iblk1 V c 1 t) (k1_pay4 (F := F)) (k1_pay4 (F := F)) (k1_pay5 (F := F))), (k1_pay1 (k1_pay7 (iblk1 V c 2 t)) (k1_pay10 (iblk1 V c 0 t) (iblk1 V c 1 t) (k1_pay4 (F := F)) (k1_pay4 (F := F))) (k1_pay11 (iblk1 V c 0 t) (iblk1 V c 1 t) (k1_pay4 (F := F))) (k1_pay6 (F := F)))) := by
  obtain ⟨n, hn⟩ := t
  cases n with
  | zero => rfl
  | succ n => exact (if_pos h).trans rfl

/-- At an odd point: one update from what the point before left. -/
theorem outsAt1_B (c : Dev nD) (t : Fin cfg1.N) (h : t.val % 2 = 1) :
    outsAt1 V c t.val t.isLt = ((k1_pay3 (k1_pay1 (k1_pay7 (iblk1 V c 2 t)) (k1_pay10 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1) (k1_pay11 (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2) (k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1)), (k1_pay2 (k1_pay9 (iblk1 V c 0 t) (iblk1 V c 1 t) (outsAt1 V c (t.val - 1) (Nat.lt_of_le_of_lt (Nat.sub_le _ _) t.isLt)).2.1)), (k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1), (k1_pay1 (k1_pay7 (iblk1 V c 2 t)) (k1_pay10 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1) (k1_pay11 (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2)) := by
  obtain ⟨n, hn⟩ := t
  cases n with
  | zero => exact absurd (show (0 : ℕ) % 2 = 1 from h) (by decide)
  | succ n => exact (if_neg (by dsimp only at h; omega)).trans rfl

/-! ## The region invariant -/

/-- The core's scoped buffers that are neither a staging buffer of this call nor one of its three scratch buffers, at
    some contents each: carried unopened. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- What the launch hands the region, with the three scratch buffers as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ rest1 (F := F) c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

/-- The invariant before position `n`: before the first point what the launch hands over; afterwards the three scratch
    buffers at what the point before left in them, the other scoped buffers and the generator register at anything. -/
def PhiS (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ rest1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ rest1 (F := F) c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ rest1 (F := F) c) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks. At an even point the scratch buffers are handed over
    at anything (the first point) or at what the point before left — either way the body overwrites them before it reads
    them —, the output's buffer is handed back as found; at an odd point they are handed over at what the point before
    left and the output's buffer comes back holding the normalised block. The invariant takes the scratch buffers back
    at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_A t h0) (noFlush1_3_A t h0)]
    rw [outsAt1_A V c t h0]
    dsimp only
    by_cases hz : t.val = 0
    · rw [PhiS_castSucc V c t, PhiS_zero V c _ _ hz, PhiA1_eq]
      iintro ⟨⟨⟨⟨HS0, HS1, HS2⟩, Hr⟩, Hg⟩, Ho, ⟨%d0, H0⟩, ⟨%d1, H1⟩, ⟨%d2, H2⟩, ⟨%d3, H3⟩⟩
      iapply (kernel1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply (kernel1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 3 t = owns (c : Thread nD τ) (ms1_3 t) fullShare ((dat1 V c).after 3 t) from by
      unfold Dat.leavesExact; rw [liveAt1_3_B t h1], after1_3]
    rw [outsAt1_B V c t h1]
    dsimp only
    rw [PhiS_castSucc V c t, PhiS_pos V c _ _ hz]
    iintro ⟨⟨⟨⟨HS0, HS1, HS2⟩, Hr⟩, Hg⟩, Ho, ⟨%d0, H0⟩, ⟨%d1, H1⟩, ⟨%d2, H2⟩, ⟨%d3, H3⟩⟩
    iapply (kernel1_B c (grid1.coords t) _ _ _ _ _ _ _ _ _ _ _ _ _ _ hc0 hc1 (iblk1 V c 0 t) (iblk1 V c 1 t) (iblk1 V c 2 t) _ _ _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hr Hg]
    · isplitl [HS0 HS1 HS2 Hr]
      · isplitl [HS0 HS1 HS2]
        · isplitl [HS0]; · iexact HS0
          isplitl [HS1]; · iexact HS1
          iexact HS2
        iexact Hr
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives it back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Attn

end
-- ==== Proof.KMain.lean ====
/-
  @main's run with the two regions' proof data in place.

  Region 0 (the three projections) is entered from the launch memory; region 1 (the attention) from what region 0
  leaves. With their body obligations and invariants, the run of the whole program gives: every weakly fair execution
  terminates, nothing faults, every argument array ends as launched (the frame), and the result array ends holding
  what region 1's write-backs leave in its output window's array (the value run).
-/
import proofs.«112745_j14748917694967_2_alg».proof.Proof.KRunArgs
import proofs.«112745_j14748917694967_2_alg».proof.Proof.KProjBody
import proofs.«112745_j14748917694967_2_alg».proof.Proof.KAttnBody

set_option maxRecDepth 16384

noncomputable section

namespace Cert.Kernel.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Whole

variable {F : FTy → Type} [FloatOps F]
variable (m : (ℓ : Loc nD τ sig) → Buf (Elt F) ℓ) (ρ : Dev nD → PrngReg)

/-! ## The two regions' proof data, each at its entry contents -/

/-- What region 0's body leaves in each staging buffer, entered from the launch memory. -/
abbrev aft0 : (c : Dev nD) → (w : Fin cfg0.W) → Fin cfg0.N → (cfg0.win w).block.Idx → Elt F (cfg0.win w).elt :=
  fun c => (Proj.dat0 (V0 m ρ) c).after
/-- Region 0's invariant. -/
abbrev Φ0 : (c : Dev nD) → Fin (cfg0.N + 1) → sProp (MT nD τ sig Unit (Elt F) ℕ (UR sig nD τ) ℕ) :=
  fun c => (Proj.dat0 (V0 m ρ) c).Φ
theorem d0_eq (c : Dev nD) : d0 m ρ (aft0 m ρ) (Φ0 m ρ) c = Proj.dat0 (V0 m ρ) c := rfl

/-- The buffers as region 1 finds them. -/
abbrev Vq : (c : Dev nD) → (b : Ref sig .tc) → Buf (Elt F) ((c : Thread nD τ).loc b) := V1 m ρ (aft0 m ρ) (Φ0 m ρ)
/-- What region 1's body leaves in each staging buffer. -/
abbrev aft1 : (c : Dev nD) → (w : Fin cfg1.W) → Fin cfg1.N → (cfg1.win w).block.Idx → Elt F (cfg1.win w).elt :=
  fun c => (Attn.dat1 (Vq m ρ) c).after
/-- Region 1's invariant: the three scratch buffers at what the point before left. -/
abbrev Φ1 : (c : Dev nD) → Fin (cfg1.N + 1) → sProp (MT nD τ sig Unit (Elt F) ℕ (UR sig nD τ) ℕ) :=
  fun c => (Attn.dat1 (Vq m ρ) c).Φ
theorem d1_eq (c : Dev nD) : d1 m ρ (aft0 m ρ) (Φ0 m ρ) (aft1 m ρ) (Φ1 m ρ) c = Attn.dat1 (Vq m ρ) c := rfl

theorem hb0 (c : Dev nD) : BodyObligation (d0 m ρ (aft0 m ρ) (Φ0 m ρ) c) (defs₀ (F := F)) Variants.none () Set.univ := by
  rw [d0_eq]; exact Proj.body_obligation0 (V0 m ρ) c
theorem hb1 (c : Dev nD) : BodyObligation (d1 m ρ (aft0 m ρ) (Φ0 m ρ) (aft1 m ρ) (Φ1 m ρ) c) (defs₀ (F := F)) Variants.none () Set.univ := by
  rw [d1_eq]; exact Attn.body_obligation1 (Vq m ρ) c

/-! ## The run -/

/-- Every weakly fair execution of @main terminates, and the final memory holds every unscoped buffer at the end of
    the fold of the two regions' write-backs. -/
theorem run {Q : PUnit × MemSt nD τ sig (Elt F) → Prop}
    (hQ : ∀ s : MemSt nD τ sig (Elt F), (∀ c : Dev nD, ∀ b ∈ Pipeline.ucRefs τ sig, s.mem (((c : Thread nD τ)).1, b) = W2 m ρ (aft0 m ρ) (Φ0 m ρ) (aft1 m ρ) (Φ1 m ρ) c b) → Q (⟨⟩, s)) :
    θ_run defs (onTc (τ := τ) (main (F := F))) ⟨m, fun _ => 0, ρ⟩ Q :=
  run_all m ρ (aft0 m ρ) (Φ0 m ρ) (aft1 m ρ) (Φ1 m ρ) (fun _ => .rfl) (fun _ => .rfl) (hb0 m ρ)
    (fun c => Attn.hin1 (Vq m ρ) c) (fun c => Attn.hout1 (Vq m ρ) c) (hb1 m ρ) hQ

/-- The frame, at any `F`: @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run m ρ (fun s h c =>
    ⟨(h c _ (mem_uc main_arg0 (by decide))).trans (W2_main_arg0 m ρ (aft0 m ρ) (Φ0 m ρ) (aft1 m ρ) (Φ1 m ρ) c),
      (h c _ (mem_uc main_arg1 (by decide))).trans (W2_main_arg1 m ρ (aft0 m ρ) (Φ0 m ρ) (aft1 m ρ) (Φ1 m ρ) c),
      (h c _ (mem_uc main_arg2 (by decide))).trans (W2_main_arg2 m ρ (aft0 m ρ) (Φ0 m ρ) (aft1 m ρ) (Φ1 m ρ) c),
      (h c _ (mem_uc main_arg3 (by decide))).trans (W2_main_arg3 m ρ (aft0 m ρ) (Φ0 m ρ) (aft1 m ρ) (Φ1 m ρ) c),
      (h c _ (mem_uc main_arg4 (by decide))).trans (W2_main_arg4 m ρ (aft0 m ρ) (Φ0 m ρ) (aft1 m ρ) (Φ1 m ρ) c),
      (h c _ (mem_uc main_arg5 (by decide))).trans (W2_main_arg5 m ρ (aft0 m ρ) (Φ0 m ρ) (aft1 m ρ) (Φ1 m ρ) c),
      (h c _ (mem_uc main_arg6 (by decide))).trans (W2_main_arg6 m ρ (aft0 m ρ) (Φ0 m ρ) (aft1 m ρ) (Φ1 m ρ) c)⟩)

/-- The value run: the same, with the result array named — what region 1's write-backs leave in its output array. -/
theorem run_value : θ_run defs (onTc (τ := τ) (main (F := F))) ⟨m, fun _ => 0, ρ⟩ (fun r => ∀ c : Dev nD,
      r.2.mem ((c.tc : Thread nD τ).loc main_v1) = (Attn.dat1 (Vq m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run m ρ (fun s h c =>
    ⟨(h c _ (mem_uc main_v1 (by decide))).trans (W2_main_v1 m ρ (aft0 m ρ) (Φ0 m ρ) (aft1 m ρ) (Φ1 m ρ) c),
      (h c _ (mem_uc main_arg0 (by decide))).trans (W2_main_arg0 m ρ (aft0 m ρ) (Φ0 m ρ) (aft1 m ρ) (Φ1 m ρ) c),
      (h c _ (mem_uc main_arg1 (by decide))).trans (W2_main_arg1 m ρ (aft0 m ρ) (Φ0 m ρ) (aft1 m ρ) (Φ1 m ρ) c),
      (h c _ (mem_uc main_arg2 (by decide))).trans (W2_main_arg2 m ρ (aft0 m ρ) (Φ0 m ρ) (aft1 m ρ) (Φ1 m ρ) c),
      (h c _ (mem_uc main_arg3 (by decide))).trans (W2_main_arg3 m ρ (aft0 m ρ) (Φ0 m ρ) (aft1 m ρ) (Φ1 m ρ) c),
      (h c _ (mem_uc main_arg4 (by decide))).trans (W2_main_arg4 m ρ (aft0 m ρ) (Φ0 m ρ) (aft1 m ρ) (Φ1 m ρ) c),
      (h c _ (mem_uc main_arg5 (by decide))).trans (W2_main_arg5 m ρ (aft0 m ρ) (Φ0 m ρ) (aft1 m ρ) (Φ1 m ρ) c),
      (h c _ (mem_uc main_arg6 (by decide))).trans (W2_main_arg6 m ρ (aft0 m ρ) (Φ0 m ρ) (aft1 m ρ) (Φ1 m ρ) c)⟩)

/-- Region 1's three input arrays, as it finds them, are region 0's three output arrays at the end of region 0. -/
theorem Vq_q (c : Dev nD) : Vq m ρ c (Pipeline.arrRef spec1 0) = (Proj.dat0 (V0 m ρ) c).arrAt 7 cfg0.N := V1_q m ρ (aft0 m ρ) (Φ0 m ρ) c
theorem Vq_k (c : Dev nD) : Vq m ρ c (Pipeline.arrRef spec1 1) = (Proj.dat0 (V0 m ρ) c).arrAt 8 cfg0.N := V1_k m ρ (aft0 m ρ) (Φ0 m ρ) c
theorem Vq_v (c : Dev nD) : Vq m ρ c (Pipeline.arrRef spec1 2) = (Proj.dat0 (V0 m ρ) c).arrAt 9 cfg0.N := V1_v m ρ (aft0 m ρ) (Φ0 m ρ) c

end Cert.Kernel.Main

end
-- ==== Proof.Spec.lean ====
/-
  The three projections of the attention layer as ONE function of the input array, a weight matrix and a bias row,
  index by index: entry (b, s, d) is the inner product of row (b, s) of the input with column d of the weight, plus
  entry d of the bias. Indices are built from coordinates over the literal extents.
-/
import Idealize.ShloMosaic.PureOps.Ideal
import Idealize.ShloMosaic.Lib.ValueIdx

noncomputable section

open scoped BigOperators

namespace Cert.Spec

open Idealize.ShloMosaic Idealize.ShloMosaic.ValueIdx

/-- Entry (b, s, d) of a projection: `(∑ e, x[b, s, e] · W[e, d]) + β[d]`. -/
def projAt (x : (⟨3, ![4, 2048, 1024]⟩ : Shape).Idx → EReal) (W : (⟨2, ![1024, 128]⟩ : Shape).Idx → EReal)
    (β : (⟨1, ![128]⟩ : Shape).Idx → EReal) (b : Fin 4) (s : Fin 2048) (d : Fin 128) : EReal :=
  (∑ e : Fin 1024, x (ix3 b s e) * W (ix2 e d)) + β (ix1 d)

/-- A projection as an array of shape [4, 2048, 128]. -/
def projOf (x : (⟨3, ![4, 2048, 1024]⟩ : Shape).Idx → EReal) (W : (⟨2, ![1024, 128]⟩ : Shape).Idx → EReal)
    (β : (⟨1, ![128]⟩ : Shape).Idx → EReal) : (⟨3, ![4, 2048, 128]⟩ : Shape).Idx → EReal :=
  fun i => projAt x W β (i 0) (i 1) (i 2)

theorem projOf_ix3 (x : (⟨3, ![4, 2048, 1024]⟩ : Shape).Idx → EReal) (W : (⟨2, ![1024, 128]⟩ : Shape).Idx → EReal)
    (β : (⟨1, ![128]⟩ : Shape).Idx → EReal) (b : Fin 4) (s : Fin 2048) (d : Fin 128) :
    projOf x W β (ix3 b s d) = (∑ e : Fin 1024, x (ix3 b s e) * W (ix2 e d)) + β (ix1 d) := rfl

end Cert.Spec

end
-- ==== Proof.ProjValue.lean ====
/-
  The projection region's outputs, read

  At the ideal values each of the region's three outputs is the projection `x·W + b` of the arrays the region finds:
  first each output buffer after the body at an index — a change of float format is the identity, the matrix product
  into a zero accumulator is the inner product of a row with a column, the bias row is repeated down the rows —, then
  from the blocks to the whole arrays: the eight points' blocks tile each output array, and each point writes back the
  block of the projection at its block index.
-/
import proofs.«112745_j14748917694967_2_alg».proof.Proof.ProjBody
import proofs.«112745_j14748917694967_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Proj Cert.Spec
open scoped BigOperators

/-! ## The matrix product at an index -/

theorem lhs_row (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_contr (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_contr (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_col (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The matrix product into a zero accumulator, at row `r` and column `d`: the inner product of row `r` of the left
    operand with column `d` of the right. -/
theorem matmul_zero_ix2 {φ₁ φ₂ : FTy} (A : FVec Ideal S1024x1024 φ₁) (B : FVec Ideal S1024x128 φ₂) (r : Fin 1024) (d : Fin 128) :
    FloatOps.matmul dot_S1024x1024_S1024x128_S1024x128_1_0_0_1_n_n none A B (constant (F := Ideal) S1024x128 .f32 0x00000000#32) (ix2 r d)
      = ∑ e : Fin 1024, A (ix2 r e) * B (ix2 e d) := by
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r d) ((ValueIdx.contrEquiv1 dot_S1024x1024_S1024x128_S1024x128_1_0_0_1_n_n 1024 rfl rfl).symm k) = ix2 r k := funext fun a => Fin.ext (by
    match a with
    | ⟨0, _⟩ => exact lhs_row _ _
    | ⟨1, _⟩ => exact (lhs_contr _ _).trans hk)
  have er : dot_S1024x1024_S1024x128_S1024x128_1_0_0_1_n_n.rhsIdx (ix2 r d) ((ValueIdx.contrEquiv1 dot_S1024x1024_S1024x128_S1024x128_1_0_0_1_n_n 1024 rfl rfl).symm k) = ix2 k d := funext fun a => Fin.ext (by
    match a with
    | ⟨0, _⟩ => exact (rhs_contr _ _).trans hk
    | ⟨1, _⟩ => exact rhs_col _ _)
  rw [el, er]

/-- The block of `x` as a matrix: the unit axis dropped (the change of format is the identity on values). -/
theorem k0_pay2_apply (x0 : Vec Ideal S1x1024x1024 .f32) (r e : Fin 1024) :
    k0_pay2 (F := Ideal) x0 (ix2 r e) = x0 (ix3 (0 : Fin 1) r e) := by
  unfold k0_pay2
  exact shapeCast_1ab_ab_apply x0 _ r e

/-- The first payload at row `r`, column `d`: the inner product of row `r` of the block of `x` with column `d` of the weight,
    plus entry `d` of the bias. -/
theorem k0_pay3_apply (x0 : Vec Ideal S1x1024x1024 .f32) (x1 : Vec Ideal S1024x128 .f32) (x2 : Vec Ideal S128 .f32)
    (u : Fin 1) (r : Fin 1024) (d : Fin 128) :
    k0_pay3 (F := Ideal) x0 x1 x2 (ix3 u r d) = (∑ e : Fin 1024, x0 (ix3 (0 : Fin 1) r e) * x1 (ix2 e d)) + x2 (ix1 d) := by
  unfold k0_pay3
  rw [shapeCast_ab_1ab_apply, truncf_apply, addf_apply]
  refine congrArg₂ (· + ·) ?_ ?_
  · refine (matmul_zero_ix2 _ _ r d).trans ?_
    refine Finset.sum_congr rfl fun e _ => ?_
    rw [k0_pay2_apply, truncf_apply]
  · rw [broadcastTo_1b_ab_apply, shapeCast_a_1a_apply]

theorem k0_pay4_apply (x0 : Vec Ideal S1x1024x1024 .f32) (x3 : Vec Ideal S1024x128 .f32) (x4 : Vec Ideal S128 .f32)
    (u : Fin 1) (r : Fin 1024) (d : Fin 128) :
    k0_pay4 (F := Ideal) x0 x3 x4 (ix3 u r d) = (∑ e : Fin 1024, x0 (ix3 (0 : Fin 1) r e) * x3 (ix2 e d)) + x4 (ix1 d) := by
  unfold k0_pay4
  rw [shapeCast_ab_1ab_apply, truncf_apply, addf_apply]
  refine congrArg₂ (· + ·) ?_ ?_
  · refine (matmul_zero_ix2 _ _ r d).trans ?_
    refine Finset.sum_congr rfl fun e _ => ?_
    rw [k0_pay2_apply, truncf_apply]
  · rw [broadcastTo_1b_ab_apply, shapeCast_a_1a_apply]

theorem k0_pay5_apply (x0 : Vec Ideal S1x1024x1024 .f32) (x5 : Vec Ideal S1024x128 .f32) (x6 : Vec Ideal S128 .f32)
    (r : Fin 1024) (d : Fin 128) :
    k0_pay5 (F := Ideal) x0 x5 x6 (ix2 r d) = (∑ e : Fin 1024, x0 (ix3 (0 : Fin 1) r e) * x5 (ix2 e d)) + x6 (ix1 d) := by
  unfold k0_pay5
  rw [truncf_apply, addf_apply]
  refine congrArg₂ (· + ·) ?_ ?_
  · refine (matmul_zero_ix2 _ _ r d).trans ?_
    refine Finset.sum_congr rfl fun e _ => ?_
    rw [k0_pay2_apply, truncf_apply]
  · rw [broadcastTo_1b_ab_apply, shapeCast_a_1a_apply]

theorem k0_pay1_apply (v : FVec Ideal S1024x128 .bf16) (u : Fin 1) (r : Fin 1024) (d : Fin 128) :
    k0_pay1 (F := Ideal) v (ix3 u r d) = v (ix2 r d) := by
  unfold k0_pay1
  exact shapeCast_ab_1ab_apply v _ u r d

/-! ## What the body leaves in each output buffer, at an index

Every load and the one store are of whole buffers, so the buffer is left at the stored payload of the buffers read. -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem out0_7_apply (x0 : Vec Ideal S1x1024x1024 .f32) (x1 : Vec Ideal S1024x128 .f32) (x2 : Vec Ideal S128 .f32)
    (u : Fin 1) (r : Fin 1024) (d : Fin 128) :
    out0_7 (F := Ideal) x0 x1 x2 (ix3 u r d) = (∑ e : Fin 1024, x0 (ix3 (0 : Fin 1) r e) * x1 (ix2 e d)) + x2 (ix1 d) := by
  unfold out0_7
  rw [View.canon_unit_zero hz3, View.ld_unit_zero (S := S1x1024x1024) hz3, View.ld_unit_zero (S := S1024x128) hz2,
    View.ld_unit_zero (S := S128) hz1]
  exact k0_pay3_apply x0 x1 x2 u r d

theorem out0_8_apply (x0 : Vec Ideal S1x1024x1024 .f32) (x3 : Vec Ideal S1024x128 .f32) (x4 : Vec Ideal S128 .f32)
    (u : Fin 1) (r : Fin 1024) (d : Fin 128) :
    out0_8 (F := Ideal) x0 x3 x4 (ix3 u r d) = (∑ e : Fin 1024, x0 (ix3 (0 : Fin 1) r e) * x3 (ix2 e d)) + x4 (ix1 d) := by
  unfold out0_8
  rw [View.canon_unit_zero hz3, View.ld_unit_zero (S := S1x1024x1024) hz3, View.ld_unit_zero (S := S1024x128) hz2,
    View.ld_unit_zero (S := S128) hz1]
  exact k0_pay4_apply x0 x3 x4 u r d

theorem out0_9_apply (x0 : Vec Ideal S1x1024x1024 .f32) (x5 : Vec Ideal S1024x128 .f32) (x6 : Vec Ideal S128 .f32)
    (u : Fin 1) (r : Fin 1024) (d : Fin 128) :
    out0_9 (F := Ideal) x0 x5 x6 (ix3 u r d) = (∑ e : Fin 1024, x0 (ix3 (0 : Fin 1) r e) * x5 (ix2 e d)) + x6 (ix1 d) := by
  unfold out0_9
  rw [View.canon_unit_zero hz3, View.ld_unit_zero (S := S1x1024x1024) hz3, View.ld_unit_zero (S := S1024x128) hz2,
    View.ld_unit_zero (S := S128) hz1]
  exact (k0_pay1_apply _ u r d).trans (k0_pay5_apply x0 x5 x6 r d)

/-! ## From blocks to the arrays -/

section Arrays

variable (V : (c : Dev nD) → (b : Ref sig .tc) → Buf (Elt Ideal) ((c : Thread nD τ).loc b))

/-- The windows' block index maps, decided once over the grid: the block of `x` moves with the outputs' blocks on the batch and
    row axes, the last axis is never cut, and the weight and bias windows stay at their one block. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0 ∧ win0_7.index t (2 : Fin 3) = 0
    ∧ win0_8.index t (0 : Fin 3) = win0_7.index t (0 : Fin 3) ∧ win0_8.index t (1 : Fin 3) = win0_7.index t (1 : Fin 3) ∧ win0_8.index t (2 : Fin 3) = 0
    ∧ win0_9.index t (0 : Fin 3) = win0_7.index t (0 : Fin 3) ∧ win0_9.index t (1 : Fin 3) = win0_7.index t (1 : Fin 3) ∧ win0_9.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- Every (batch, row-block) pair is some point's block index. -/
theorem idx_onto : ∀ (q0 : Fin 4) (q1 : Fin 2), ∃ t : Fin cfg0.N, win0_7.index t (0 : Fin 3) = q0.val ∧ win0_7.index t (1 : Fin 3) = q1.val :=
  (by decide +kernel : ∀ (q0 : Fin 4) (q1 : Fin 2), ∃ t : Fin grid0.N, win0_7.index t (0 : Fin 3) = q0.val ∧ win0_7.index t (1 : Fin 3) = q1.val)

/-- What point `t` writes back to the first output array is block `t` of the projection of the arrays the region finds:
    the block of `x` at `t` is rows `1024·q … 1024·q + 1023` of batch `p`, where `(p, q, 0)` is the output's block index, and the
    weight and the bias blocks are their whole arrays. -/
theorem flushed7_eq (c : Dev nD) (t : Fin cfg0.N) :
    (dat0 (F := Ideal) V c).flushed 7 t = ((cfg0.win 7).blk t).view.read (Elt Ideal) (projOf (V c main_arg0) (V c main_arg1) (V c main_arg2)) := by
  show (cfg0.win 7).cut (grid0.coords t) ((dat0 V c).after 7 t) = _
  rw [after0_7]
  obtain ⟨e00, e01, e02, e72, e80, e81, e82, e90, e91, e92, e10, e11, e20, e30, e31, e40, e50, e51, e60⟩ := idx_facts t
  funext j
  show out0_7 (iblk0 V c 0 t) (iblk0 V c 1 t) (iblk0 V c 2 t) j = projOf (V c main_arg0) (V c main_arg1) (V c main_arg2) (((cfg0.win 7).blk t).view.emb j)
  refine (congrArg (out0_7 (iblk0 V c 0 t) (iblk0 V c 1 t) (iblk0 V c 2 t)) (eq_ix3 j)).trans ((out0_7_apply _ _ _ (j 0) (j 1) (j 2)).trans ?_)
  have hj0 : (j 0).val < 1 := (j 0).isLt
  unfold projOf projAt
  refine congrArg₂ (· + ·) (Finset.sum_congr rfl fun e _ => congrArg₂ (· * ·) ?_ ?_) ?_
  · show V c main_arg0 (((cfg0.win 0).blk t).view.emb (ix3 (0 : Fin 1) (j 1) e)) = V c main_arg0 _
    congr 1
    funext a; apply Fin.ext
    match a with
    | ⟨0, _⟩ => show win0_0.index t (0 : Fin 3) * 1 + 1 * 0 = win0_7.index t (0 : Fin 3) * 1 + 1 * (j 0).val; omega
    | ⟨1, _⟩ => show win0_0.index t (1 : Fin 3) * 1024 + 1 * (j 1).val = win0_7.index t (1 : Fin 3) * 1024 + 1 * (j 1).val; omega
    | ⟨2, _⟩ => show win0_0.index t (2 : Fin 3) * 1024 + 1 * e.val = e.val; omega
  · show V c main_arg1 (((cfg0.win 1).blk t).view.emb (ix2 e (j 2))) = V c main_arg1 _
    congr 1
    funext a; apply Fin.ext
    match a with
    | ⟨0, _⟩ => show win0_1.index t (0 : Fin 2) * 1024 + 1 * e.val = e.val; omega
    | ⟨1, _⟩ => show win0_1.index t (1 : Fin 2) * 128 + 1 * (j 2).val = win0_7.index t (2 : Fin 3) * 128 + 1 * (j 2).val; omega
  · show V c main_arg2 (((cfg0.win 2).blk t).view.emb (ix1 (j 2))) = V c main_arg2 _
    congr 1
    funext a; apply Fin.ext
    match a with
    | ⟨0, _⟩ => show win0_2.index t (0 : Fin 1) * 128 + 1 * (j 2).val = win0_7.index t (2 : Fin 3) * 128 + 1 * (j 2).val; omega

/-- An index of the array is in point `t`'s block iff each coordinate is in the block's range on its axis. -/
theorem mem_blk7 (t : Fin cfg0.N) (i : S4x2048x128.Idx) :
    i ∈ ((cfg0.win 7).blk t).view.set ↔ ∀ a : Fin 3, win0_7.index t a * S1x1024x128.size a ≤ (i a).val ∧ (i a).val < win0_7.index t a * S1x1024x128.size a + S1x1024x128.size a := by
  show i ∈ ((View.whole main_v0_0).slice (win0_7.rect t)).set ↔ _
  rw [View.set_slice_whole, Rect.mem_set_unit]
  exact Iff.rfl

/-- The eight blocks tile the array: index `(b, s, d)` is in the block of the point whose block index is `(b, s / 1024, 0)`. -/
theorem cover7 (i : S4x2048x128.Idx) : ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 128 := (i 2).isLt
  obtain ⟨t, q0, q1⟩ := idx_onto ⟨(i 0).val, hi0⟩ ⟨(i 1).val / 1024, by omega⟩
  have q0' : win0_7.index t (0 : Fin 3) = (i 0).val := q0
  have q1' : win0_7.index t (1 : Fin 3) = (i 1).val / 1024 := q1
  obtain ⟨e00, e01, e02, e72, e80, e81, e82, e90, e91, e92, e10, e11, e20, e30, e31, e40, e50, e51, e60⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 128 ≤ (i 2).val ∧ (i 2).val < win0_7.index t (2 : Fin 3) * 128 + 128; omega

/-- The first output array after the region: the projection of the arrays the region finds. -/
theorem arr7 (c : Dev nD) :
    (dat0 (F := Ideal) V c).arrAt 7 cfg0.N = projOf (V c main_arg0) (V c main_arg1) (V c main_arg2) :=
  (dat0 V c).arrAt_eq_of_cover 7 _ (fun t _ => flushed7_eq V c t) cover7

/-- What point `t` writes back to the second output array is block `t` of the projection of the arrays the region finds:
    the block of `x` at `t` is rows `1024·q … 1024·q + 1023` of batch `p`, where `(p, q, 0)` is the output's block index, and the
    weight and the bias blocks are their whole arrays. -/
theorem flushed8_eq (c : Dev nD) (t : Fin cfg0.N) :
    (dat0 (F := Ideal) V c).flushed 8 t = ((cfg0.win 8).blk t).view.read (Elt Ideal) (projOf (V c main_arg0) (V c main_arg3) (V c main_arg4)) := by
  show (cfg0.win 8).cut (grid0.coords t) ((dat0 V c).after 8 t) = _
  rw [after0_8]
  obtain ⟨e00, e01, e02, e72, e80, e81, e82, e90, e91, e92, e10, e11, e20, e30, e31, e40, e50, e51, e60⟩ := idx_facts t
  funext j
  show out0_8 (iblk0 V c 0 t) (iblk0 V c 3 t) (iblk0 V c 4 t) j = projOf (V c main_arg0) (V c main_arg3) (V c main_arg4) (((cfg0.win 8).blk t).view.emb j)
  refine (congrArg (out0_8 (iblk0 V c 0 t) (iblk0 V c 3 t) (iblk0 V c 4 t)) (eq_ix3 j)).trans ((out0_8_apply _ _ _ (j 0) (j 1) (j 2)).trans ?_)
  have hj0 : (j 0).val < 1 := (j 0).isLt
  unfold projOf projAt
  refine congrArg₂ (· + ·) (Finset.sum_congr rfl fun e _ => congrArg₂ (· * ·) ?_ ?_) ?_
  · show V c main_arg0 (((cfg0.win 0).blk t).view.emb (ix3 (0 : Fin 1) (j 1) e)) = V c main_arg0 _
    congr 1
    funext a; apply Fin.ext
    match a with
    | ⟨0, _⟩ => show win0_0.index t (0 : Fin 3) * 1 + 1 * 0 = win0_8.index t (0 : Fin 3) * 1 + 1 * (j 0).val; omega
    | ⟨1, _⟩ => show win0_0.index t (1 : Fin 3) * 1024 + 1 * (j 1).val = win0_8.index t (1 : Fin 3) * 1024 + 1 * (j 1).val; omega
    | ⟨2, _⟩ => show win0_0.index t (2 : Fin 3) * 1024 + 1 * e.val = e.val; omega
  · show V c main_arg3 (((cfg0.win 3).blk t).view.emb (ix2 e (j 2))) = V c main_arg3 _
    congr 1
    funext a; apply Fin.ext
    match a with
    | ⟨0, _⟩ => show win0_3.index t (0 : Fin 2) * 1024 + 1 * e.val = e.val; omega
    | ⟨1, _⟩ => show win0_3.index t (1 : Fin 2) * 128 + 1 * (j 2).val = win0_8.index t (2 : Fin 3) * 128 + 1 * (j 2).val; omega
  · show V c main_arg4 (((cfg0.win 4).blk t).view.emb (ix1 (j 2))) = V c main_arg4 _
    congr 1
    funext a; apply Fin.ext
    match a with
    | ⟨0, _⟩ => show win0_4.index t (0 : Fin 1) * 128 + 1 * (j 2).val = win0_8.index t (2 : Fin 3) * 128 + 1 * (j 2).val; omega

/-- An index of the array is in point `t`'s block iff each coordinate is in the block's range on its axis. -/
theorem mem_blk8 (t : Fin cfg0.N) (i : S4x2048x128.Idx) :
    i ∈ ((cfg0.win 8).blk t).view.set ↔ ∀ a : Fin 3, win0_8.index t a * S1x1024x128.size a ≤ (i a).val ∧ (i a).val < win0_8.index t a * S1x1024x128.size a + S1x1024x128.size a := by
  show i ∈ ((View.whole main_v0_1).slice (win0_8.rect t)).set ↔ _
  rw [View.set_slice_whole, Rect.mem_set_unit]
  exact Iff.rfl

/-- The eight blocks tile the array: index `(b, s, d)` is in the block of the point whose block index is `(b, s / 1024, 0)`. -/
theorem cover8 (i : S4x2048x128.Idx) : ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 128 := (i 2).isLt
  obtain ⟨t, q0, q1⟩ := idx_onto ⟨(i 0).val, hi0⟩ ⟨(i 1).val / 1024, by omega⟩
  have q0' : win0_7.index t (0 : Fin 3) = (i 0).val := q0
  have q1' : win0_7.index t (1 : Fin 3) = (i 1).val / 1024 := q1
  obtain ⟨e00, e01, e02, e72, e80, e81, e82, e90, e91, e92, e10, e11, e20, e30, e31, e40, e50, e51, e60⟩ := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 128 ≤ (i 2).val ∧ (i 2).val < win0_8.index t (2 : Fin 3) * 128 + 128; omega

/-- The second output array after the region: the projection of the arrays the region finds. -/
theorem arr8 (c : Dev nD) :
    (dat0 (F := Ideal) V c).arrAt 8 cfg0.N = projOf (V c main_arg0) (V c main_arg3) (V c main_arg4) :=
  (dat0 V c).arrAt_eq_of_cover 8 _ (fun t _ => flushed8_eq V c t) cover8

/-- What point `t` writes back to the third output array is block `t` of the projection of the arrays the region finds:
    the block of `x` at `t` is rows `1024·q … 1024·q + 1023` of batch `p`, where `(p, q, 0)` is the output's block index, and the
    weight and the bias blocks are their whole arrays. -/
theorem flushed9_eq (c : Dev nD) (t : Fin cfg0.N) :
    (dat0 (F := Ideal) V c).flushed 9 t = ((cfg0.win 9).blk t).view.read (Elt Ideal) (projOf (V c main_arg0) (V c main_arg5) (V c main_arg6)) := by
  show (cfg0.win 9).cut (grid0.coords t) ((dat0 V c).after 9 t) = _
  rw [after0_9]
  obtain ⟨e00, e01, e02, e72, e80, e81, e82, e90, e91, e92, e10, e11, e20, e30, e31, e40, e50, e51, e60⟩ := idx_facts t
  funext j
  show out0_9 (iblk0 V c 0 t) (iblk0 V c 5 t) (iblk0 V c 6 t) j = projOf (V c main_arg0) (V c main_arg5) (V c main_arg6) (((cfg0.win 9).blk t).view.emb j)
  refine (congrArg (out0_9 (iblk0 V c 0 t) (iblk0 V c 5 t) (iblk0 V c 6 t)) (eq_ix3 j)).trans ((out0_9_apply _ _ _ (j 0) (j 1) (j 2)).trans ?_)
  have hj0 : (j 0).val < 1 := (j 0).isLt
  unfold projOf projAt
  refine congrArg₂ (· + ·) (Finset.sum_congr rfl fun e _ => congrArg₂ (· * ·) ?_ ?_) ?_
  · show V c main_arg0 (((cfg0.win 0).blk t).view.emb (ix3 (0 : Fin 1) (j 1) e)) = V c main_arg0 _
    congr 1
    funext a; apply Fin.ext
    match a with
    | ⟨0, _⟩ => show win0_0.index t (0 : Fin 3) * 1 + 1 * 0 = win0_9.index t (0 : Fin 3) * 1 + 1 * (j 0).val; omega
    | ⟨1, _⟩ => show win0_0.index t (1 : Fin 3) * 1024 + 1 * (j 1).val = win0_9.index t (1 : Fin 3) * 1024 + 1 * (j 1).val; omega
    | ⟨2, _⟩ => show win0_0.index t (2 : Fin 3) * 1024 + 1 * e.val = e.val; omega
  · show V c main_arg5 (((cfg0.win 5).blk t).view.emb (ix2 e (j 2))) = V c main_arg5 _
    congr 1
    funext a; apply Fin.ext
    match a with
    | ⟨0, _⟩ => show win0_5.index t (0 : Fin 2) * 1024 + 1 * e.val = e.val; omega
    | ⟨1, _⟩ => show win0_5.index t (1 : Fin 2) * 128 + 1 * (j 2).val = win0_9.index t (2 : Fin 3) * 128 + 1 * (j 2).val; omega
  · show V c main_arg6 (((cfg0.win 6).blk t).view.emb (ix1 (j 2))) = V c main_arg6 _
    congr 1
    funext a; apply Fin.ext
    match a with
    | ⟨0, _⟩ => show win0_6.index t (0 : Fin 1) * 128 + 1 * (j 2).val = win0_9.index t (2 : Fin 3) * 128 + 1 * (j 2).val; omega

/-- An index of the array is in point `t`'s block iff each coordinate is in the block's range on its axis. -/
theorem mem_blk9 (t : Fin cfg0.N) (i : S4x2048x128.Idx) :
    i ∈ ((cfg0.win 9).blk t).view.set ↔ ∀ a : Fin 3, win0_9.index t a * S1x1024x128.size a ≤ (i a).val ∧ (i a).val < win0_9.index t a * S1x1024x128.size a + S1x1024x128.size a := by
  show i ∈ ((View.whole main_v0_2).slice (win0_9.rect t)).set ↔ _
  rw [View.set_slice_whole, Rect.mem_set_unit]
  exact Iff.rfl

/-- The eight blocks tile the array: index `(b, s, d)` is in the block of the point whose block index is `(b, s / 1024, 0)`. -/
theorem cover9 (i : S4x2048x128.Idx) : ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 128 := (i 2).isLt
  obtain ⟨t, q0, q1⟩ := idx_onto ⟨(i 0).val, hi0⟩ ⟨(i 1).val / 1024, by omega⟩
  have q0' : win0_7.index t (0 : Fin 3) = (i 0).val := q0
  have q1' : win0_7.index t (1 : Fin 3) = (i 1).val / 1024 := q1
  obtain ⟨e00, e01, e02, e72, e80, e81, e82, e90, e91, e92, e10, e11, e20, e30, e31, e40, e50, e51, e60⟩ := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 128 ≤ (i 2).val ∧ (i 2).val < win0_9.index t (2 : Fin 3) * 128 + 128; omega

/-- The third output array after the region: the projection of the arrays the region finds. -/
theorem arr9 (c : Dev nD) :
    (dat0 (F := Ideal) V c).arrAt 9 cfg0.N = projOf (V c main_arg0) (V c main_arg5) (V c main_arg6) :=
  (dat0 V c).arrAt_eq_of_cover 9 _ (fun t _ => flushed9_eq V c t) cover9

end Arrays

end Cert.KernelIdeal.ProjValue

end
-- ==== Proof.SpecAttn.lean ====
/-
  Softmax attention over the extended reals as ONE function of the three projected arrays q, k, v of shape
  [4, 2048, 128], index by index. For a batch b and a query row s:
    the score against key row t is the inner product of q[b, s, ·] and k[b, t, ·], divided twice by √128;
    the row maximum is the maximum of the scores over t, started from −∞ (and once more compared with −∞);
    the weight of t is exp(score − maximum), the normaliser is zero plus the sum of the weights over t;
    entry (b, s, d) of the result is the sum over t of (weight / normaliser) · v[b, t, d].
  The literals stay the words they are printed as: 128 is 0x43000000, −∞ is 0xFF800000, zero is 0x00000000.
-/
import Idealize.ShloMosaic.PureOps.Ideal
import Idealize.ShloMosaic.Lib.ValueIdx

noncomputable section

open scoped BigOperators

namespace Cert.Spec

open Idealize.ShloMosaic Idealize.ShloMosaic.ValueIdx

/-- √128, the square root of the word 0x43000000. -/
def sqrt128 : EReal := Ideal.sqrt (Ideal.ofBits .f32 0x43000000#32)

/-- The word 0xFF800000 (−∞). -/
def negInf : EReal := Ideal.ofBits .f32 0xFF800000#32

section
variable (q k v : (⟨3, ![4, 2048, 128]⟩ : Shape).Idx → EReal)

/-- The score of query row `s` against key row `t` in batch `b`: `((∑ j, q[b,s,j] · k[b,t,j]) / √128) / √128`. -/
def score (b : Fin 4) (s t : Fin 2048) : EReal :=
  Ideal.div (Ideal.div (∑ j : Fin 128, q (ix3 b s j) * k (ix3 b t j)) sqrt128) sqrt128

/-- The maximum of row `s`'s scores, folded from −∞, and compared with −∞ once more. -/
def rowMax (b : Fin 4) (s : Fin 2048) : EReal :=
  max negInf ((Finset.univ : Finset (Fin 2048)).fold max negInf (fun t => score q k b s t))

/-- The weight of key row `t`: `exp (score − row maximum)`. -/
def weight (b : Fin 4) (s t : Fin 2048) : EReal :=
  Ideal.exp (score q k b s t - rowMax q k b s)

/-- The normaliser of row `s`: the zero word plus the sum of the weights. -/
def denom (b : Fin 4) (s : Fin 2048) : EReal :=
  Ideal.ofBits .f32 0x00000000#32 + ∑ t : Fin 2048, weight q k b s t

/-- Entry (b, s, d) of the attention output. -/
def attnAt (b : Fin 4) (s : Fin 2048) (d : Fin 128) : EReal :=
  ∑ t : Fin 2048, Ideal.div (weight q k b s t) (denom q k b s) * v (ix3 b t d)

/-- Softmax attention as an array of shape [4, 2048, 128]. -/
def attnRef : (⟨3, ![4, 2048, 128]⟩ : Shape).Idx → EReal :=
  fun i => attnAt q k v (i 0) (i 1) (i 2)

theorem attnRef_ix3 (b : Fin 4) (s : Fin 2048) (d : Fin 128) :
    attnRef q k v (ix3 b s d) = ∑ t : Fin 2048, Ideal.div (weight q k b s t) (denom q k b s) * v (ix3 b t d) := rfl

end

end Cert.Spec

end
-- ==== Proof.SpecFlash.lean ====
/-
  The online form of softmax attention over two key blocks of 1024 rows, index by index, over the extended reals. For a
  batch `b`, a query row `r` of query block `qi` and a feature `d`, the keys are visited block by block. Each block
  contributes its scores (inner products times the scale word 0x3C000000), the running maximum is raised to the block's
  row maximum, the running normaliser and the running weighted sum of values are rescaled by the exponential of the old
  maximum minus the new one and receive the block's weights `exp (score − new maximum)`. The result is the weighted sum
  over the normaliser after the second block. The recurrence starts from −∞ (as `⊥`), zero and zero.
-/
import Idealize.ShloMosaic.PureOps.Ideal
import Idealize.ShloMosaic.Lib.ValueIdx
import proofs.«112745_j14748917694967_2_alg».proof.Proof.SpecAttn

noncomputable section

open scoped BigOperators

namespace Cert.Spec

open Idealize.ShloMosaic Idealize.ShloMosaic.ValueIdx

/-- Row `u` of block `j` among the 2048 rows: `1024 · j + u`. -/
def row (j : Fin 2) (u : Fin 1024) : Fin 2048 := ⟨1024 * j.val + u.val, by omega⟩

namespace Flash

section
variable (q k v : (⟨3, ![4, 2048, 128]⟩ : Shape).Idx → EReal) (b : Fin 4) (qi : Fin 2) (r : Fin 1024)

/-- The score of the query row against key row `u` of key block `j`: the inner product times the scale word. -/
def sc (j : Fin 2) (u : Fin 1024) : EReal :=
  (∑ e : Fin 128, q (ix3 b (row qi r) e) * k (ix3 b (row j u) e)) * Ideal.ofBits .f32 0x3C000000#32

/-- The maximum of the query row's scores against key block `j`. -/
def bmax (j : Fin 2) : EReal := (Finset.univ : Finset (Fin 1024)).sup fun u => sc q k b qi r j u

/-- The running maximum after the first block. -/
def m1 : EReal := max ⊥ (bmax q k b qi r 0)

/-- The rescaling factor at the first block: the exponential of −∞ minus the new maximum. -/
def a1 : EReal := Ideal.exp (⊥ - m1 q k b qi r)

/-- The first block's weights. -/
def p1 (u : Fin 1024) : EReal := Ideal.exp (sc q k b qi r 0 u - m1 q k b qi r)

/-- The running normaliser after the first block. -/
def l1 : EReal := a1 q k b qi r * 0 + ∑ u : Fin 1024, p1 q k b qi r u

/-- The running weighted sum of values after the first block, at feature `d`. -/
def acc1 (d : Fin 128) : EReal := a1 q k b qi r * 0 + ∑ u : Fin 1024, p1 q k b qi r u * v (ix3 b (row 0 u) d)

/-- The running maximum after the second block. -/
def m2 : EReal := max (m1 q k b qi r) (bmax q k b qi r 1)

/-- The rescaling factor at the second block: the exponential of the old maximum minus the new one. -/
def a2 : EReal := Ideal.exp (m1 q k b qi r - m2 q k b qi r)

/-- The second block's weights. -/
def p2 (u : Fin 1024) : EReal := Ideal.exp (sc q k b qi r 1 u - m2 q k b qi r)

/-- The running normaliser after the second block. -/
def l2 : EReal := a2 q k b qi r * l1 q k b qi r + ∑ u : Fin 1024, p2 q k b qi r u

/-- The running weighted sum of values after the second block, at feature `d`. -/
def acc2 (d : Fin 128) : EReal :=
  a2 q k b qi r * acc1 q k v b qi r d + ∑ u : Fin 1024, p2 q k b qi r u * v (ix3 b (row 1 u) d)

end

end Flash

/-- Entry (b, 1024 · qi + r, d) of the online form: the weighted sum over the normaliser after both key blocks. -/
def flashAt (q k v : (⟨3, ![4, 2048, 128]⟩ : Shape).Idx → EReal) (b : Fin 4) (qi : Fin 2) (r : Fin 1024) (d : Fin 128) : EReal :=
  Ideal.div (Flash.acc2 q k v b qi r d) (Flash.l2 q k b qi r)

end Cert.Spec

end
-- ==== Proof.AttnBlocks.lean ====
/-
  The attention region's block geometry. The region runs over 16 grid points t = 4·b + 2·qi + ki: batch b, query block qi
  and key/value block ki. Every window's block has shape [1, 1024, 128] inside an array [4, 2048, 128]: at point t the query
  window and the output window are at rows 1024·qi … 1024·qi + 1023 of batch b, the key and value windows at rows
  1024·ki … 1024·ki + 1023 of batch b. The printed index maps are decided once over the grid; a block's coordinate is
  block index × block size + the coordinate inside the block. The output's block is written back at the odd points, and
  the eight blocks written back tile the output array: index (b, s, d) lies in the block of point 4·b + 2·(s / 1024) + 1.
-/
import proofs.«112745_j14748917694967_2_alg».proof.Proof.Gen.KernelIdeal.Launch
import proofs.«112745_j14748917694967_2_alg».proof.Proof.Gen.KernelIdeal.Points
import proofs.«112745_j14748917694967_2_alg».proof.Proof.SpecFlash
import Idealize.ShloMosaic.Lib.Pipeline.Value
import Idealize.ShloMosaic.Lib.ValueIdx

set_option maxRecDepth 16384

noncomputable section

namespace Cert.KernelIdeal.AttnBlocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable {F : FTy → Type}

/-! ## A point's batch, query block and key/value block -/

theorem lt16 (t : Fin cfg1.N) : t.val < 16 := by
  have h : t.val < grid1.N := t.isLt
  rw [N_1] at h
  exact h

/-- The batch of point `t`: `t / 4`. -/
def ptB (t : Fin cfg1.N) : Fin 4 := ⟨t.val / 4, by have := lt16 t; omega⟩
/-- The query block of point `t`: `(t / 2) % 2`. -/
def ptQ (t : Fin cfg1.N) : Fin 2 := ⟨(t.val / 2) % 2, by omega⟩
/-- The key/value block of point `t`: `t % 2`. -/
def ptK (t : Fin cfg1.N) : Fin 2 := ⟨t.val % 2, by omega⟩

theorem ptB_val (t : Fin cfg1.N) : (ptB t).val = t.val / 4 := rfl
theorem ptQ_val (t : Fin cfg1.N) : (ptQ t).val = (t.val / 2) % 2 := rfl
theorem ptK_val (t : Fin cfg1.N) : (ptK t).val = t.val % 2 := rfl

/-- The point of batch `b`, query block `qi` and key/value block `ki`: `4·b + 2·qi + ki`. -/
def pt (b : Fin 4) (qi ki : Fin 2) : Fin cfg1.N :=
  ⟨4 * b.val + 2 * qi.val + ki.val, by show _ < grid1.N; rw [N_1]; omega⟩

theorem pt_val (b : Fin 4) (qi ki : Fin 2) : (pt b qi ki).val = 4 * b.val + 2 * qi.val + ki.val := rfl
theorem ptB_pt (b : Fin 4) (qi ki : Fin 2) : ptB (pt b qi ki) = b := Fin.ext (by rw [ptB_val, pt_val]; omega)
theorem ptQ_pt (b : Fin 4) (qi ki : Fin 2) : ptQ (pt b qi ki) = qi := Fin.ext (by rw [ptQ_val, pt_val]; omega)
theorem ptK_pt (b : Fin 4) (qi ki : Fin 2) : ptK (pt b qi ki) = ki := Fin.ext (by rw [ptK_val, pt_val]; omega)
theorem pt_eta (t : Fin cfg1.N) : pt (ptB t) (ptQ t) (ptK t) = t :=
  Fin.ext (by rw [pt_val, ptB_val, ptQ_val, ptK_val]; omega)

/-- Two consecutive points `t − 1`, `t` with `t` odd share the batch and the query block; the first is at key/value block 0,
    the second at 1. -/
theorem pair_of_odd (t t' : Fin cfg1.N) (ht : t.val % 2 = 1) (h' : t'.val + 1 = t.val) :
    ptB t' = ptB t ∧ ptQ t' = ptQ t ∧ ptK t' = 0 ∧ ptK t = 1 :=
  ⟨Fin.ext (by rw [ptB_val, ptB_val]; omega), Fin.ext (by rw [ptQ_val, ptQ_val]; omega),
    Fin.ext (by rw [ptK_val]; show _ = 0; omega), Fin.ext (by rw [ptK_val]; show _ = 1; omega)⟩

/-! ## The printed index maps, decided once over the grid -/

theorem idx_facts : ∀ t : Fin cfg1.N,
    win1_0.index t (0 : Fin 3) = t.val / 4 ∧ win1_0.index t (1 : Fin 3) = (t.val / 2) % 2 ∧ win1_0.index t (2 : Fin 3) = 0
    ∧ win1_1.index t (0 : Fin 3) = t.val / 4 ∧ win1_1.index t (1 : Fin 3) = t.val % 2 ∧ win1_1.index t (2 : Fin 3) = 0
    ∧ win1_2.index t (0 : Fin 3) = t.val / 4 ∧ win1_2.index t (1 : Fin 3) = t.val % 2 ∧ win1_2.index t (2 : Fin 3) = 0
    ∧ win1_3.index t (0 : Fin 3) = t.val / 4 ∧ win1_3.index t (1 : Fin 3) = (t.val / 2) % 2 ∧ win1_3.index t (2 : Fin 3) = 0 :=
  (by decide +kernel : ∀ t : Fin grid1.N, _)

/-! ## Where a block's index lands in its array -/

/-- The query window's block at `t`: row `r` of the block is row `1024·qi + r` of batch `b`. -/
theorem emb0 (t : Fin cfg1.N) (u : Fin 1) (r : Fin 1024) (e : Fin 128) :
    (((cfg1.win 0).blk t).view.emb (ix3 u r e) : S4x2048x128.Idx) = ix3 (ptB t) (row (ptQ t) r) e := by
  obtain ⟨e00, e01, e02, -⟩ := idx_facts t
  have hu : u.val < 1 := u.isLt
  funext a; apply Fin.ext
  match a with
  | ⟨0, _⟩ => show win1_0.index t (0 : Fin 3) * 1 + 1 * u.val = t.val / 4; omega
  | ⟨1, _⟩ => show win1_0.index t (1 : Fin 3) * 1024 + 1 * r.val = 1024 * ((t.val / 2) % 2) + r.val; omega
  | ⟨2, _⟩ => show win1_0.index t (2 : Fin 3) * 128 + 1 * e.val = e.val; omega

/-- The key window's block at `t`: row `r` of the block is row `1024·ki + r` of batch `b`. -/
theorem emb1 (t : Fin cfg1.N) (u : Fin 1) (r : Fin 1024) (e : Fin 128) :
    (((cfg1.win 1).blk t).view.emb (ix3 u r e) : S4x2048x128.Idx) = ix3 (ptB t) (row (ptK t) r) e := by
  obtain ⟨-, -, -, e10, e11, e12, -⟩ := idx_facts t
  have hu : u.val < 1 := u.isLt
  funext a; apply Fin.ext
  match a with
  | ⟨0, _⟩ => show win1_1.index t (0 : Fin 3) * 1 + 1 * u.val = t.val / 4; omega
  | ⟨1, _⟩ => show win1_1.index t (1 : Fin 3) * 1024 + 1 * r.val = 1024 * (t.val % 2) + r.val; omega
  | ⟨2, _⟩ => show win1_1.index t (2 : Fin 3) * 128 + 1 * e.val = e.val; omega

/-- The value window's block at `t`: row `r` of the block is row `1024·ki + r` of batch `b`. -/
theorem emb2 (t : Fin cfg1.N) (u : Fin 1) (r : Fin 1024) (e : Fin 128) :
    (((cfg1.win 2).blk t).view.emb (ix3 u r e) : S4x2048x128.Idx) = ix3 (ptB t) (row (ptK t) r) e := by
  obtain ⟨-, -, -, -, -, -, e20, e21, e22, -⟩ := idx_facts t
  have hu : u.val < 1 := u.isLt
  funext a; apply Fin.ext
  match a with
  | ⟨0, _⟩ => show win1_2.index t (0 : Fin 3) * 1 + 1 * u.val = t.val / 4; omega
  | ⟨1, _⟩ => show win1_2.index t (1 : Fin 3) * 1024 + 1 * r.val = 1024 * (t.val % 2) + r.val; omega
  | ⟨2, _⟩ => show win1_2.index t (2 : Fin 3) * 128 + 1 * e.val = e.val; omega

/-- The output window's block at `t`: row `r` of the block is row `1024·qi + r` of batch `b`. -/
theorem emb3 (t : Fin cfg1.N) (u : Fin 1) (r : Fin 1024) (e : Fin 128) :
    (((cfg1.win 3).blk t).view.emb (ix3 u r e) : S4x2048x128.Idx) = ix3 (ptB t) (row (ptQ t) r) e := by
  obtain ⟨-, -, -, -, -, -, -, -, -, e30, e31, e32⟩ := idx_facts t
  have hu : u.val < 1 := u.isLt
  funext a; apply Fin.ext
  match a with
  | ⟨0, _⟩ => show win1_3.index t (0 : Fin 3) * 1 + 1 * u.val = t.val / 4; omega
  | ⟨1, _⟩ => show win1_3.index t (1 : Fin 3) * 1024 + 1 * r.val = 1024 * ((t.val / 2) % 2) + r.val; omega
  | ⟨2, _⟩ => show win1_3.index t (2 : Fin 3) * 128 + 1 * e.val = e.val; omega

/-! ## Block reads of an arbitrary array -/

/-- The query window's block of an array `A`, at (0, r, e). -/
theorem read0 (A : Vec F S4x2048x128 .bf16) (t : Fin cfg1.N) (u : Fin 1) (r : Fin 1024) (e : Fin 128) :
    ((cfg1.win 0).blk t).view.read (Elt F) A (ix3 u r e) = A (ix3 (ptB t) (row (ptQ t) r) e) := by
  show A (((cfg1.win 0).blk t).view.emb (ix3 u r e)) = A _
  exact congrArg A (emb0 t u r e)

/-- The key window's block of an array `A`, at (0, r, e). -/
theorem read1 (A : Vec F S4x2048x128 .bf16) (t : Fin cfg1.N) (u : Fin 1) (r : Fin 1024) (e : Fin 128) :
    ((cfg1.win 1).blk t).view.read (Elt F) A (ix3 u r e) = A (ix3 (ptB t) (row (ptK t) r) e) := by
  show A (((cfg1.win 1).blk t).view.emb (ix3 u r e)) = A _
  exact congrArg A (emb1 t u r e)

/-- The value window's block of an array `A`, at (0, r, e). -/
theorem read2 (A : Vec F S4x2048x128 .bf16) (t : Fin cfg1.N) (u : Fin 1) (r : Fin 1024) (e : Fin 128) :
    ((cfg1.win 2).blk t).view.read (Elt F) A (ix3 u r e) = A (ix3 (ptB t) (row (ptK t) r) e) := by
  show A (((cfg1.win 2).blk t).view.emb (ix3 u r e)) = A _
  exact congrArg A (emb2 t u r e)

/-- The output window's block of an array `G`, at (0, r, d). -/
theorem read3 (G : Vec F S4x2048x128 .f32) (t : Fin cfg1.N) (u : Fin 1) (r : Fin 1024) (d : Fin 128) :
    ((cfg1.win 3).blk t).view.read (Elt F) G (ix3 u r d) = G (ix3 (ptB t) (row (ptQ t) r) d) := by
  show G (((cfg1.win 3).blk t).view.emb (ix3 u r d)) = G _
  exact congrArg G (emb3 t u r d)

/-! ## The output window: which indices a point's block holds, and the cover -/

/-- An index of the output array is in point `t`'s block iff each coordinate is in the block's range on its axis. -/
theorem mem_blk3 (t : Fin cfg1.N) (i : S4x2048x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v1).slice (win1_3.rect t)).set ↔ _
  rw [View.set_slice_whole, Rect.mem_set_unit]
  exact Iff.rfl

/-- In coordinates: (b', s, d) is in point `t`'s block iff b' is the point's batch and s is in the point's query block. -/
theorem mem_blk3_iff (t : Fin cfg1.N) (i : S4x2048x128.Idx) :
    i ∈ ((cfg1.win 3).blk t).view.set ↔ (i 0).val = t.val / 4 ∧ (i 1).val / 1024 = (t.val / 2) % 2 := by
  obtain ⟨-, -, -, -, -, -, -, -, -, e30, e31, e32⟩ := idx_facts t
  have hi2 : (i 2).val < 128 := (i 2).isLt
  rw [mem_blk3]
  constructor
  · intro h
    have b0 : win1_3.index t (0 : Fin 3) * 1 ≤ (i 0).val ∧ (i 0).val < win1_3.index t (0 : Fin 3) * 1 + 1 := h 0
    have b1 : win1_3.index t (1 : Fin 3) * 1024 ≤ (i 1).val ∧ (i 1).val < win1_3.index t (1 : Fin 3) * 1024 + 1024 := h 1
    omega
  · rintro ⟨h0, h1⟩ a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 1024 ≤ (i 1).val ∧ (i 1).val < win1_3.index t (1 : Fin 3) * 1024 + 1024; omega
    | ⟨2, _⟩ => show win1_3.index t (2 : Fin 3) * 128 ≤ (i 2).val ∧ (i 2).val < win1_3.index t (2 : Fin 3) * 128 + 128; omega

/-- The point whose write-back holds index `i` = (b, s, d): `4·b + 2·(s / 1024) + 1`. -/
def coverPt (i : S4x2048x128.Idx) : Fin cfg1.N :=
  pt ⟨(i 0).val, (i 0).isLt⟩ ⟨(i 1).val / 1024, by have h : (i 1).val < 2048 := (i 1).isLt; omega⟩ 1

theorem coverPt_val (i : S4x2048x128.Idx) : (coverPt i).val = 4 * (i 0).val + 2 * ((i 1).val / 1024) + 1 := rfl

/-- The eight blocks written back tile the output array. -/
theorem cover3 (i : S4x2048x128.Idx) : ∃ t : Fin cfg1.N, (cfg1.win 3).flush t = true ∧ i ∈ ((cfg1.win 3).blk t).view.set := by
  have hi0 : (i 0).val < 4 := (i 0).isLt
  have hi1 : (i 1).val < 2048 := (i 1).isLt
  refine ⟨coverPt i, (flush1_3 _).2 (by rw [coverPt_val]; omega), (mem_blk3_iff _ i).2 ⟨?_, ?_⟩⟩
  · rw [coverPt_val]; omega
  · rw [coverPt_val]; omega

/-- Every index of the output array is (b, 1024·qi + r, d) for the batch, query block and row of its covering point. -/
theorem idx_eq_of_coverPt (i : S4x2048x128.Idx) :
    i = ix3 (ptB (coverPt i)) (row (ptQ (coverPt i)) ⟨(i 1).val % 1024, Nat.mod_lt _ (by decide)⟩) (i 2) := by
  have hi0 : (i 0).val < 4 := (i 0).isLt
  have hi1 : (i 1).val < 2048 := (i 1).isLt
  funext a; apply Fin.ext
  match a with
  | ⟨0, _⟩ => show (i 0).val = (coverPt i).val / 4; rw [coverPt_val]; omega
  | ⟨1, _⟩ => show (i 1).val = 1024 * (((coverPt i).val / 2) % 2) + (i 1).val % 1024; rw [coverPt_val]; omega
  | ⟨2, _⟩ => rfl

end Cert.KernelIdeal.AttnBlocks

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.AttnPay.lean ====
/-
  The attention kernel's payloads read at an index, at the ideal values (extended reals): each named payload of the
  flash-attention body, applied at explicit coordinates (row `r`, key `t`, feature `d`), is the plain arithmetic it
  denotes — a score is a scaled inner product, the running maximum a `max` with the row maximum of the scores, the
  rescaling factor and the weights are exponentials, the running denominator and numerator are the rescaled old
  values plus a row sum, the output is a quotient.
-/
import proofs.«112745_j14748917694967_2_alg».proof.Proof.Gen.KernelIdeal.Skeleton
import proofs.«112745_j14748917694967_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnPay

open Idealize.ShloMosaic Idealize.ShloMosaic.ValueIdx
open Cert.KernelIdeal Cert.KernelIdeal.Gen
open scoped BigOperators

/-! ## The constants -/

/-- The f32 word `0xFF800000` is the extended real `⊥` (minus infinity). -/
theorem ofBits_neg_inf_f32 : Ideal.ofBits .f32 0xFF800000#32 = ⊥ := by
  simp [Ideal.ofBits, Ideal.ieee]

/-- The f32 word `0x3C000000` (the scale of the scores) is the real 2⁻⁷, one over 128. -/
theorem ofBits_scale_f32 : Ideal.ofBits .f32 0x3C000000#32 = (((1 : ℝ) / 128 : ℝ) : EReal) := by
  simp [Ideal.ofBits, Ideal.ieee, -EReal.coe_mul]; norm_num

/-- The running maximum starts at minus infinity everywhere. -/
theorem pay4_apply (i : S1024x1.Idx) : k1_pay4 (F := Ideal) i = ⊥ := by
  unfold k1_pay4
  rw [shapeCast_self]
  exact ofBits_neg_inf_f32

/-- The running denominator starts at zero everywhere. -/
theorem pay5_apply (i : S1024x1.Idx) : k1_pay5 (F := Ideal) i = 0 := by
  unfold k1_pay5
  rw [shapeCast_self]
  exact Ideal.ofBits_zero_f32

/-- The running numerator starts at zero everywhere. -/
theorem pay6_apply (i : S1024x128.Idx) : k1_pay6 (F := Ideal) i = 0 := by
  unfold k1_pay6
  rw [shapeCast_self]
  exact Ideal.ofBits_zero_f32

/-! ## The payloads that only move values -/

/-- The stored running maximum is the new maximum itself. -/
theorem pay2_eq (m : FVec Ideal S1024x1 .f32) : k1_pay2 (F := Ideal) m = m := by
  unfold k1_pay2
  exact shapeCast_self _ _

/-- The value block seen as a matrix: row `t`, feature `d`. -/
theorem pay7_apply (v : FVec Ideal S1x1024x128 .bf16) (t : Fin 1024) (d : Fin 128) :
    k1_pay7 (F := Ideal) v (ix2 t d) = v (ix3 (0 : Fin 1) t d) := by
  unfold k1_pay7
  exact shapeCast_1ab_ab_apply v _ t d

/-- The output block: the numerator over the row's denominator. -/
theorem pay3_apply (acc : FVec Ideal S1024x128 .f32) (l : FVec Ideal S1024x1 .f32) (r : Fin 1024) (d : Fin 128) :
    k1_pay3 (F := Ideal) acc l (ix3 (0 : Fin 1) r d) = Ideal.div (acc (ix2 r d)) (l (ix2 r (0 : Fin 1))) := by
  unfold k1_pay3
  refine (shapeCast_ab_1ab_apply _ _ (0 : Fin 1) r d).trans ?_
  exact congrArg (Ideal.div (acc (ix2 r d))) (broadcastTo_a1_ab_apply l _ r d)

/-! ## The rescaling factor and the weights -/

/-- The rescaling factor of a row: the exponential of the old maximum minus the new one. -/
theorem pay10_apply (q k : FVec Ideal S1x1024x128 .bf16) (m mo : FVec Ideal S1024x1 .f32) (i : S1024x1.Idx) :
    k1_pay10 (F := Ideal) q k m mo i = Ideal.exp (mo i - k1_pay9 (F := Ideal) q k m i) := rfl

/-- A weight: the exponential of the score minus the row's new maximum. -/
theorem pay11_apply (q k : FVec Ideal S1x1024x128 .bf16) (m : FVec Ideal S1024x1 .f32) (r t : Fin 1024) :
    k1_pay11 (F := Ideal) q k m (ix2 r t)
      = Ideal.exp (k1_pay8 (F := Ideal) q k (ix2 r t) - k1_pay9 (F := Ideal) q k m (ix2 r (0 : Fin 1))) := by
  unfold k1_pay11
  exact congrArg (fun x => Ideal.exp (k1_pay8 (F := Ideal) q k (ix2 r t) - x))
    (broadcastTo_a1_ab_apply (k1_pay9 (F := Ideal) q k m) _ r t)

/-! ## The two contractions' operand indices -/

/-- The score contraction (rows of `q` against rows of `k`): its dimension numbers. -/
abbrev DS := dot_S1024x128_S1024x128_S1024x1024_1_1_0_0_n_n

theorem DS_lhs0 (i : S1024x1024.Idx) (c : DS.contr.Idx) : (DS.lhsIdx i c 0).val = (i 0).val := by
  unfold DotDims.lhsIdx
  rw [dif_neg (show ¬(0 : Fin S1024x128.rank) ∈ DS.lhsBatch by decide), dif_pos (show (0 : Fin S1024x128.rank) ∈ DS.lhsNonContracting by decide)]
  rfl
theorem DS_lhs1 (i : S1024x1024.Idx) (c : DS.contr.Idx) : (DS.lhsIdx i c 1).val = (c ⟨0, by decide⟩).val :=
  DS.lhsIdx_val_of_single rfl i c
theorem DS_rhs0 (i : S1024x1024.Idx) (c : DS.contr.Idx) : (DS.rhsIdx i c 0).val = (i 1).val := by
  unfold DotDims.rhsIdx
  rw [dif_neg (show ¬(0 : Fin S1024x128.rank) ∈ DS.rhsBatch by decide), dif_pos (show (0 : Fin S1024x128.rank) ∈ DS.rhsNonContracting by decide)]
  rfl
theorem DS_rhs1 (i : S1024x1024.Idx) (c : DS.contr.Idx) : (DS.rhsIdx i c 1).val = (c ⟨0, by decide⟩).val :=
  DS.rhsIdx_val_of_single rfl i c

/-- A score: the contraction of row `r` of `q` with row `t` of `k` over the 128 features, times the scale word. -/
theorem pay8_apply (q k : FVec Ideal S1x1024x128 .bf16) (r t : Fin 1024) :
    k1_pay8 (F := Ideal) q k (ix2 r t)
      = (∑ j : Fin 128, q (ix3 (0 : Fin 1) r j) * k (ix3 (0 : Fin 1) t j)) * Ideal.ofBits .f32 0x3C000000#32 := by
  unfold k1_pay8
  show FloatOps.matmul DS none (shapeCast S1024x128 q shapeCasts_S1x1024x128_S1024x128) (shapeCast S1024x128 k shapeCasts_S1x1024x128_S1024x128)
      (constant S1024x1024 .f32 0x00000000#32) (ix2 r t) * Ideal.ofBits .f32 0x3C000000#32 = _
  refine congrArg (· * Ideal.ofBits .f32 0x3C000000#32) ?_
  rw [Ideal.matmul_constant_zero_apply, ← Equiv.sum_comp (contrEquiv1 DS 128 rfl rfl).symm]
  refine Finset.sum_congr rfl fun j _ => ?_
  have hj := contrEquiv1_symm_val DS 128 rfl rfl j
  have el : DS.lhsIdx (ix2 r t) ((contrEquiv1 DS 128 rfl rfl).symm j) = ix2 r j := funext fun a => Fin.ext (by
    match a with
    | ⟨0, _⟩ => exact DS_lhs0 _ _
    | ⟨1, _⟩ => exact (DS_lhs1 _ _).trans hj)
  have er : DS.rhsIdx (ix2 r t) ((contrEquiv1 DS 128 rfl rfl).symm j) = ix2 t j := funext fun a => Fin.ext (by
    match a with
    | ⟨0, _⟩ => exact DS_rhs0 _ _
    | ⟨1, _⟩ => exact (DS_rhs1 _ _).trans hj)
  rw [el, er, shapeCast_1ab_ab_apply, shapeCast_1ab_ab_apply]

/-- The value contraction (rows of the weights against columns of `v`): its dimension numbers. -/
abbrev DV := dot_S1024x1024_S1024x128_S1024x128_1_0_0_1_n_n

theorem DV_lhs0 (i : S1024x128.Idx) (c : DV.contr.Idx) : (DV.lhsIdx i c 0).val = (i 0).val := by
  unfold DotDims.lhsIdx
  rw [dif_neg (show ¬(0 : Fin S1024x1024.rank) ∈ DV.lhsBatch by decide), dif_pos (show (0 : Fin S1024x1024.rank) ∈ DV.lhsNonContracting by decide)]
  rfl
theorem DV_lhs1 (i : S1024x128.Idx) (c : DV.contr.Idx) : (DV.lhsIdx i c 1).val = (c ⟨0, by decide⟩).val :=
  DV.lhsIdx_val_of_single rfl i c
theorem DV_rhs0 (i : S1024x128.Idx) (c : DV.contr.Idx) : (DV.rhsIdx i c 0).val = (c ⟨0, by decide⟩).val :=
  DV.rhsIdx_val_of_single rfl i c
theorem DV_rhs1 (i : S1024x128.Idx) (c : DV.contr.Idx) : (DV.rhsIdx i c 1).val = (i 1).val := by
  unfold DotDims.rhsIdx
  rw [dif_neg (show ¬(1 : Fin S1024x128.rank) ∈ DV.rhsBatch by decide), dif_pos (show (1 : Fin S1024x128.rank) ∈ DV.rhsNonContracting by decide)]
  rfl

/-- The weights times the values, read at row `r` and feature `d`: the sum over the block's 1024 keys. -/
theorem dotV_apply (p : FVec Ideal S1024x1024 .bf16) (v8 : FVec Ideal S1024x128 .bf16) (r : Fin 1024) (d : Fin 128) :
    FloatOps.matmul DV none p v8 (constant S1024x128 .f32 0x00000000#32) (ix2 r d)
      = ∑ t : Fin 1024, p (ix2 r t) * v8 (ix2 t d) := by
  rw [Ideal.matmul_constant_zero_apply, ← Equiv.sum_comp (contrEquiv1 DV 1024 rfl rfl).symm]
  refine Finset.sum_congr rfl fun t _ => ?_
  have ht := contrEquiv1_symm_val DV 1024 rfl rfl t
  have el : DV.lhsIdx (ix2 r d) ((contrEquiv1 DV 1024 rfl rfl).symm t) = ix2 r t := funext fun a => Fin.ext (by
    match a with
    | ⟨0, _⟩ => exact DV_lhs0 _ _
    | ⟨1, _⟩ => exact (DV_lhs1 _ _).trans ht)
  have er : DV.rhsIdx (ix2 r d) ((contrEquiv1 DV 1024 rfl rfl).symm t) = ix2 t d := funext fun a => Fin.ext (by
    match a with
    | ⟨0, _⟩ => exact (DV_rhs0 _ _).trans ht
    | ⟨1, _⟩ => exact DV_rhs1 _ _)
  rw [el, er]

/-- The new running numerator: the old one rescaled by the row's factor, plus the block's weights times its values. -/
theorem pay1_apply (v8 : FVec Ideal S1024x128 .bf16) (a : FVec Ideal S1024x1 .f32) (p : FVec Ideal S1024x1024 .f32)
    (acc : FVec Ideal S1024x128 .f32) (r : Fin 1024) (d : Fin 128) :
    k1_pay1 (F := Ideal) v8 a p acc (ix2 r d)
      = a (ix2 r (0 : Fin 1)) * acc (ix2 r d) + ∑ t : Fin 1024, p (ix2 r t) * v8 (ix2 t d) := by
  unfold k1_pay1
  rw [shapeCast_self]
  show broadcastTo S1024x128 a broadcasts_S1024x1_S1024x128 (ix2 r d) * acc (ix2 r d)
      + FloatOps.matmul DV none (truncf .bf16 p bitsLt_bf16_f32) v8 (constant S1024x128 .f32 0x00000000#32) (ix2 r d) = _
  rw [broadcastTo_a1_ab_apply, dotV_apply]
  rfl

/-! ## The row reductions -/

/-- The index of row `r` with the reduced coordinate `t` put back. -/
theorem lift_row (r t : Fin 1024) : reduces_S1024x1024_S1024.lift (ix1 r) t = ix2 r t :=
  funext fun c => Fin.ext (by
    match c with
    | ⟨0, _⟩ => rfl
    | ⟨1, _⟩ => rfl)

/-- A row maximum from minus infinity, read at a row: the fold of `max` over the row's 1024 entries. The accumulator
hypothesis is stated for the literal word. -/
theorem rowMaxRed_apply (src : FVec Ideal S1024x1024 .f32) (hφ : FKind.Formats .f32)
    (hacc : (0xFF800000#32 : BitVec FTy.f32.bits) = FKind.maximumf.neutral .f32 hφ) (r : Fin 1024) :
    multiReduction .maximumf [1] S1024 src 0xFF800000#32 reduces_S1024x1024_S1024 hφ hacc (ix1 r)
      = (Finset.univ : Finset (Fin 1024)).sup fun t => src (ix2 r t) := by
  refine (Ideal.multiReduction_maximumf_single src 0xFF800000#32 reduces_S1024x1024_S1024 hφ hacc (ix1 r)).trans ?_
  show (Finset.univ : Finset (Fin 1024)).fold max (Ideal.ofBits .f32 0xFF800000#32) (src ∘ reduces_S1024x1024_S1024.lift (ix1 r)) = _
  rw [ofBits_neg_inf_f32]
  have hf : (src ∘ reduces_S1024x1024_S1024.lift (ix1 r)) = fun t : Fin 1024 => src (ix2 r t) :=
    funext fun t => congrArg src (lift_row r t)
  rw [hf]
  rfl

/-- A row sum from zero, read at a row: the sum of the row's 1024 entries. -/
theorem rowSumRed_apply (src : FVec Ideal S1024x1024 .f32) (hφ : FKind.Formats .f32)
    (hacc : (0x00000000#32 : BitVec FTy.f32.bits) = FKind.add.neutral .f32 hφ) (r : Fin 1024) :
    multiReduction .add [1] S1024 src 0x00000000#32 reduces_S1024x1024_S1024 hφ hacc (ix1 r)
      = ∑ t : Fin 1024, src (ix2 r t) := by
  refine (Ideal.multiReduction_add_single src 0x00000000#32 reduces_S1024x1024_S1024 hφ hacc (ix1 r)).trans ?_
  exact Finset.sum_congr rfl fun t _ => congrArg src (lift_row r t)

/-- The maximum of row `r` of the scores of one key block. -/
def rowMax (q k : FVec Ideal S1x1024x128 .bf16) (r : Fin 1024) : EReal :=
  (Finset.univ : Finset (Fin 1024)).sup fun t => k1_pay8 (F := Ideal) q k (ix2 r t)

/-- The new running maximum of a row: the larger of the old one and the block's row maximum. -/
theorem pay9_apply (q k : FVec Ideal S1x1024x128 .bf16) (m : FVec Ideal S1024x1 .f32) (r : Fin 1024) :
    k1_pay9 (F := Ideal) q k m (ix2 r (0 : Fin 1)) = max (m (ix2 r (0 : Fin 1))) (rowMax q k r) := by
  unfold k1_pay9
  refine congrArg (max (m (ix2 r (0 : Fin 1)))) ?_
  refine (shapeCast_a_a1_apply _ _ r (0 : Fin 1)).trans ?_
  exact rowMaxRed_apply (k1_pay8 (F := Ideal) q k) _ _ r

/-- Every score of the row is below the row maximum. -/
theorem le_rowMax (q k : FVec Ideal S1x1024x128 .bf16) (r t : Fin 1024) :
    k1_pay8 (F := Ideal) q k (ix2 r t) ≤ rowMax q k r :=
  Finset.le_sup (f := fun t => k1_pay8 (F := Ideal) q k (ix2 r t)) (Finset.mem_univ t)

/-- The row maximum is attained. -/
theorem exists_eq_rowMax (q k : FVec Ideal S1x1024x128 .bf16) (r : Fin 1024) :
    ∃ t : Fin 1024, rowMax q k r = k1_pay8 (F := Ideal) q k (ix2 r t) := by
  obtain ⟨t, _, ht⟩ := Finset.exists_mem_eq_sup (Finset.univ : Finset (Fin 1024)) ⟨0, Finset.mem_univ _⟩
    (fun t => k1_pay8 (F := Ideal) q k (ix2 r t))
  exact ⟨t, ht⟩

/-- A bound on every score of the row bounds the row maximum. -/
theorem rowMax_le (q k : FVec Ideal S1x1024x128 .bf16) (r : Fin 1024) (b : EReal)
    (h : ∀ t : Fin 1024, k1_pay8 (F := Ideal) q k (ix2 r t) ≤ b) : rowMax q k r ≤ b :=
  Finset.sup_le fun t _ => h t

/-- The new running denominator of a row: the old one rescaled, plus the sum of the row's weights. -/
theorem pay12_apply (q k : FVec Ideal S1x1024x128 .bf16) (m mo l : FVec Ideal S1024x1 .f32) (r : Fin 1024) :
    k1_pay12 (F := Ideal) q k m mo l (ix2 r (0 : Fin 1))
      = k1_pay10 (F := Ideal) q k m mo (ix2 r (0 : Fin 1)) * l (ix2 r (0 : Fin 1))
        + ∑ t : Fin 1024, k1_pay11 (F := Ideal) q k m (ix2 r t) := by
  unfold k1_pay12
  rw [shapeCast_self]
  refine congrArg (k1_pay10 (F := Ideal) q k m mo (ix2 r (0 : Fin 1)) * l (ix2 r (0 : Fin 1)) + ·) ?_
  refine (shapeCast_a_a1_apply _ _ r (0 : Fin 1)).trans ?_
  exact rowSumRed_apply (k1_pay11 (F := Ideal) q k m) _ _ r

end Cert.KernelIdeal.AttnPay

end
-- ==== Proof.AttnSteps.lean ====
/-
  The attention body over the two key blocks of one query tile

  One visit of the body to a key block updates the running maximum, normaliser and weighted sum of a query row exactly as
  one step of the online form of softmax attention does: the scores are the scaled inner products of the query row with the
  block's key rows, the maximum is raised to the block's row maximum, the old normaliser and weighted sum are rescaled by
  the exponential of the old maximum minus the new one and receive the block's weights. Two visits from the reset values
  (−∞, 0, 0), followed by the quotient, give the online form's entry.
-/
import proofs.«112745_j14748917694967_2_alg».proof.Proof.Gen.KernelIdeal.Skeleton
import proofs.«112745_j14748917694967_2_alg».proof.Proof.AttnPay
import proofs.«112745_j14748917694967_2_alg».proof.Proof.SpecFlash

noncomputable section

namespace Cert.KernelIdeal.AttnSteps

open Idealize.ShloMosaic Idealize.ShloMosaic.ValueIdx
open Cert.KernelIdeal Cert.KernelIdeal.Gen Cert.KernelIdeal.AttnPay Cert.Spec
open scoped BigOperators

/-! ## One visit, at a query row -/

/-- A score of the body is the specification's score. -/
theorem score_eq (Q K : FVec Ideal S1x1024x128 .bf16) (q k : (⟨3, ![4, 2048, 128]⟩ : Shape).Idx → EReal) (b : Fin 4) (qi j : Fin 2)
    (hQ : ∀ (r : Fin 1024) (e : Fin 128), Q (ix3 (0 : Fin 1) r e) = q (ix3 b (row qi r) e))
    (hK : ∀ (u : Fin 1024) (e : Fin 128), K (ix3 (0 : Fin 1) u e) = k (ix3 b (row j u) e)) (r u : Fin 1024) :
    k1_pay8 (F := Ideal) Q K (ix2 r u) = Flash.sc q k b qi r j u := by
  rw [pay8_apply]
  unfold Flash.sc
  refine congrArg (· * Ideal.ofBits .f32 0x3C000000#32) (Finset.sum_congr rfl fun e _ => ?_)
  rw [hQ, hK]

/-- The row maximum of the block's scores is the specification's block maximum. -/
theorem rowMax_eq (Q K : FVec Ideal S1x1024x128 .bf16) (q k : (⟨3, ![4, 2048, 128]⟩ : Shape).Idx → EReal) (b : Fin 4) (qi j : Fin 2)
    (hQ : ∀ (r : Fin 1024) (e : Fin 128), Q (ix3 (0 : Fin 1) r e) = q (ix3 b (row qi r) e))
    (hK : ∀ (u : Fin 1024) (e : Fin 128), K (ix3 (0 : Fin 1) u e) = k (ix3 b (row j u) e)) (r : Fin 1024) :
    AttnPay.rowMax Q K r = Flash.bmax q k b qi r j := by
  unfold AttnPay.rowMax Flash.bmax
  exact congrArg (Finset.univ : Finset (Fin 1024)).sup (funext fun u => score_eq Q K q k b qi j hQ hK r u)

/-- The new running maximum. -/
theorem step_max (Q K : FVec Ideal S1x1024x128 .bf16) (q k : (⟨3, ![4, 2048, 128]⟩ : Shape).Idx → EReal) (b : Fin 4) (qi j : Fin 2)
    (hQ : ∀ (r : Fin 1024) (e : Fin 128), Q (ix3 (0 : Fin 1) r e) = q (ix3 b (row qi r) e))
    (hK : ∀ (u : Fin 1024) (e : Fin 128), K (ix3 (0 : Fin 1) u e) = k (ix3 b (row j u) e)) (m : FVec Ideal S1024x1 .f32) (r : Fin 1024) :
    k1_pay9 (F := Ideal) Q K m (ix2 r (0 : Fin 1)) = max (m (ix2 r (0 : Fin 1))) (Flash.bmax q k b qi r j) := by
  rw [pay9_apply, rowMax_eq Q K q k b qi j hQ hK r]

/-- The rescaling factor. -/
theorem step_scale (Q K : FVec Ideal S1x1024x128 .bf16) (q k : (⟨3, ![4, 2048, 128]⟩ : Shape).Idx → EReal) (b : Fin 4) (qi j : Fin 2)
    (hQ : ∀ (r : Fin 1024) (e : Fin 128), Q (ix3 (0 : Fin 1) r e) = q (ix3 b (row qi r) e))
    (hK : ∀ (u : Fin 1024) (e : Fin 128), K (ix3 (0 : Fin 1) u e) = k (ix3 b (row j u) e)) (m : FVec Ideal S1024x1 .f32) (r : Fin 1024) :
    k1_pay10 (F := Ideal) Q K m m (ix2 r (0 : Fin 1)) = Ideal.exp (m (ix2 r (0 : Fin 1)) - max (m (ix2 r (0 : Fin 1))) (Flash.bmax q k b qi r j)) := by
  rw [pay10_apply, step_max Q K q k b qi j hQ hK m r]

/-- A weight. -/
theorem step_weight (Q K : FVec Ideal S1x1024x128 .bf16) (q k : (⟨3, ![4, 2048, 128]⟩ : Shape).Idx → EReal) (b : Fin 4) (qi j : Fin 2)
    (hQ : ∀ (r : Fin 1024) (e : Fin 128), Q (ix3 (0 : Fin 1) r e) = q (ix3 b (row qi r) e))
    (hK : ∀ (u : Fin 1024) (e : Fin 128), K (ix3 (0 : Fin 1) u e) = k (ix3 b (row j u) e)) (m : FVec Ideal S1024x1 .f32) (r u : Fin 1024) :
    k1_pay11 (F := Ideal) Q K m (ix2 r u) = Ideal.exp (Flash.sc q k b qi r j u - max (m (ix2 r (0 : Fin 1))) (Flash.bmax q k b qi r j)) := by
  rw [pay11_apply, step_max Q K q k b qi j hQ hK m r, score_eq Q K q k b qi j hQ hK r u]

/-- The new running normaliser. -/
theorem step_den (Q K : FVec Ideal S1x1024x128 .bf16) (q k : (⟨3, ![4, 2048, 128]⟩ : Shape).Idx → EReal) (b : Fin 4) (qi j : Fin 2)
    (hQ : ∀ (r : Fin 1024) (e : Fin 128), Q (ix3 (0 : Fin 1) r e) = q (ix3 b (row qi r) e))
    (hK : ∀ (u : Fin 1024) (e : Fin 128), K (ix3 (0 : Fin 1) u e) = k (ix3 b (row j u) e)) (m l : FVec Ideal S1024x1 .f32) (r : Fin 1024) :
    k1_pay12 (F := Ideal) Q K m m l (ix2 r (0 : Fin 1))
      = Ideal.exp (m (ix2 r (0 : Fin 1)) - max (m (ix2 r (0 : Fin 1))) (Flash.bmax q k b qi r j)) * l (ix2 r (0 : Fin 1))
        + ∑ u : Fin 1024, Ideal.exp (Flash.sc q k b qi r j u - max (m (ix2 r (0 : Fin 1))) (Flash.bmax q k b qi r j)) := by
  rw [pay12_apply, step_scale Q K q k b qi j hQ hK m r]
  exact congrArg (_ + ·) (Finset.sum_congr rfl fun u _ => step_weight Q K q k b qi j hQ hK m r u)

/-- The new running weighted sum of values. -/
theorem step_num (Q K : FVec Ideal S1x1024x128 .bf16) (q k : (⟨3, ![4, 2048, 128]⟩ : Shape).Idx → EReal) (b : Fin 4) (qi j : Fin 2)
    (hQ : ∀ (r : Fin 1024) (e : Fin 128), Q (ix3 (0 : Fin 1) r e) = q (ix3 b (row qi r) e))
    (hK : ∀ (u : Fin 1024) (e : Fin 128), K (ix3 (0 : Fin 1) u e) = k (ix3 b (row j u) e)) (V : FVec Ideal S1x1024x128 .bf16) (v : (⟨3, ![4, 2048, 128]⟩ : Shape).Idx → EReal)
    (hV : ∀ (u : Fin 1024) (d : Fin 128), V (ix3 (0 : Fin 1) u d) = v (ix3 b (row j u) d))
    (m : FVec Ideal S1024x1 .f32) (acc : FVec Ideal S1024x128 .f32) (r : Fin 1024) (d : Fin 128) :
    k1_pay1 (F := Ideal) (k1_pay7 V) (k1_pay10 Q K m m) (k1_pay11 Q K m) acc (ix2 r d)
      = Ideal.exp (m (ix2 r (0 : Fin 1)) - max (m (ix2 r (0 : Fin 1))) (Flash.bmax q k b qi r j)) * acc (ix2 r d)
        + ∑ u : Fin 1024, Ideal.exp (Flash.sc q k b qi r j u - max (m (ix2 r (0 : Fin 1))) (Flash.bmax q k b qi r j)) * v (ix3 b (row j u) d) := by
  rw [pay1_apply, step_scale Q K q k b qi j hQ hK m r]
  refine congrArg (_ + ·) (Finset.sum_congr rfl fun u _ => ?_)
  rw [step_weight Q K q k b qi j hQ hK m r u, pay7_apply, hV]

/-! ## The two visits -/

section Two

variable (Q K0 V0 K1 V1 : FVec Ideal S1x1024x128 .bf16) (q k v : (⟨3, ![4, 2048, 128]⟩ : Shape).Idx → EReal) (b : Fin 4) (qi : Fin 2)
  (hQ : ∀ (r : Fin 1024) (e : Fin 128), Q (ix3 (0 : Fin 1) r e) = q (ix3 b (row qi r) e))
  (hK0 : ∀ (u : Fin 1024) (e : Fin 128), K0 (ix3 (0 : Fin 1) u e) = k (ix3 b (row 0 u) e))
  (hK1 : ∀ (u : Fin 1024) (e : Fin 128), K1 (ix3 (0 : Fin 1) u e) = k (ix3 b (row 1 u) e))
  (hV0 : ∀ (u : Fin 1024) (d : Fin 128), V0 (ix3 (0 : Fin 1) u d) = v (ix3 b (row 0 u) d))
  (hV1 : ∀ (u : Fin 1024) (d : Fin 128), V1 (ix3 (0 : Fin 1) u d) = v (ix3 b (row 1 u) d))

include hQ hK0 in
/-- After the first key block, from the reset values: the running maximum. -/
theorem first_max (r : Fin 1024) :
    (k1_pay2 (F := Ideal) (k1_pay9 Q K0 (k1_pay4 (F := Ideal)))) (ix2 r (0 : Fin 1)) = Flash.m1 q k b qi r := by
  rw [pay2_eq, step_max Q K0 q k b qi 0 hQ hK0, pay4_apply]
  rfl

include hQ hK0 in
/-- After the first key block: the running normaliser. -/
theorem first_den (r : Fin 1024) :
    (k1_pay12 (F := Ideal) Q K0 (k1_pay4 (F := Ideal)) (k1_pay4 (F := Ideal)) (k1_pay5 (F := Ideal))) (ix2 r (0 : Fin 1)) = Flash.l1 q k b qi r := by
  rw [step_den Q K0 q k b qi 0 hQ hK0, pay4_apply, pay5_apply]
  rfl

include hQ hK0 hV0 in
/-- After the first key block: the running weighted sum of values. -/
theorem first_num (r : Fin 1024) (d : Fin 128) :
    (k1_pay1 (F := Ideal) (k1_pay7 V0) (k1_pay10 Q K0 (k1_pay4 (F := Ideal)) (k1_pay4 (F := Ideal))) (k1_pay11 Q K0 (k1_pay4 (F := Ideal))) (k1_pay6 (F := Ideal))) (ix2 r d) = Flash.acc1 q k v b qi r d := by
  rw [step_num Q K0 q k b qi 0 hQ hK0 V0 v hV0, pay4_apply, pay6_apply]
  rfl

include hQ hK0 hK1 in
/-- After the second key block: the running maximum. -/
theorem second_max (r : Fin 1024) :
    (k1_pay2 (F := Ideal) (k1_pay9 Q K1 (k1_pay2 (F := Ideal) (k1_pay9 Q K0 (k1_pay4 (F := Ideal)))))) (ix2 r (0 : Fin 1)) = Flash.m2 q k b qi r := by
  rw [pay2_eq, step_max Q K1 q k b qi 1 hQ hK1, first_max Q K0 q k b qi hQ hK0 r]
  rfl

include hQ hK0 hK1 in
/-- After the second key block: the running normaliser. -/
theorem second_den (r : Fin 1024) :
    (k1_pay12 (F := Ideal) Q K1 (k1_pay2 (F := Ideal) (k1_pay9 Q K0 (k1_pay4 (F := Ideal)))) (k1_pay2 (F := Ideal) (k1_pay9 Q K0 (k1_pay4 (F := Ideal)))) (k1_pay12 (F := Ideal) Q K0 (k1_pay4 (F := Ideal)) (k1_pay4 (F := Ideal)) (k1_pay5 (F := Ideal)))) (ix2 r (0 : Fin 1)) = Flash.l2 q k b qi r := by
  rw [step_den Q K1 q k b qi 1 hQ hK1, first_max Q K0 q k b qi hQ hK0 r, first_den Q K0 q k b qi hQ hK0 r]
  rfl

include hQ hK0 hK1 hV0 hV1 in
/-- After the second key block: the running weighted sum of values. -/
theorem second_num (r : Fin 1024) (d : Fin 128) :
    (k1_pay1 (F := Ideal) (k1_pay7 V1) (k1_pay10 Q K1 (k1_pay2 (F := Ideal) (k1_pay9 Q K0 (k1_pay4 (F := Ideal)))) (k1_pay2 (F := Ideal) (k1_pay9 Q K0 (k1_pay4 (F := Ideal))))) (k1_pay11 Q K1 (k1_pay2 (F := Ideal) (k1_pay9 Q K0 (k1_pay4 (F := Ideal))))) (k1_pay1 (F := Ideal) (k1_pay7 V0) (k1_pay10 Q K0 (k1_pay4 (F := Ideal)) (k1_pay4 (F := Ideal))) (k1_pay11 Q K0 (k1_pay4 (F := Ideal))) (k1_pay6 (F := Ideal)))) (ix2 r d) = Flash.acc2 q k v b qi r d := by
  rw [step_num Q K1 q k b qi 1 hQ hK1 V1 v hV1, first_max Q K0 q k b qi hQ hK0 r, first_num Q K0 V0 q k v b qi hQ hK0 hV0 r d]
  rfl

include hQ hK0 hK1 hV0 hV1 in
/-- The two visits: the block the body stores after the second key block, from the reset values through both blocks, is
    the online form's entry — the weighted sum over the normaliser. -/
theorem two_step (r : Fin 1024) (d : Fin 128) :
    k1_pay3 (F := Ideal) (k1_pay1 (F := Ideal) (k1_pay7 V1) (k1_pay10 Q K1 (k1_pay2 (F := Ideal) (k1_pay9 Q K0 (k1_pay4 (F := Ideal)))) (k1_pay2 (F := Ideal) (k1_pay9 Q K0 (k1_pay4 (F := Ideal))))) (k1_pay11 Q K1 (k1_pay2 (F := Ideal) (k1_pay9 Q K0 (k1_pay4 (F := Ideal))))) (k1_pay1 (F := Ideal) (k1_pay7 V0) (k1_pay10 Q K0 (k1_pay4 (F := Ideal)) (k1_pay4 (F := Ideal))) (k1_pay11 Q K0 (k1_pay4 (F := Ideal))) (k1_pay6 (F := Ideal)))) (k1_pay12 (F := Ideal) Q K1 (k1_pay2 (F := Ideal) (k1_pay9 Q K0 (k1_pay4 (F := Ideal)))) (k1_pay2 (F := Ideal) (k1_pay9 Q K0 (k1_pay4 (F := Ideal)))) (k1_pay12 (F := Ideal) Q K0 (k1_pay4 (F := Ideal)) (k1_pay4 (F := Ideal)) (k1_pay5 (F := Ideal)))) (ix3 (0 : Fin 1) r d) = flashAt q k v b qi r d := by
  rw [pay3_apply, second_num Q K0 V0 K1 V1 q k v b qi hQ hK0 hK1 hV0 hV1 r d, second_den Q K0 K1 q k b qi hQ hK0 hK1 r]
  rfl

end Two

end Cert.KernelIdeal.AttnSteps

end
-- ==== Proof.AttnValue.lean ====
/-
  The attention region's output array, read. At the ideal values the array the region leaves is, entry by entry, the
  online form of softmax attention over the two key blocks of the arrays the region finds. Only the odd grid points
  write the output back. At an odd point the output's buffer holds accumulator / normaliser after two updates of the
  running maximum, normaliser and accumulator: the first, at the even point before it, from the reset values with
  key/value block 0, the second with key/value block 1; both points see the same query rows. The two updates are the
  two steps of the online form, so the block written back is the block of the online form at the point's batch and query
  block; the eight blocks written back tile the array.
-/
import proofs.«112745_j14748917694967_2_alg».proof.Proof.AttnBody
import proofs.«112745_j14748917694967_2_alg».proof.Proof.AttnBlocks
import proofs.«112745_j14748917694967_2_alg».proof.Proof.AttnSteps
import proofs.«112745_j14748917694967_2_alg».proof.Proof.SpecFlash
import Idealize.ShloMosaic.Lib.Pipeline.Value
import Idealize.ShloMosaic.Lib.ValueIdx

set_option maxRecDepth 16384

noncomputable section

namespace Cert.KernelIdeal.AttnValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Attn Cert.KernelIdeal.AttnBlocks Cert.KernelIdeal.AttnSteps Cert.Spec

variable (V : (c : Dev nD) → (b : Ref sig .tc) → Buf (Elt Ideal) ((c : Thread nD τ).loc b))

/-- The query, key and value arrays as the region finds them. -/
abbrev qArr (c : Dev nD) : Vec Ideal S4x2048x128 .bf16 := V c (Pipeline.arrRef spec1 0)
abbrev kArr (c : Dev nD) : Vec Ideal S4x2048x128 .bf16 := V c (Pipeline.arrRef spec1 1)
abbrev vArr (c : Dev nD) : Vec Ideal S4x2048x128 .bf16 := V c (Pipeline.arrRef spec1 2)

/-- The online form over the arrays the region finds, as contents of the output array: entry (b, s, d) is the entry of
    batch b, query block s / 1024, row s % 1024 and feature d. -/
def G (c : Dev nD) : Vec Ideal S4x2048x128 .f32 := fun i =>
  flashAt (qArr V c) (kArr V c) (vArr V c) ⟨(i 0).val, (i 0).isLt⟩
    ⟨(i 1).val / 1024, by have h : (i 1).val < 2048 := (i 1).isLt; omega⟩ ⟨(i 1).val % 1024, Nat.mod_lt _ (by decide)⟩ ⟨(i 2).val, (i 2).isLt⟩

/-- Its entry at row `r` of query block `qi`. -/
theorem G_apply (c : Dev nD) (b : Fin 4) (qi : Fin 2) (r : Fin 1024) (d : Fin 128) :
    G V c (ix3 b (row qi r) d) = flashAt (qArr V c) (kArr V c) (vArr V c) b qi r d := by
  have e1 : (⟨(row qi r).val / 1024, by have := (row qi r).isLt; omega⟩ : Fin 2) = qi :=
    Fin.ext (by show (1024 * qi.val + r.val) / 1024 = qi.val; omega)
  have e2 : (⟨(row qi r).val % 1024, Nat.mod_lt _ (by decide)⟩ : Fin 1024) = r :=
    Fin.ext (by show (1024 * qi.val + r.val) % 1024 = r.val; omega)
  show flashAt (qArr V c) (kArr V c) (vArr V c) ⟨b.val, _⟩ ⟨(row qi r).val / 1024, _⟩ ⟨(row qi r).val % 1024, _⟩ ⟨d.val, _⟩ = _
  rw [e1, e2]

/-- At an even position, in the naturals: one update from the reset values. -/
theorem outsAt1_even (c : Dev nD) (n : ℕ) (hn : n < cfg1.N) (h : n % 2 = 0) :
    outsAt1 V c n hn = ((k1_pay3 (k1_pay1 (k1_pay7 (iblk1 V c 2 ⟨n, hn⟩)) (k1_pay10 (iblk1 V c 0 ⟨n, hn⟩) (iblk1 V c 1 ⟨n, hn⟩) (k1_pay4 (F := Ideal)) (k1_pay4 (F := Ideal))) (k1_pay11 (iblk1 V c 0 ⟨n, hn⟩) (iblk1 V c 1 ⟨n, hn⟩) (k1_pay4 (F := Ideal))) (k1_pay6 (F := Ideal))) (k1_pay12 (iblk1 V c 0 ⟨n, hn⟩) (iblk1 V c 1 ⟨n, hn⟩) (k1_pay4 (F := Ideal)) (k1_pay4 (F := Ideal)) (k1_pay5 (F := Ideal)))), (k1_pay2 (k1_pay9 (iblk1 V c 0 ⟨n, hn⟩) (iblk1 V c 1 ⟨n, hn⟩) (k1_pay4 (F := Ideal)))), (k1_pay12 (iblk1 V c 0 ⟨n, hn⟩) (iblk1 V c 1 ⟨n, hn⟩) (k1_pay4 (F := Ideal)) (k1_pay4 (F := Ideal)) (k1_pay5 (F := Ideal))), (k1_pay1 (k1_pay7 (iblk1 V c 2 ⟨n, hn⟩)) (k1_pay10 (iblk1 V c 0 ⟨n, hn⟩) (iblk1 V c 1 ⟨n, hn⟩) (k1_pay4 (F := Ideal)) (k1_pay4 (F := Ideal))) (k1_pay11 (iblk1 V c 0 ⟨n, hn⟩) (iblk1 V c 1 ⟨n, hn⟩) (k1_pay4 (F := Ideal))) (k1_pay6 (F := Ideal)))) :=
  outsAt1_A V c ⟨n, hn⟩ h

/-- The query rows are the same at an odd point and at the even point before it. -/
theorem query_prev (c : Dev nD) (t : Fin cfg1.N) (ht : t.val % 2 = 1) (hlt : t.val - 1 < cfg1.N) :
    (iblk1 V c 0 ⟨t.val - 1, hlt⟩ : FVec Ideal S1x1024x128 .bf16) = iblk1 V c 0 t := by
  obtain ⟨eB, eQ, -, -⟩ := pair_of_odd t ⟨t.val - 1, hlt⟩ ht (by show t.val - 1 + 1 = t.val; omega)
  funext j
  refine (congrArg (iblk1 V c 0 ⟨t.val - 1, hlt⟩ : FVec Ideal S1x1024x128 .bf16) (eq_ix3 j)).trans ?_
  refine Eq.trans ?_ (congrArg (iblk1 V c 0 t : FVec Ideal S1x1024x128 .bf16) (eq_ix3 j)).symm
  refine (read0 (qArr V c) ⟨t.val - 1, hlt⟩ (j 0) (j 1) (j 2)).trans ?_
  refine Eq.trans ?_ (read0 (qArr V c) t (j 0) (j 1) (j 2)).symm
  rw [eB, eQ]

/-- After an odd point the output's buffer holds the online form's block at the point's batch and query block. -/
theorem after_odd (c : Dev nD) (t : Fin cfg1.N) (ht : t.val % 2 = 1) (u : Fin 1) (r : Fin 1024) (d : Fin 128) :
    (outsAt1 V c t.val t.isLt).1 (ix3 u r d) = flashAt (qArr V c) (kArr V c) (vArr V c) (ptB t) (ptQ t) r d := by
  obtain rfl : u = 0 := Subsingleton.elim _ _
  have hlt : t.val - 1 < cfg1.N := Nat.lt_of_le_of_lt (Nat.sub_le _ _) t.isLt
  have h' : (t.val - 1) % 2 = 0 := by omega
  obtain ⟨eB, eQ, eK0, eK1⟩ := pair_of_odd t ⟨t.val - 1, hlt⟩ ht (by show t.val - 1 + 1 = t.val; omega)
  rw [outsAt1_B V c t ht, outsAt1_even V c (t.val - 1) hlt h']
  dsimp only
  rw [query_prev V c t ht hlt]
  exact two_step (iblk1 V c 0 t) (iblk1 V c 1 ⟨t.val - 1, hlt⟩) (iblk1 V c 2 ⟨t.val - 1, hlt⟩) (iblk1 V c 1 t) (iblk1 V c 2 t)
    (qArr V c) (kArr V c) (vArr V c) (ptB t) (ptQ t)
    (fun r e => read0 (qArr V c) t 0 r e)
    (fun u e => (read1 (kArr V c) ⟨t.val - 1, hlt⟩ 0 u e).trans (by rw [eB, eK0]))
    (fun u e => (read1 (kArr V c) t 0 u e).trans (by rw [eK1]))
    (fun u e => (read2 (vArr V c) ⟨t.val - 1, hlt⟩ 0 u e).trans (by rw [eB, eK0]))
    (fun u e => (read2 (vArr V c) t 0 u e).trans (by rw [eK1]))
    r d

/-- What a point that writes the output back writes: its block of the online form. -/
theorem flushed3_eq (c : Dev nD) (t : Fin cfg1.N) (hf : (cfg1.win 3).flush t = true) :
    (dat1 (F := Ideal) V c).flushed 3 t = ((cfg1.win 3).blk t).view.read (Elt Ideal) (G V c) := by
  have ht : t.val % 2 = 1 := (flush1_3 t).mp hf
  show (cfg1.win 3).cut (grid1.coords t) ((dat1 V c).after 3 t) = _
  rw [after1_3]
  funext j
  show (outsAt1 V c t.val t.isLt).1 j = ((cfg1.win 3).blk t).view.read (Elt Ideal) (G V c) j
  refine (congrArg (outsAt1 V c t.val t.isLt).1 (eq_ix3 j)).trans ?_
  refine Eq.trans ?_ (congrArg (((cfg1.win 3).blk t).view.read (Elt Ideal) (G V c)) (eq_ix3 j)).symm
  refine (after_odd V c t ht (j 0) (j 1) (j 2)).trans ?_
  refine Eq.trans ?_ (read3 (G V c) t (j 0) (j 1) (j 2)).symm
  exact (G_apply V c (ptB t) (ptQ t) (j 1) (j 2)).symm

/-- The output array after the region: the online form over the arrays the region finds. -/
theorem arr3 (c : Dev nD) : (dat1 (F := Ideal) V c).arrAt 3 cfg1.N = G V c :=
  (dat1 V c).arrAt_eq_of_cover 3 (G V c) (fun t hf => flushed3_eq V c t hf) cover3

/-- Entry (b, 1024·qi + r, d) of the output array after the region. -/
theorem out_apply (c : Dev nD) (b : Fin 4) (qi : Fin 2) (r : Fin 1024) (d : Fin 128) :
    (dat1 (F := Ideal) V c).arrAt 3 cfg1.N (ix3 b (row qi r) d)
      = flashAt (V c (Pipeline.arrRef spec1 0)) (V c (Pipeline.arrRef spec1 1)) (V c (Pipeline.arrRef spec1 2)) b qi r d :=
  (congrFun (arr3 V c) (ix3 b (row qi r) d)).trans (G_apply V c b qi r d)

end Cert.KernelIdeal.AttnValue

end
-- ==== Proof.SpecReal.lean ====
/-
  The specification over REAL entries. When every entry of the input, a weight matrix and a bias row is a real, every
  entry of the projection is a real (a finite sum of products of reals plus a real). When every entry of q and k is a
  real, a score is the real inner product times 1/128: dividing twice by √128 is multiplying by (1/√128)², and
  √128 · √128 = 128.
-/
import Idealize.ShloMosaic.PureOps.Ideal
import Idealize.ShloMosaic.Lib.ValueIdx
import proofs.«112745_j14748917694967_2_alg».proof.Proof.Spec
import proofs.«112745_j14748917694967_2_alg».proof.Proof.SpecAttn

noncomputable section

open scoped BigOperators

namespace Cert.Spec

open Idealize.ShloMosaic Idealize.ShloMosaic.ValueIdx

/-- A finite sum of reals, each read as an extended real, is the real sum read as an extended real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A projection of real arrays, with the entries named. -/
theorem projOf_coe (x : (⟨3, ![4, 2048, 1024]⟩ : Shape).Idx → ℝ) (W : (⟨2, ![1024, 128]⟩ : Shape).Idx → ℝ)
    (β : (⟨1, ![128]⟩ : Shape).Idx → ℝ) (b : Fin 4) (s : Fin 2048) (d : Fin 128) :
    projOf (fun i => (x i : EReal)) (fun i => (W i : EReal)) (fun i => (β i : EReal)) (ix3 b s d)
      = (((∑ e : Fin 1024, x (ix3 b s e) * W (ix2 e d)) + β (ix1 d) : ℝ) : EReal) := by
  rw [projOf_ix3]
  simp only [← EReal.coe_mul]
  rw [coe_sum, ← EReal.coe_add]

/-- Every entry of a projection of arrays of reals is a real. -/
theorem projOf_real (x : (⟨3, ![4, 2048, 1024]⟩ : Shape).Idx → EReal) (W : (⟨2, ![1024, 128]⟩ : Shape).Idx → EReal)
    (β : (⟨1, ![128]⟩ : Shape).Idx → EReal) (hx : ∀ i, ∃ r : ℝ, x i = (r : EReal)) (hW : ∀ i, ∃ r : ℝ, W i = (r : EReal))
    (hβ : ∀ i, ∃ r : ℝ, β i = (r : EReal)) (i : (⟨3, ![4, 2048, 128]⟩ : Shape).Idx) : ∃ r : ℝ, projOf x W β i = (r : EReal) := by
  choose xr hxr using hx
  choose Wr hWr using hW
  choose βr hβr using hβ
  obtain rfl : x = fun i => (xr i : EReal) := funext hxr
  obtain rfl : W = fun i => (Wr i : EReal) := funext hWr
  obtain rfl : β = fun i => (βr i : EReal) := funext hβr
  obtain ⟨b, s, d, rfl⟩ : ∃ (b : Fin 4) (s : Fin 2048) (d : Fin 128), i = ix3 b s d := ⟨i 0, i 1, i 2, eq_ix3 i⟩
  exact ⟨_, projOf_coe xr Wr βr b s d⟩

/-- The word 0x43000000 is 128. -/
theorem ofBits_128 : Ideal.ofBits .f32 0x43000000#32 = ((128 : ℝ) : EReal) := by
  simp [Ideal.ofBits, Ideal.ieee, -EReal.coe_mul]; norm_num

/-- √128 as a real. -/
theorem sqrt128_eq : sqrt128 = ((Real.sqrt 128 : ℝ) : EReal) := by
  unfold sqrt128
  rw [ofBits_128, Ideal.sqrt_coe, if_neg (by norm_num)]

theorem sqrt128_ne_zero : Real.sqrt 128 ≠ 0 := (Real.sqrt_pos.2 (by norm_num)).ne'

/-- Dividing twice by √128 is multiplying by 1/128. -/
theorem div_sqrt128_twice (z : ℝ) :
    Ideal.div (Ideal.div (z : EReal) sqrt128) sqrt128 = ((z * (1 / 128) : ℝ) : EReal) := by
  rw [sqrt128_eq, Ideal.div_coe sqrt128_ne_zero, Ideal.div_coe sqrt128_ne_zero, ← EReal.coe_mul, ← EReal.coe_mul]
  congr 1
  have h : Real.sqrt 128 * Real.sqrt 128 = 128 := Real.mul_self_sqrt (by norm_num)
  have h0 := sqrt128_ne_zero
  field_simp
  rw [pow_two, h]

/-- A score of real q and k is the real inner product times 1/128. -/
theorem score_coe (q k : (⟨3, ![4, 2048, 128]⟩ : Shape).Idx → ℝ) (b : Fin 4) (s t : Fin 2048) :
    score (fun i => (q i : EReal)) (fun i => (k i : EReal)) b s t
      = (((∑ j : Fin 128, q (ix3 b s j) * k (ix3 b t j)) * (1 / 128) : ℝ) : EReal) := by
  unfold score
  simp only [← EReal.coe_mul]
  rw [coe_sum, div_sqrt128_twice]

end Cert.Spec

end
-- ==== Proof.SpecRefReal.lean ====
/-
  Softmax attention of REAL arrays is a real, entry by entry, with a closed form over the reals.

  For real q and k a score is the real `σ t = (∑ j, q[b,s,j] · k[b,t,j]) / 128`. The fold of `max` from −∞ over the
  2048 scores of a row is their largest, a real `M` (the set of key rows is not empty); comparing once more with −∞
  changes nothing. A weight is `exp (σ t − M)`, a positive real; the normaliser `Z` is their sum, a positive real,
  so that dividing by it is multiplying by `1 / Z`; and the entry is `∑ t, (exp (σ t − M) / Z) · v[b,t,d]`.
-/
import Idealize.ShloMosaic.PureOps.Ideal.Laws
import proofs.«112745_j14748917694967_2_alg».proof.Proof.SpecReal

noncomputable section

open scoped BigOperators

namespace Cert.Spec

open Idealize.ShloMosaic Idealize.ShloMosaic.ValueIdx

/-- The word 0xFF800000 is −∞. -/
theorem negInf_eq : negInf = ⊥ := by unfold negInf; simp [Ideal.ofBits, Ideal.ieee]

/-- The fold of `max` from −∞ over a non-empty finite family of reals is the largest of them. -/
theorem fold_max_coe {ι : Type} (s : Finset ι) (hs : s.Nonempty) (f : ι → ℝ) :
    s.fold max (⊥ : EReal) (fun t => (f t : EReal)) = ((s.sup' hs f : ℝ) : EReal) := by
  obtain ⟨t0, ht0, e0⟩ := Finset.exists_mem_eq_sup' hs f
  refine le_antisymm ?_ ?_
  · refine (Finset.fold_max_le (b := (⊥ : EReal)) (f := fun t => (f t : EReal)) (s := s) _).2 ⟨bot_le, fun t ht => ?_⟩
    exact EReal.coe_le_coe_iff.2 (Finset.le_sup' f ht)
  · rw [e0]
    exact (Finset.le_fold_max (b := (⊥ : EReal)) (f := fun t => (f t : EReal)) (s := s) _).2 (Or.inr ⟨t0, ht0, le_rfl⟩)

section
variable (q k v : (⟨3, ![4, 2048, 128]⟩ : Shape).Idx → ℝ)

/-- The real score: the inner product of a query row and a key row, over 128. -/
def scoreR (b : Fin 4) (s t : Fin 2048) : ℝ := (∑ j : Fin 128, q (ix3 b s j) * k (ix3 b t j)) * (1 / 128)

/-- The largest score of a row. -/
def rowMaxR (b : Fin 4) (s : Fin 2048) : ℝ :=
  (Finset.univ : Finset (Fin 2048)).sup' Finset.univ_nonempty (fun t => scoreR q k b s t)

/-- The real weight `exp (σ t − M)`. -/
def weightR (b : Fin 4) (s t : Fin 2048) : ℝ := Real.exp (scoreR q k b s t - rowMaxR q k b s)

/-- The real normaliser: the sum of the weights of a row. -/
def denomR (b : Fin 4) (s : Fin 2048) : ℝ := ∑ t : Fin 2048, weightR q k b s t

/-- The real attention entry. -/
def attnR (b : Fin 4) (s : Fin 2048) (d : Fin 128) : ℝ :=
  ∑ t : Fin 2048, weightR q k b s t / denomR q k b s * v (ix3 b t d)

theorem weightR_pos (b : Fin 4) (s t : Fin 2048) : 0 < weightR q k b s t := Real.exp_pos _

theorem denomR_pos (b : Fin 4) (s : Fin 2048) : 0 < denomR q k b s :=
  Finset.sum_pos (fun t _ => Real.exp_pos _) Finset.univ_nonempty

/-- Every score of a row is at most the row's largest. -/
theorem scoreR_le_rowMaxR (b : Fin 4) (s t : Fin 2048) : scoreR q k b s t ≤ rowMaxR q k b s :=
  Finset.le_sup' (fun t => scoreR q k b s t) (Finset.mem_univ t)

/-- The row's largest score is one of its scores. -/
theorem rowMaxR_attained (b : Fin 4) (s : Fin 2048) : ∃ t₀ : Fin 2048, rowMaxR q k b s = scoreR q k b s t₀ := by
  obtain ⟨t₀, _, e⟩ := Finset.exists_mem_eq_sup' (Finset.univ_nonempty (α := Fin 2048)) (fun t => scoreR q k b s t)
  exact ⟨t₀, e⟩

theorem rowMax_coe (b : Fin 4) (s : Fin 2048) :
    rowMax (fun i => (q i : EReal)) (fun i => (k i : EReal)) b s = ((rowMaxR q k b s : ℝ) : EReal) := by
  unfold rowMax rowMaxR
  rw [negInf_eq, max_eq_right bot_le]
  have e : (fun t => score (fun i => (q i : EReal)) (fun i => (k i : EReal)) b s t)
      = fun t => ((scoreR q k b s t : ℝ) : EReal) := funext fun t => score_coe q k b s t
  rw [e]
  exact fold_max_coe _ Finset.univ_nonempty _

/-- The row maximum is one of the row's scores. -/
theorem rowMax_attained (b : Fin 4) (s : Fin 2048) :
    ∃ t₀ : Fin 2048, rowMax (fun i => (q i : EReal)) (fun i => (k i : EReal)) b s
      = score (fun i => (q i : EReal)) (fun i => (k i : EReal)) b s t₀ := by
  obtain ⟨t₀, e⟩ := rowMaxR_attained q k b s
  exact ⟨t₀, by rw [rowMax_coe, score_coe, e]; rfl⟩

theorem weight_coe (b : Fin 4) (s t : Fin 2048) :
    weight (fun i => (q i : EReal)) (fun i => (k i : EReal)) b s t = ((weightR q k b s t : ℝ) : EReal) := by
  unfold weight weightR
  rw [rowMax_coe, score_coe, ← EReal.coe_sub, Ideal.exp_coe]
  rfl

theorem denom_coe (b : Fin 4) (s : Fin 2048) :
    denom (fun i => (q i : EReal)) (fun i => (k i : EReal)) b s = ((denomR q k b s : ℝ) : EReal) := by
  unfold denom denomR
  rw [Ideal.ofBits_zero_f32, zero_add]
  have e : (fun t => weight (fun i => (q i : EReal)) (fun i => (k i : EReal)) b s t)
      = fun t => ((weightR q k b s t : ℝ) : EReal) := funext fun t => weight_coe q k b s t
  rw [e, coe_sum]

/-- Softmax attention of real arrays, at (b, s, d), is the real closed form. -/
theorem attnRef_coe (b : Fin 4) (s : Fin 2048) (d : Fin 128) :
    attnRef (fun i => (q i : EReal)) (fun i => (k i : EReal)) (fun i => (v i : EReal)) (ix3 b s d)
      = ((attnR q k v b s d : ℝ) : EReal) := by
  rw [attnRef_ix3]
  unfold attnR
  rw [← coe_sum]
  refine Finset.sum_congr rfl fun t _ => ?_
  rw [weight_coe, denom_coe, Ideal.div_coe (denomR_pos q k b s).ne', ← EReal.coe_mul, ← EReal.coe_mul, mul_one_div]

/-- The same, stated of `attnAt`. -/
theorem attnAt_coe (b : Fin 4) (s : Fin 2048) (d : Fin 128) :
    attnAt (fun i => (q i : EReal)) (fun i => (k i : EReal)) (fun i => (v i : EReal)) b s d
      = ((attnR q k v b s d : ℝ) : EReal) := attnRef_coe q k v b s d

/-- The closed form written out: with `S t` the real score and `M` the row's largest score, the entry is
    `∑ t, exp (S t − M) / (∑ t', exp (S t' − M)) · v[b,t,d]`. -/
theorem attnR_eq (b : Fin 4) (s : Fin 2048) (d : Fin 128) :
    attnR q k v b s d
      = ∑ t : Fin 2048, Real.exp (scoreR q k b s t - rowMaxR q k b s)
          / (∑ t' : Fin 2048, Real.exp (scoreR q k b s t' - rowMaxR q k b s)) * v (ix3 b t d) := rfl

end

end Cert.Spec

end
-- ==== Proof.Softmax.lean ====
/-
  The online form of softmax attention over two key blocks equals softmax attention, on arrays of reals. Over the reals
  the two-step recurrence's numerator and normaliser are the one-pass ones times one positive factor; on the extended
  reals every quantity of the recurrence is a real read as an extended real (the start values −∞ and zero make the
  first rescaling factor zero), so the quotient is the same real.
-/
import Idealize.ShloMosaic.PureOps.Ideal
import Idealize.ShloMosaic.PureOps.Ideal.Laws
import Idealize.ShloMosaic.Lib.ValueIdx
import proofs.«112745_j14748917694967_2_alg».proof.Proof.SpecAttn
import proofs.«112745_j14748917694967_2_alg».proof.Proof.SpecReal
import proofs.«112745_j14748917694967_2_alg».proof.Proof.SpecRefReal
import proofs.«112745_j14748917694967_2_alg».proof.Proof.SpecFlash

noncomputable section

open scoped BigOperators

namespace Cert.Softmax

open Idealize.ShloMosaic Idealize.ShloMosaic.ValueIdx Cert.Spec

/-! ## The real core: two blocks visited one after the other

Over the reals, with any three shifts `B0` (the first block's), `M2` (the second step's) and `Mr` (the one-pass form's):
rescaling the first block's sums by `exp (B0 − M2)` turns every weight `exp (s − B0)` into `exp (s − M2)`, and
`exp (s − M2) = exp (Mr − M2) · exp (s − Mr)`, so numerator and normaliser of the two-step form are the one-pass ones
times the same positive factor `exp (Mr − M2)`, which cancels in the quotient. -/

theorem online_core {n : ℕ} (hn : 0 < n) (s0 s1 v0 v1 : Fin n → ℝ) (B0 M2 Mr : ℝ) :
    (Real.exp (B0 - M2) * (∑ u, Real.exp (s0 u - B0) * v0 u) + ∑ u, Real.exp (s1 u - M2) * v1 u)
        * (1 / (Real.exp (B0 - M2) * (∑ u, Real.exp (s0 u - B0)) + ∑ u, Real.exp (s1 u - M2)))
      = (∑ u, Real.exp (s0 u - Mr) * (1 / ((∑ u, Real.exp (s0 u - Mr)) + ∑ u, Real.exp (s1 u - Mr))) * v0 u)
        + ∑ u, Real.exp (s1 u - Mr) * (1 / ((∑ u, Real.exp (s0 u - Mr)) + ∑ u, Real.exp (s1 u - Mr))) * v1 u := by
  have h0 : ∀ u, Real.exp (B0 - M2) * Real.exp (s0 u - B0) = Real.exp (Mr - M2) * Real.exp (s0 u - Mr) := fun u => by
    rw [← Real.exp_add, ← Real.exp_add]; congr 1; ring
  have h1 : ∀ u, Real.exp (s1 u - M2) = Real.exp (Mr - M2) * Real.exp (s1 u - Mr) := fun u => by
    rw [← Real.exp_add]; congr 1; ring
  generalize hL : (∑ u, Real.exp (s0 u - Mr)) + ∑ u, Real.exp (s1 u - Mr) = L
  have hLne : L ≠ 0 := by
    rw [← hL]
    exact (add_pos_of_pos_of_nonneg (Finset.sum_pos (fun u _ => Real.exp_pos _) ⟨⟨0, hn⟩, Finset.mem_univ _⟩)
      (Finset.sum_nonneg fun u _ => (Real.exp_pos _).le)).ne'
  have hc : Real.exp (Mr - M2) ≠ 0 := (Real.exp_pos _).ne'
  have hN : Real.exp (B0 - M2) * (∑ u, Real.exp (s0 u - B0) * v0 u) + ∑ u, Real.exp (s1 u - M2) * v1 u
      = Real.exp (Mr - M2) * ((∑ u, Real.exp (s0 u - Mr) * v0 u) + ∑ u, Real.exp (s1 u - Mr) * v1 u) := by
    rw [mul_add, Finset.mul_sum, Finset.mul_sum, Finset.mul_sum]
    congr 1 <;> refine Finset.sum_congr rfl fun u _ => ?_
    · rw [← mul_assoc, h0, mul_assoc]
    · rw [h1, mul_assoc]
  have hD : Real.exp (B0 - M2) * (∑ u, Real.exp (s0 u - B0)) + ∑ u, Real.exp (s1 u - M2) = Real.exp (Mr - M2) * L := by
    rw [← hL, mul_add, Finset.mul_sum, Finset.mul_sum, Finset.mul_sum]
    congr 1 <;> refine Finset.sum_congr rfl fun u _ => ?_
    · exact h0 u
    · exact h1 u
  have hR0 : ∑ u, Real.exp (s0 u - Mr) * (1 / L) * v0 u = (1 / L) * ∑ u, Real.exp (s0 u - Mr) * v0 u := by
    rw [Finset.mul_sum]; exact Finset.sum_congr rfl fun u _ => by ring
  have hR1 : ∑ u, Real.exp (s1 u - Mr) * (1 / L) * v1 u = (1 / L) * ∑ u, Real.exp (s1 u - Mr) * v1 u := by
    rw [Finset.mul_sum]; exact Finset.sum_congr rfl fun u _ => by ring
  rw [hN, hD, hR0, hR1]
  field_simp

/-! ## Reals among the extended reals -/

/-- The larger of two reals, read as an extended real. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The supremum of finitely many reals over a nonempty range is one of them, hence a real. -/
theorem sup_coe_real {n : ℕ} (hn : 0 < n) (f : Fin n → ℝ) :
    ∃ x : ℝ, ((Finset.univ : Finset (Fin n)).sup fun u => (f u : EReal)) = (x : EReal) := by
  obtain ⟨t, _, ht⟩ := Finset.exists_mem_eq_sup (Finset.univ : Finset (Fin n)) ⟨⟨0, hn⟩, Finset.mem_univ _⟩
    (fun u => (f u : EReal))
  exact ⟨f t, ht⟩

/-- The quotient of two reals, the divisor not zero. -/
theorem div_coe_coe (x y : ℝ) (hy : y ≠ 0) : Ideal.div (x : EReal) (y : EReal) = ((x * (1 / y) : ℝ) : EReal) := by
  rw [Ideal.div_coe hy, ← EReal.coe_mul]

/-! ## The scale word -/

/-- The word 0x3C000000 is 1/128. -/
theorem ofBits_scale : Ideal.ofBits .f32 0x3C000000#32 = (((1 : ℝ) / 128 : ℝ) : EReal) := by
  simp [Ideal.ofBits, Ideal.ieee, -EReal.coe_mul]; norm_num

/-! ## The 2048 rows as two blocks of 1024 -/

/-- A sum over the 2048 rows is the sum over the first block's rows plus the sum over the second block's. -/
theorem sum_row (f : Fin 2048 → ℝ) : ∑ t, f t = (∑ u : Fin 1024, f (row 0 u)) + ∑ u : Fin 1024, f (row 1 u) := by
  have h := Fin.sum_univ_add (a := 1024) (b := 1024) f
  have e0 : ∀ u : Fin 1024, Fin.castAdd 1024 u = row 0 u := fun u => Fin.ext (by
    show u.val = 1024 * 0 + u.val
    omega)
  have e1 : ∀ u : Fin 1024, Fin.natAdd 1024 u = row 1 u := fun u => Fin.ext (by
    show 1024 + u.val = 1024 * 1 + u.val
    omega)
  refine h.trans ?_
  exact congrArg₂ (· + ·) (Finset.sum_congr rfl fun u _ => congrArg f (e0 u))
    (Finset.sum_congr rfl fun u _ => congrArg f (e1 u))

/-! ## The online form on real arrays -/

section
variable (qr kr vr : (⟨3, ![4, 2048, 128]⟩ : Shape).Idx → ℝ) (b : Fin 4) (qi : Fin 2) (r : Fin 1024)

/-- A score of the online form on real arrays is the real score of that row. -/
theorem sc_coe (j : Fin 2) (u : Fin 1024) :
    Flash.sc (fun i => (qr i : EReal)) (fun i => (kr i : EReal)) b qi r j u = (scoreR qr kr b (row qi r) (row j u) : EReal) := by
  unfold Flash.sc scoreR
  simp only [← EReal.coe_mul]
  rw [coe_sum, ofBits_scale, ← EReal.coe_mul]

/-- A block maximum of the online form on real arrays is a real. -/
theorem bmax_real (j : Fin 2) :
    ∃ B : ℝ, Flash.bmax (fun i => (qr i : EReal)) (fun i => (kr i : EReal)) b qi r j = (B : EReal) := by
  unfold Flash.bmax
  rw [show (fun u => Flash.sc (fun i => (qr i : EReal)) (fun i => (kr i : EReal)) b qi r j u)
      = fun u => ((scoreR qr kr b (row qi r) (row j u) : ℝ) : EReal) from funext (sc_coe qr kr b qi r j)]
  exact sup_coe_real (by norm_num) _

/-- The online form on real arrays, in closed form: for two reals `B0` (the first block's maximum) and `M2` (the final
maximum), the rescaled first block plus the second block, numerator over normaliser. -/
theorem flashAt_coe (d : Fin 128) :
    ∃ B0 M2 : ℝ, flashAt (fun i => (qr i : EReal)) (fun i => (kr i : EReal)) (fun i => (vr i : EReal)) b qi r d
      = (((Real.exp (B0 - M2) * (∑ u : Fin 1024, Real.exp (scoreR qr kr b (row qi r) (row 0 u) - B0) * vr (ix3 b (row 0 u) d))
            + ∑ u : Fin 1024, Real.exp (scoreR qr kr b (row qi r) (row 1 u) - M2) * vr (ix3 b (row 1 u) d))
          * (1 / (Real.exp (B0 - M2) * (∑ u : Fin 1024, Real.exp (scoreR qr kr b (row qi r) (row 0 u) - B0))
            + ∑ u : Fin 1024, Real.exp (scoreR qr kr b (row qi r) (row 1 u) - M2))) : ℝ) : EReal) := by
  obtain ⟨B0, hB0⟩ := bmax_real qr kr b qi r 0
  obtain ⟨B1, hB1⟩ := bmax_real qr kr b qi r 1
  refine ⟨B0, max B0 B1, ?_⟩
  generalize hq : (fun i => (qr i : EReal)) = q at hB0 hB1
  generalize hk : (fun i => (kr i : EReal)) = k at hB0 hB1
  have hsc : ∀ j u, Flash.sc q k b qi r j u = (scoreR qr kr b (row qi r) (row j u) : EReal) := fun j u => by
    rw [← hq, ← hk]; exact sc_coe qr kr b qi r j u
  have hm1 : Flash.m1 q k b qi r = (B0 : EReal) := by
    unfold Flash.m1; rw [hB0]; exact max_bot_left _
  have ha1 : Flash.a1 q k b qi r = 0 := by
    unfold Flash.a1; rw [EReal.bot_sub]; rfl
  have hp1 : ∀ u, Flash.p1 q k b qi r u = ((Real.exp (scoreR qr kr b (row qi r) (row 0 u) - B0) : ℝ) : EReal) := fun u => by
    unfold Flash.p1; rw [hsc, hm1, ← EReal.coe_sub]; rfl
  have hl1 : Flash.l1 q k b qi r = ((∑ u : Fin 1024, Real.exp (scoreR qr kr b (row qi r) (row 0 u) - B0) : ℝ) : EReal) := by
    unfold Flash.l1
    rw [ha1, zero_mul, zero_add, ← coe_sum]
    exact Finset.sum_congr rfl fun u _ => hp1 u
  have hacc1 : Flash.acc1 q k (fun i => (vr i : EReal)) b qi r d
      = ((∑ u : Fin 1024, Real.exp (scoreR qr kr b (row qi r) (row 0 u) - B0) * vr (ix3 b (row 0 u) d) : ℝ) : EReal) := by
    unfold Flash.acc1
    rw [ha1, zero_mul, zero_add, ← coe_sum]
    exact Finset.sum_congr rfl fun u _ => by rw [hp1, ← EReal.coe_mul]
  have hm2 : Flash.m2 q k b qi r = ((max B0 B1 : ℝ) : EReal) := by
    unfold Flash.m2; rw [hm1, hB1]; exact coe_max B0 B1
  have ha2 : Flash.a2 q k b qi r = ((Real.exp (B0 - max B0 B1) : ℝ) : EReal) := by
    unfold Flash.a2; rw [hm1, hm2, ← EReal.coe_sub]; rfl
  have hp2 : ∀ u, Flash.p2 q k b qi r u = ((Real.exp (scoreR qr kr b (row qi r) (row 1 u) - max B0 B1) : ℝ) : EReal) := fun u => by
    unfold Flash.p2; rw [hsc, hm2, ← EReal.coe_sub]; rfl
  have hl2 : Flash.l2 q k b qi r
      = ((Real.exp (B0 - max B0 B1) * (∑ u : Fin 1024, Real.exp (scoreR qr kr b (row qi r) (row 0 u) - B0))
          + ∑ u : Fin 1024, Real.exp (scoreR qr kr b (row qi r) (row 1 u) - max B0 B1) : ℝ) : EReal) := by
    have hs : ∑ u : Fin 1024, Flash.p2 q k b qi r u
        = ((∑ u : Fin 1024, Real.exp (scoreR qr kr b (row qi r) (row 1 u) - max B0 B1) : ℝ) : EReal) := by
      rw [← coe_sum]; exact Finset.sum_congr rfl fun u _ => hp2 u
    unfold Flash.l2
    rw [ha2, hl1, hs, ← EReal.coe_mul, ← EReal.coe_add]
  have hacc2 : Flash.acc2 q k (fun i => (vr i : EReal)) b qi r d
      = ((Real.exp (B0 - max B0 B1) * (∑ u : Fin 1024, Real.exp (scoreR qr kr b (row qi r) (row 0 u) - B0) * vr (ix3 b (row 0 u) d))
          + ∑ u : Fin 1024, Real.exp (scoreR qr kr b (row qi r) (row 1 u) - max B0 B1) * vr (ix3 b (row 1 u) d) : ℝ) : EReal) := by
    have hs : ∑ u : Fin 1024, Flash.p2 q k b qi r u * (fun i => (vr i : EReal)) (ix3 b (row 1 u) d)
        = ((∑ u : Fin 1024, Real.exp (scoreR qr kr b (row qi r) (row 1 u) - max B0 B1) * vr (ix3 b (row 1 u) d) : ℝ) : EReal) := by
      rw [← coe_sum]; exact Finset.sum_congr rfl fun u _ => by rw [hp2, ← EReal.coe_mul]
    unfold Flash.acc2
    rw [ha2, hacc1, hs, ← EReal.coe_mul, ← EReal.coe_add]
  have hpos : Real.exp (B0 - max B0 B1) * (∑ u : Fin 1024, Real.exp (scoreR qr kr b (row qi r) (row 0 u) - B0))
      + ∑ u : Fin 1024, Real.exp (scoreR qr kr b (row qi r) (row 1 u) - max B0 B1) ≠ 0 :=
    (add_pos_of_nonneg_of_pos (mul_nonneg (Real.exp_pos _).le (Finset.sum_nonneg fun u _ => (Real.exp_pos _).le))
      (Finset.sum_pos (fun u _ => Real.exp_pos _) ⟨0, Finset.mem_univ _⟩)).ne'
  unfold flashAt
  rw [hacc2, hl2]
  exact div_coe_coe _ _ hpos

end

/-! ## The online form is softmax attention -/

/-- On real arrays the online form over the two key blocks is softmax attention at that row: both are the same real,
the weighted sum of the values with weights `exp (score − shift)` over their sum, whatever the shift. -/
theorem flash_eq_attn_coe (qr kr vr : (⟨3, ![4, 2048, 128]⟩ : Shape).Idx → ℝ) (b : Fin 4) (qi : Fin 2) (r : Fin 1024) (d : Fin 128) :
    flashAt (fun i => (qr i : EReal)) (fun i => (kr i : EReal)) (fun i => (vr i : EReal)) b qi r d
      = attnAt (fun i => (qr i : EReal)) (fun i => (kr i : EReal)) (fun i => (vr i : EReal)) b (row qi r) d := by
  obtain ⟨B0, M2, h⟩ := flashAt_coe qr kr vr b qi r d
  rw [h, attnAt_coe, attnR_eq]
  refine congrArg _ ?_
  refine (online_core (n := 1024) (by norm_num) (fun u => scoreR qr kr b (row qi r) (row 0 u))
    (fun u => scoreR qr kr b (row qi r) (row 1 u)) (fun u => vr (ix3 b (row 0 u) d)) (fun u => vr (ix3 b (row 1 u) d))
    B0 M2 (rowMaxR qr kr b (row qi r))).trans ?_
  rw [sum_row (fun t => Real.exp (scoreR qr kr b (row qi r) t - rowMaxR qr kr b (row qi r))), sum_row]
  refine congrArg₂ (· + ·) (Finset.sum_congr rfl fun u _ => ?_) (Finset.sum_congr rfl fun u _ => ?_) <;>
    (beta_reduce; ring)

/-- The same for arrays of extended reals all of whose entries are reals. -/
theorem flash_eq_attn (q k v : (⟨3, ![4, 2048, 128]⟩ : Shape).Idx → EReal) (hq : ∀ i, ∃ x : ℝ, q i = (x : EReal))
    (hk : ∀ i, ∃ x : ℝ, k i = (x : EReal)) (hv : ∀ i, ∃ x : ℝ, v i = (x : EReal))
    (b : Fin 4) (qi : Fin 2) (r : Fin 1024) (d : Fin 128) :
    flashAt q k v b qi r d = attnAt q k v b (row qi r) d := by
  choose qr hqr using hq
  choose kr hkr using hk
  choose vr hvr using hv
  obtain rfl : q = fun i => (qr i : EReal) := funext hqr
  obtain rfl : k = fun i => (kr i : EReal) := funext hkr
  obtain rfl : v = fun i => (vr i : EReal) := funext hvr
  exact flash_eq_attn_coe qr kr vr b qi r d

end Cert.Softmax

end
-- ==== Proof.Finite.lean ====
/-
  From the precondition to "every entry of every argument is a real number".

  The precondition says that a conjunction of seven tests is true; the test of an argument array x is
  "for all indices i, |x i| < +∞", printed as a reduction by `and` of the array of comparisons. A conjunction that is
  1 has both halves 1; a reduction by `and` that is 1 met only 1s; and an extended real whose absolute value is below
  +∞ is neither infinity, so it is a real.
-/
import proofs.«112745_j14748917694967_2_alg».proof.Defs
import proofs.«112745_j14748917694967_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Idealize.SL.Sem
open Cert.Pre_finite_inputs Cert.Pre_finite_inputs.Facts

/-- The scalar shape has one index. -/
instance : Subsingleton Cert.Pre_finite_inputs.S_.Idx := ⟨fun a b => funext fun d => d.elim0⟩

/-- An extended real whose absolute value compares below the word 0x7F800000 (+∞) is a real. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have ht : Ideal.ofBits .f32 0x7F800000#32 = ⊤ := by simp [Ideal.ofBits, Ideal.ieee]
  have h' : BitVec.ofBool (decide (max x (-x) < Ideal.ofBits .f32 0x7F800000#32)) = 1#1 := h
  rw [ht] at h'
  induction x using EReal.rec with
  | bot => exact absurd h' (by simp)
  | coe r => exact ⟨r, rfl⟩
  | top => exact absurd h' (by simp)

/-- One test of the precondition: if the `and`-reduction of "|x i| < +∞" over all of x is 1, every entry of x is a real. -/
theorem all_real {s : Shape} {axes : List (Fin s.rank)} (x : FVec Ideal s .f32)
    (hb : S_.BroadcastsInDim s (![] : Fin 0 → Fin s.rank)) (h' : s.ReducesTo axes S_) (hu : 0 < S_.numel)
    (e : Host.reduce IntOp.andi (cmpf .olt (Host.absf x) (broadcastInDim s ![] hb (constant (F := Ideal) S_ .f32 0x7F800000#32)))
        (constantI S_ 1 1#1) h' hu ix0 = 1#1) (i : s.Idx) : ∃ r : ℝ, x i = (r : EReal) :=
  real_of_abs_lt (x i) (Host.reduce_andi_all _ _ h' hu ix0 e i)

/-- Under the precondition every entry of each of the seven arguments is a real. -/
theorem inputs_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have h0 := congrFun (h c) ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ _ e0, all_real _ _ _ _ e1, all_real _ _ _ _ e2, all_real _ _ _ _ e3, all_real _ _ _ _ e4,
    all_real _ _ _ _ e5, all_real _ _ _ _ e6⟩

end Cert.Finite

end
-- ==== Proof.FiniteProj.lean ====
/-
  Every entry of a projection of arrays of reals is a real: a finite sum of products of reals, plus a real.
-/
import proofs.«112745_j14748917694967_2_alg».proof.Proof.SpecReal

noncomputable section

namespace Cert.Finite

open Idealize.ShloMosaic

theorem projOf_real (x : (⟨3, ![4, 2048, 1024]⟩ : Shape).Idx → EReal) (W : (⟨2, ![1024, 128]⟩ : Shape).Idx → EReal)
    (β : (⟨1, ![128]⟩ : Shape).Idx → EReal) (hx : ∀ i, ∃ r : ℝ, x i = (r : EReal)) (hW : ∀ i, ∃ r : ℝ, W i = (r : EReal))
    (hβ : ∀ i, ∃ r : ℝ, β i = (r : EReal)) : ∀ i, ∃ r : ℝ, Cert.Spec.projOf x W β i = (r : EReal) :=
  Cert.Spec.projOf_real x W β hx hW hβ

end Cert.Finite

end
-- ==== Proof.KernelValue.lean ====
/-
  The kernel's result array is softmax attention of the three projections of the arguments.

  Region 1's output array, read at an index (b, s, d) with s in query tile qi at row r, is the online recurrence over
  the two key blocks of the arrays region 1 finds; those are region 0's three output arrays, each the projection
  of the input by one weight matrix and bias row. The inputs are finite, so the projections are real-valued, and on
  real-valued q, k, v the online recurrence is softmax attention.
-/
import proofs.«112745_j14748917694967_2_alg».proof.Proof.Main
import proofs.«112745_j14748917694967_2_alg».proof.Proof.ProjValue
import proofs.«112745_j14748917694967_2_alg».proof.Proof.AttnValue
import proofs.«112745_j14748917694967_2_alg».proof.Proof.Softmax
import proofs.«112745_j14748917694967_2_alg».proof.Proof.Finite
import proofs.«112745_j14748917694967_2_alg».proof.Proof.FiniteProj

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.Spec

/-- Every row of the sequence axis is row `r` of one of the two tiles of 1024 rows. -/
theorem row_surj (s : Fin 2048) : ∃ (qi : Fin 2) (r : Fin 1024), s = row qi r :=
  ⟨⟨s.val / 1024, by omega⟩, ⟨s.val % 1024, Nat.mod_lt _ (by norm_num)⟩, Fin.ext (by simp only [row]; omega)⟩

/-- Under the precondition, on every core, the kernel's result array is softmax attention of the projections
    `x·Wq + bq`, `x·Wk + bk`, `x·Wv + bv` of the launch memory's argument arrays. -/
theorem result_eq (m : (ℓ : Loc nD τ sig) → Buf (Elt Ideal) ℓ) (ρ : Dev nD → PrngReg)
    (hpre : Cert.Pre_KernelIdeal m) (c : Dev nD) :
    (Attn.dat1 (F := Ideal) (Main.Vq m ρ) c).arrAt 3 cfg1.N
      = attnRef (projOf (m ((c.tc : Thread nD τ).loc main_arg0)) (m ((c.tc : Thread nD τ).loc main_arg1)) (m ((c.tc : Thread nD τ).loc main_arg2)))
          (projOf (m ((c.tc : Thread nD τ).loc main_arg0)) (m ((c.tc : Thread nD τ).loc main_arg3)) (m ((c.tc : Thread nD τ).loc main_arg4)))
          (projOf (m ((c.tc : Thread nD τ).loc main_arg0)) (m ((c.tc : Thread nD τ).loc main_arg5)) (m ((c.tc : Thread nD τ).loc main_arg6))) := by
  obtain ⟨h0, h1, h2, h3, h4, h5, h6⟩ := Cert.Finite.inputs_real m hpre c
  funext i
  obtain ⟨b, s, d, rfl⟩ : ∃ (b : Fin 4) (s : Fin 2048) (d : Fin 128), i = ix3 b s d := ⟨i 0, i 1, i 2, eq_ix3 i⟩
  obtain ⟨qi, r, rfl⟩ := row_surj s
  rw [AttnValue.out_apply, Main.Vq_q, Main.Vq_k, Main.Vq_v, ProjValue.arr7, ProjValue.arr8, ProjValue.arr9]
  refine (Cert.Softmax.flash_eq_attn _ _ _ (Cert.Finite.projOf_real _ _ _ h0 h1 h2) (Cert.Finite.projOf_real _ _ _ h0 h3 h4)
    (Cert.Finite.projOf_real _ _ _ h0 h5 h6) b qi r d).trans ?_
  rfl

end Cert.KernelIdeal.KernelValue

end
-- ==== Proof.RefValue.lean ====
/-
  The reference program's result as softmax attention of its three projections, index by index.

  The program computes q, k, v as a matrix product plus a bias row each; the scores q·kᵀ divided twice by √128; the
  row maximum by a max-reduce from −∞ (compared with −∞ once more); exp(score − maximum); its row sum from zero; the
  quotient; and the product with v. Every stage is read at an index from the stages before it, and the chain ends in
  the specification's `attnRef` applied to the program's own q, k, v. The projections themselves are read the same
  way: each is `projOf` of the input, a weight matrix and a bias row.
-/
import proofs.«112745_j14748917694967_2_alg».proof.Proof.Gen.ReferenceIdeal.Read
import proofs.«112745_j14748917694967_2_alg».proof.Proof.Spec
import proofs.«112745_j14748917694967_2_alg».proof.Proof.SpecAttn

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo
open Cert.Spec

variable (x0 : (⟨S4x2048x1024, .f32⟩ : BufTy).Contents (Elt Ideal)) (x1 : (⟨S1024x128, .f32⟩ : BufTy).Contents (Elt Ideal))
  (x2 : (⟨S128, .f32⟩ : BufTy).Contents (Elt Ideal)) (x3 : (⟨S1024x128, .f32⟩ : BufTy).Contents (Elt Ideal))
  (x4 : (⟨S128, .f32⟩ : BufTy).Contents (Elt Ideal)) (x5 : (⟨S1024x128, .f32⟩ : BufTy).Contents (Elt Ideal))
  (x6 : (⟨S128, .f32⟩ : BufTy).Contents (Elt Ideal))

/-! ## The composed index maps at coordinates -/

theorem lidx_v0 (b : Fin 4) (s : Fin 2048) (d : Fin 128) (e : Fin 1024) : lidx_main_v0 (ix3 b s d) e = ix3 b s e :=
  funext fun a => by match a with | ⟨0, _⟩ => rfl | ⟨1, _⟩ => rfl | ⟨2, _⟩ => rfl
theorem ridx_v0 (b : Fin 4) (s : Fin 2048) (d : Fin 128) (e : Fin 1024) : ridx_main_v0 (ix3 b s d) e = ix2 e d :=
  funext fun a => by match a with | ⟨0, _⟩ => rfl | ⟨1, _⟩ => rfl
theorem idx_v2 (b : Fin 4) (s : Fin 2048) (d : Fin 128) : idx_main_v1 (idx_main_v2 (ix3 b s d)) = ix1 d :=
  funext fun a => by match a with | ⟨0, _⟩ => rfl

/-! ## The projections -/

/-- A projection stage at (b, s, d): the inner product of row (b, s) with column d, plus the bias at d. -/
theorem proj_at (W : (⟨S1024x128, .f32⟩ : BufTy).Contents (Elt Ideal)) (β : (⟨S128, .f32⟩ : BufTy).Contents (Elt Ideal))
    (b : Fin 4) (s : Fin 2048) (d : Fin 128) :
    val_main_v3 (F := Ideal) x0 W β (ix3 b s d) = projOf x0 W β (ix3 b s d) := by
  rw [val_main_v3_apply, val_main_v0_apply, val_main_v2_apply, val_main_v1_apply, idx_v2, projOf_ix3]
  simp only [lidx_v0, ridx_v0, Ideal.addf_def]

theorem q_eq : val_main_v3 (F := Ideal) x0 x1 x2 = projOf x0 x1 x2 := by
  funext i
  obtain ⟨b, s, d, rfl⟩ : ∃ (b : Fin 4) (s : Fin 2048) (d : Fin 128), i = ix3 b s d := ⟨i 0, i 1, i 2, eq_ix3 i⟩
  exact proj_at x0 x1 x2 b s d

theorem k_eq : val_main_v7 (F := Ideal) x0 x3 x4 = projOf x0 x3 x4 := q_eq x0 x3 x4

theorem v_eq : val_main_v11 (F := Ideal) x0 x5 x6 = projOf x0 x5 x6 := q_eq x0 x5 x6

/-! ## The scores -/

theorem lidx_v12 (b : Fin 4) (s t : Fin 2048) (j : Fin 128) : lidx_main_v12 (ix3 b s t) j = ix3 b s j :=
  funext fun a => by match a with | ⟨0, _⟩ => rfl | ⟨1, _⟩ => rfl | ⟨2, _⟩ => rfl
theorem ridx_v12 (b : Fin 4) (s t : Fin 2048) (j : Fin 128) : ridx_main_v12 (ix3 b s t) j = ix3 b t j :=
  funext fun a => by match a with | ⟨0, _⟩ => rfl | ⟨1, _⟩ => rfl | ⟨2, _⟩ => rfl

/-- The twice-scaled score stage at (b, s, t) is the specification's score of the program's q and k. -/
theorem score_at (b : Fin 4) (s t : Fin 2048) :
    val_main_v18 (F := Ideal) x0 x1 x2 x3 x4 (ix3 b s t) = score (val_main_v3 (F := Ideal) x0 x1 x2) (val_main_v7 (F := Ideal) x0 x3 x4) b s t := by
  rw [val_main_v18_apply, val_main_v15_apply, val_main_v12_apply, val_main_v14_apply, val_main_v13_apply, val_main_cst_apply,
    val_main_v17_apply, val_main_v16_apply, val_main_cst_0_apply]
  unfold score
  refine congrArg (fun z => FloatOps.hostDivf (FloatOps.hostDivf z _) _) (Finset.sum_congr rfl fun j _ => ?_)
  rw [lidx_v12, ridx_v12]

/-! ## The row maximum: the max-reduce over the last axis, read as a fold over its coordinates -/

theorem reduces_d2 : S4x2048x2048.Reduces [2] S4x2048 := by decide

/-- Inserting the coordinate `t` on the dropped axis of (b, s) gives (b, s, t). -/
theorem lift_d2 (b : Fin 4) (s t : Fin 2048) : reduces_d2.lift (ix2 b s) t = ix3 b s t :=
  funext fun a => Fin.ext (by match a with | ⟨0, _⟩ => rfl | ⟨1, _⟩ => rfl | ⟨2, _⟩ => rfl)

theorem rowMax_at (b : Fin 4) (s : Fin 2048) :
    val_main_v21 (F := Ideal) x0 x1 x2 x3 x4 (ix2 b s) = rowMax (val_main_v3 (F := Ideal) x0 x1 x2) (val_main_v7 (F := Ideal) x0 x3 x4) b s := by
  rw [val_main_v21_apply, val_main_v20_apply, val_main_cst_2_apply]
  unfold val_main_v19
  rw [Host.reduce_eq_fold_single FloatOps.maximumf _ _ reducesTo_S4x2048x2048_S4x2048_d2 reduces_d2 h_S_, val_main_cst_1_apply]
  have hf : (val_main_v18 (F := Ideal) x0 x1 x2 x3 x4 ∘ reduces_d2.lift (ix2 b s))
      = fun t : Fin 2048 => score (val_main_v3 (F := Ideal) x0 x1 x2) (val_main_v7 (F := Ideal) x0 x3 x4) b s t :=
    funext fun t => (congrArg (val_main_v18 (F := Ideal) x0 x1 x2 x3 x4) (lift_d2 b s t)).trans (score_at x0 x1 x2 x3 x4 b s t)
  rw [hf]
  rfl

/-! ## The weights and their sum -/

theorem idx_v23 (b : Fin 4) (s t : Fin 2048) : idx_main_v22 (idx_main_v23 (ix3 b s t)) = ix2 b s :=
  funext fun a => by match a with | ⟨0, _⟩ => rfl | ⟨1, _⟩ => rfl

theorem weight_at (b : Fin 4) (s t : Fin 2048) :
    val_main_v25 (F := Ideal) x0 x1 x2 x3 x4 (ix3 b s t) = weight (val_main_v3 (F := Ideal) x0 x1 x2) (val_main_v7 (F := Ideal) x0 x3 x4) b s t := by
  rw [val_main_v25_apply, val_main_v24_apply, val_main_v23_apply, val_main_v22_apply, idx_v23, rowMax_at, score_at]
  rfl

theorem idx_v26 (b : Fin 4) (s t : Fin 2048) : idx_main_v26 (ix2 b s) t = ix3 b s t :=
  funext fun a => by match a with | ⟨0, _⟩ => rfl | ⟨1, _⟩ => rfl | ⟨2, _⟩ => rfl

theorem denom_at (b : Fin 4) (s : Fin 2048) :
    val_main_v26 (F := Ideal) x0 x1 x2 x3 x4 (ix2 b s) = denom (val_main_v3 (F := Ideal) x0 x1 x2) (val_main_v7 (F := Ideal) x0 x3 x4) b s := by
  rw [val_main_v26_apply, val_main_cst_3_apply]
  unfold denom
  refine congrArg (_ + ·) (Finset.sum_congr rfl fun t _ => ?_)
  rw [idx_v26, weight_at]

/-! ## The normalised weights and the product with v -/

theorem idx_v28 (b : Fin 4) (s t : Fin 2048) : idx_main_v27 (idx_main_v28 (ix3 b s t)) = ix2 b s :=
  funext fun a => by match a with | ⟨0, _⟩ => rfl | ⟨1, _⟩ => rfl

theorem prob_at (b : Fin 4) (s t : Fin 2048) :
    val_main_v29 (F := Ideal) x0 x1 x2 x3 x4 (ix3 b s t)
      = Ideal.div (weight (val_main_v3 (F := Ideal) x0 x1 x2) (val_main_v7 (F := Ideal) x0 x3 x4) b s t) (denom (val_main_v3 (F := Ideal) x0 x1 x2) (val_main_v7 (F := Ideal) x0 x3 x4) b s) := by
  rw [val_main_v29_apply, val_main_v28_apply, val_main_v27_apply, idx_v28, weight_at, denom_at]
  rfl

theorem lidx_v30 (b : Fin 4) (s : Fin 2048) (d : Fin 128) (t : Fin 2048) : lidx_main_v30 (ix3 b s d) t = ix3 b s t :=
  funext fun a => by match a with | ⟨0, _⟩ => rfl | ⟨1, _⟩ => rfl | ⟨2, _⟩ => rfl
theorem ridx_v30 (b : Fin 4) (s : Fin 2048) (d : Fin 128) (t : Fin 2048) : ridx_main_v30 (ix3 b s d) t = ix3 b t d :=
  funext fun a => by match a with | ⟨0, _⟩ => rfl | ⟨1, _⟩ => rfl | ⟨2, _⟩ => rfl

theorem result_at (b : Fin 4) (s : Fin 2048) (d : Fin 128) :
    val_main_v30 (F := Ideal) x0 x1 x2 x3 x4 x5 x6 (ix3 b s d) = attnRef (val_main_v3 (F := Ideal) x0 x1 x2) (val_main_v7 (F := Ideal) x0 x3 x4) (val_main_v11 (F := Ideal) x0 x5 x6) (ix3 b s d) := by
  rw [val_main_v30_apply, attnRef_ix3]
  refine Finset.sum_congr rfl fun t _ => ?_
  rw [lidx_v30, ridx_v30, prob_at]

/-- The reference's result is softmax attention of its own three projections. -/
theorem result_eq :
    val_main_v30 (F := Ideal) x0 x1 x2 x3 x4 x5 x6 = attnRef (val_main_v3 (F := Ideal) x0 x1 x2) (val_main_v7 (F := Ideal) x0 x3 x4) (val_main_v11 (F := Ideal) x0 x5 x6) := by
  funext i
  obtain ⟨b, s, d, rfl⟩ : ∃ (b : Fin 4) (s : Fin 2048) (d : Fin 128), i = ix3 b s d := ⟨i 0, i 1, i 2, eq_ix3 i⟩
  exact result_at x0 x1 x2 x3 x4 x5 x6 b s d

/-- The same with the projections named: attention of `projOf` of the input with each weight matrix and bias row. -/
theorem result_eq_proj :
    val_main_v30 (F := Ideal) x0 x1 x2 x3 x4 x5 x6 = attnRef (projOf x0 x1 x2) (projOf x0 x3 x4) (projOf x0 x5 x6) := by
  rw [result_eq, q_eq, k_eq, v_eq]

end Cert.ReferenceIdeal.RefValue

end
-- ==== Proof.Claims.lean ====
/-
  The certificate's claims.

  The three frames: each kernel program's by the run of its two regions (the word-level program and its idealization
  are the same text read at two instances), the reference's by its run with the result dropped. The idealization
  rewrote nothing, so it preserves the program trivially. The algebraic claim: the kernel's result array, read off the
  run of its two regions, and the reference's result term are ONE function of the argument arrays — softmax attention
  of the three projections — under the precondition that every input is finite.
-/
import proofs.«112745_j14748917694967_2_alg».proof.Defs
import proofs.«112745_j14748917694967_2_alg».proof.Proof.Main
import proofs.«112745_j14748917694967_2_alg».proof.Proof.KMain
import proofs.«112745_j14748917694967_2_alg».proof.Proof.KernelValue
import proofs.«112745_j14748917694967_2_alg».proof.Proof.RefValue
import proofs.«112745_j14748917694967_2_alg».proof.Proof.Gen.Kernel
import proofs.«112745_j14748917694967_2_alg».proof.Proof.Gen.KernelIdeal
import proofs.«112745_j14748917694967_2_alg».proof.Proof.Gen.ReferenceIdeal
import proofs.«112745_j14748917694967_2_alg».proof.Proof.Gen.Pre_finite_inputs
import proofs.«112745_j14748917694967_2_alg».proof.Proof.Gen.ReferenceIdeal.Run
import proofs.«112745_j14748917694967_2_alg».proof.Proof.Gen.ReferenceIdeal.Read

noncomputable section

namespace Cert.Proof.Claims

open Idealize.ShloMosaic Idealize.ShloMosaic.TcCoe Idealize.SL.Sem

/-- The word-level program runs and leaves its arguments as launched. -/
theorem frame_k : Cert.frame_Kernel := fun m ρ _ => Cert.Kernel.Main.frame (F := Bits) m ρ

/-- So does its idealization. -/
theorem frame_ki : Cert.frame_KernelIdeal := fun m ρ _ => Cert.KernelIdeal.Main.frame (F := Ideal) m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with softmax attention of the three projections of the arguments in their result arrays. -/
theorem algebraic : Cert.algebraic_KernelIdeal_ReferenceIdeal := by
  intro m ρ m' ρ' hpre hagree
  refine ⟨fun c => (Cert.KernelIdeal.Attn.dat1 (Cert.KernelIdeal.Main.Vq m ρ) c).arrAt 3 Cert.KernelIdeal.cfg1.N,
    Cert.KernelIdeal.Main.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq_proj,
    (hagree c).1, (hagree c).2.1, (hagree c).2.2.1, (hagree c).2.2.2.1, (hagree c).2.2.2.2.1,
    (hagree c).2.2.2.2.2.1, (hagree c).2.2.2.2.2.2]
  exact (Cert.KernelIdeal.KernelValue.result_eq m ρ hpre c).symm

end Cert.Proof.Claims

end
-- ==== Proof.lean ====
/-
  Self-attention with dense Q, K, V projections: a two-kernel implementation against its plain reference, over the
  extended reals.

  The kernel program is two pipelined regions. The first computes the three projections q, k, v = x·W + b of the
  input, one tile of 1024 rows per grid point. The second is attention by the online-softmax recurrence: for each
  query tile it walks the two key tiles, keeping a running row maximum, a running normaliser and a running
  weighted sum in three scratch buffers, and divides the sum by the normaliser after the second tile. The reference
  computes the same projections, the scores q·kᵀ divided twice by √128, a row softmax and the weighted sum with v.

  At the ideal instance the two results are the same function of the arguments when the inputs are finite: the
  kernel's scale 2⁻⁷ is 1/128 = 1/(√128·√128); rescaling the first tile's partial sums by exp(m₁ − m₂) turns
  exp(s − m₁) into exp(s − m₂), so the numerator and the denominator are the full sums over both tiles against the
  global row maximum, and the quotient of the sums is the sum of the quotients.

  The frames of the two kernel programs are the run of their regions (one text, read at the word-level instance and
  at the ideal one); the reference's is its run. The idealization rewrote nothing.
-/
import proofs.«112745_j14748917694967_2_alg».proof.Defs
import proofs.«112745_j14748917694967_2_alg».proof.Proof.Gen.Kernel
import proofs.«112745_j14748917694967_2_alg».proof.Proof.Gen.Kernel.Skeleton
import proofs.«112745_j14748917694967_2_alg».proof.Proof.Gen.Kernel.Launch
import proofs.«112745_j14748917694967_2_alg».proof.Proof.Gen.Kernel.Regions
import proofs.«112745_j14748917694967_2_alg».proof.Proof.Gen.Kernel.Points
import proofs.«112745_j14748917694967_2_alg».proof.Proof.Gen.KernelIdeal
import proofs.«112745_j14748917694967_2_alg».proof.Proof.Gen.KernelIdeal.Skeleton
import proofs.«112745_j14748917694967_2_alg».proof.Proof.Gen.KernelIdeal.Launch
import proofs.«112745_j14748917694967_2_alg».proof.Proof.Gen.KernelIdeal.Regions
import proofs.«112745_j14748917694967_2_alg».proof.Proof.Gen.KernelIdeal.Points
import proofs.«112745_j14748917694967_2_alg».proof.Proof.Gen.ReferenceIdeal
import proofs.«112745_j14748917694967_2_alg».proof.Proof.Gen.Pre_finite_inputs
import proofs.«112745_j14748917694967_2_alg».proof.Proof.Gen.ReferenceIdeal.Run
import proofs.«112745_j14748917694967_2_alg».proof.Proof.Gen.ReferenceIdeal.Read
import proofs.«112745_j14748917694967_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
